-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x3 : Shape := ⟨4, ![4, 16, 2048, 3]⟩
abbrev S16x2048x3 : Shape := ⟨3, ![16, 2048, 3]⟩
abbrev S4x16x3 : Shape := ⟨3, ![4, 16, 3]⟩
abbrev S4x16 : Shape := ⟨2, ![4, 16]⟩
abbrev S_ : Shape := ⟨0, ![]⟩

class Facts : Prop where
  bcast_S_S4x16x2048x3 : S_.BroadcastsInDim S4x16x2048x3 (![] : Fin 0 → Fin S4x16x2048x3.rank)
  reducesTo_S4x16x2048x3_S_d0_1_2_3 : S4x16x2048x3.ReducesTo [0, 1, 2, 3] S_
  h_S_ : 0 < S_.numel
  bcast_S_S16x2048x3 : S_.BroadcastsInDim S16x2048x3 (![] : Fin 0 → Fin S16x2048x3.rank)
  reducesTo_S16x2048x3_S_d0_1_2 : S16x2048x3.ReducesTo [0, 1, 2] S_
  bcast_S_S4x16x3 : S_.BroadcastsInDim S4x16x3 (![] : Fin 0 → Fin S4x16x3.rank)
  reducesTo_S4x16x3_S_d0_1_2 : S4x16x3.ReducesTo [0, 1, 2] S_
  bcast_S_S4x16 : S_.BroadcastsInDim S4x16 (![] : Fin 0 → Fin S4x16.rank)
  reducesTo_S4x16_S_d0_1 : S4x16.ReducesTo [0, 1] S_

variable [Facts]

def fn_part1 {F : FTy → Type} [FloatOps F] (main_arg4 : FVec F S4x16 .f32) (main_v13 : IVec S_ 1) (main_v16 : IVec S4x16x3 1) : IVec S_ 1 :=
  let main_c_5 : IVec S_ 1 := constantI S_ 1 1#1
  let main_v17 : IVec S_ 1 := (fun x v => Host.reduce IntOp.andi x v reducesTo_S4x16x3_S_d0_1_2 h_S_) main_v16 main_c_5
  let main_v18 : IVec S_ 1 := andi main_v13 main_v17
  let main_v19 : FVec F S4x16 .f32 := Host.absf main_arg4
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  main_v23

def fn {F : FTy → Type} [FloatOps F] (main_arg0 : FVec F S4x16x2048x3 .f32) (main_arg1 : FVec F S16x2048x3 .f32) (main_arg2 : FVec F S4x16x3 .f32) (main_arg3 : FVec F S4x16x3 .f32) (main_arg4 : FVec F S4x16 .f32) : IVec S_ 1 :=
  let main_v0 : FVec F S4x16x2048x3 .f32 := Host.absf main_arg0
  let main_cst : FVec F S_ .f32 := constant S_ .f32 0x7F800000#32
  let main_v1 : FVec F S4x16x2048x3 .f32 := broadcastInDim S4x16x2048x3 ![] bcast_S_S4x16x2048x3 main_cst
  let main_v2 : IVec S4x16x2048x3 1 := cmpf .olt main_v0 main_v1
  let main_c : IVec S_ 1 := constantI S_ 1 1#1
  let main_v3 : IVec S_ 1 := (fun x v => Host.reduce IntOp.andi x v reducesTo_S4x16x2048x3_S_d0_1_2_3 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  let main_v9 : FVec F S4x16x3 .f32 := Host.absf main_arg2
  let main_cst_2 : FVec F S_ .f32 := constant S_ .f32 0x7F800000#32
  let main_v10 : FVec F S4x16x3 .f32 := broadcastInDim S4x16x3 ![] bcast_S_S4x16x3 main_cst_2
  let main_v11 : IVec S4x16x3 1 := cmpf .olt main_v9 main_v10
  let main_c_3 : IVec S_ 1 := constantI S_ 1 1#1
  let main_v12 : IVec S_ 1 := (fun x v => Host.reduce IntOp.andi x v reducesTo_S4x16x3_S_d0_1_2 h_S_) main_v11 main_c_3
  let main_v13 : IVec S_ 1 := andi main_v8 main_v12
  let main_v14 : FVec F S4x16x3 .f32 := Host.absf main_arg3
  let main_cst_4 : FVec F S_ .f32 := constant S_ .f32 0x7F800000#32
  let main_v15 : FVec F S4x16x3 .f32 := broadcastInDim S4x16x3 ![] bcast_S_S4x16x3 main_cst_4
  let main_v16 : IVec S4x16x3 1 := cmpf .olt main_v14 main_v15
  fn_part1 (F := F) main_arg4 main_v13 main_v16
-- ==== Kernel.lean ====
abbrev S4x16x2048x3 : Shape := ⟨4, ![4, 16, 2048, 3]⟩
abbrev S16x2048x3 : Shape := ⟨3, ![16, 2048, 3]⟩
abbrev S4x16x3 : Shape := ⟨3, ![4, 16, 3]⟩
abbrev S4x16 : Shape := ⟨2, ![4, 16]⟩
abbrev S4x16x1 : Shape := ⟨3, ![4, 16, 1]⟩
abbrev S_ : Shape := ⟨0, ![]⟩
abbrev S4x16x9 : Shape := ⟨3, ![4, 16, 9]⟩
abbrev S4x16x3x3 : Shape := ⟨4, ![4, 16, 3, 3]⟩
abbrev S4x16x3x2048 : Shape := ⟨4, ![4, 16, 3, 2048]⟩
abbrev S16x3x2048 : Shape := ⟨3, ![16, 3, 2048]⟩
abbrev S4x16x3x1 : Shape := ⟨4, ![4, 16, 3, 1]⟩
abbrev S4x16x1x1 : Shape := ⟨4, ![4, 16, 1, 1]⟩
abbrev S1x1x3x3 : Shape := ⟨4, ![1, 1, 3, 3]⟩
abbrev S1x1x3x1 : Shape := ⟨4, ![1, 1, 3, 1]⟩
abbrev S1x1x1x1 : Shape := ⟨4, ![1, 1, 1, 1]⟩
abbrev S1x1x3x2048 : Shape := ⟨4, ![1, 1, 3, 2048]⟩
abbrev S1x3x2048 : Shape := ⟨3, ![1, 3, 2048]⟩
abbrev S2048x3 : Shape := ⟨2, ![2048, 3]⟩
abbrev S3x3 : Shape := ⟨2, ![3, 3]⟩
abbrev S3x1 : Shape := ⟨2, ![3, 1]⟩
abbrev S1x1 : Shape := ⟨2, ![1, 1]⟩
abbrev S3x2048 : Shape := ⟨2, ![3, 2048]⟩
abbrev S1x2048 : Shape := ⟨2, ![1, 2048]⟩
abbrev S256x3 : Shape := ⟨2, ![256, 3]⟩
abbrev S256x2048 : Shape := ⟨2, ![256, 2048]⟩
abbrev S256x1 : Shape := ⟨2, ![256, 1]⟩
abbrev S256 : Shape := ⟨1, ![256]⟩
abbrev S1 : Shape := ⟨1, ![1]⟩
abbrev S2048 : Shape := ⟨1, ![2048]⟩

abbrev nBuf : Space → Nat
  | .hbm => 65
  | .vmem => 13
  | .smem => 0
  | _ => 0

abbrev bufTy : (tb : Table) → Fin (tcTables nBuf tb) → BufTy
  | .hbm, ⟨0, _⟩ => ⟨S4x16x2048x3, .f32⟩
  | .hbm, ⟨1, _⟩ => ⟨S16x2048x3, .f32⟩
  | .hbm, ⟨2, _⟩ => ⟨S4x16x3, .f32⟩
  | .hbm, ⟨3, _⟩ => ⟨S4x16x3, .f32⟩
  | .hbm, ⟨4, _⟩ => ⟨S4x16, .f32⟩
  | .hbm, ⟨5, _⟩ => ⟨S4x16x1, .f32⟩
  | .hbm, ⟨6, _⟩ => ⟨S4x16, .f32⟩
  | .hbm, ⟨7, _⟩ => ⟨S4x16x1, .f32⟩
  | .hbm, ⟨8, _⟩ => ⟨S4x16, .f32⟩
  | .hbm, ⟨9, _⟩ => ⟨S4x16x1, .f32⟩
  | .hbm, ⟨10, _⟩ => ⟨S4x16, .f32⟩
  | .hbm, ⟨11, _⟩ => ⟨S4x16, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S4x16, .f32⟩
  | .hbm, ⟨16, _⟩ => ⟨S4x16, .f32⟩
  | .hbm, ⟨17, _⟩ => ⟨S_, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S4x16x1, .f32⟩
  | .hbm, ⟨23, _⟩ => ⟨S4x16x1, .f32⟩
  | .hbm, ⟨24, _⟩ => ⟨S4x16x1, .f32⟩
  | .hbm, ⟨25, _⟩ => ⟨S4x16x1, .f32⟩
  | .hbm, ⟨26, _⟩ => ⟨S4x16x1, .f32⟩
  | .hbm, ⟨27, _⟩ => ⟨S4x16x1, .f32⟩
  | .hbm, ⟨28, _⟩ => ⟨S4x16x1, .f32⟩
  | .hbm, ⟨29, _⟩ => ⟨S4x16x1, .f32⟩
  | .hbm, ⟨30, _⟩ => ⟨S4x16x1, .f32⟩
  | .hbm, ⟨31, _⟩ => ⟨S4x16x9, .f32⟩
  | .hbm, ⟨32, _⟩ => ⟨S4x16x3x3, .f32⟩
  | .hbm, ⟨33, _⟩ => ⟨S4x16, .f32⟩
  | .hbm, ⟨34, _⟩ => ⟨S4x16x1, .f32⟩
  | .hbm, ⟨35, _⟩ => ⟨S4x16x1, .f32⟩
  | .hbm, ⟨36, _⟩ => ⟨S4x16x1, .f32⟩
  | .hbm, ⟨37, _⟩ => ⟨S4x16x1, .f32⟩
  | .hbm, ⟨38, _⟩ => ⟨S4x16x1, .f32⟩
  | .hbm, ⟨39, _⟩ => ⟨S4x16x1, .f32⟩
  | .hbm, ⟨40, _⟩ => ⟨S4x16x1, .f32⟩
  | .hbm, ⟨41, _⟩ => ⟨S4x16x1, .f32⟩
  | .hbm, ⟨42, _⟩ => ⟨S4x16x1, .f32⟩
  | .hbm, ⟨43, _⟩ => ⟨S4x16x9, .f32⟩
  | .hbm, ⟨44, _⟩ => ⟨S4x16x3x3, .f32⟩
  | .hbm, ⟨45, _⟩ => ⟨S4x16, .f32⟩
  | .hbm, ⟨46, _⟩ => ⟨S4x16x1, .f32⟩
  | .hbm, ⟨47, _⟩ => ⟨S4x16x1, .f32⟩
  | .hbm, ⟨48, _⟩ => ⟨S4x16x1, .f32⟩
  | .hbm, ⟨49, _⟩ => ⟨S4x16x1, .f32⟩
  | .hbm, ⟨50, _⟩ => ⟨S4x16x1, .f32⟩
  | .hbm, ⟨51, _⟩ => ⟨S4x16x1, .f32⟩
  | .hbm, ⟨52, _⟩ => ⟨S4x16x1, .f32⟩
  | .hbm, ⟨53, _⟩ => ⟨S4x16x1, .f32⟩
  | .hbm, ⟨54, _⟩ => ⟨S4x16x1, .f32⟩
  | .hbm, ⟨55, _⟩ => ⟨S4x16x9, .f32⟩
  | .hbm, ⟨56, _⟩ => ⟨S4x16x3x3, .f32⟩
  | .hbm, ⟨57, _⟩ => ⟨S4x16x3x3, .f32⟩
  | .hbm, ⟨58, _⟩ => ⟨S4x16x3x3, .f32⟩
  | .hbm, ⟨59, _⟩ => ⟨S4x16x3x2048, .f32⟩
  | .hbm, ⟨60, _⟩ => ⟨S16x3x2048, .f32⟩
  | .hbm, ⟨61, _⟩ => ⟨S4x16x3x1, .f32⟩
  | .hbm, ⟨62, _⟩ => ⟨S4x16x1x1, .f32⟩
  | .hbm, ⟨63, _⟩ => ⟨S4x16x1x1, .f32⟩
  | .hbm, ⟨64, _⟩ => ⟨S4x16, .f32⟩
  | .local _ .vmem, ⟨0, _⟩ => ⟨S1x1x3x3, .f32⟩
  | .local _ .vmem, ⟨1, _⟩ => ⟨S1x1x3x3, .f32⟩
  | .local _ .vmem, ⟨2, _⟩ => ⟨S1x1x3x1, .f32⟩
  | .local _ .vmem, ⟨3, _⟩ => ⟨S1x1x3x1, .f32⟩
  | .local _ .vmem, ⟨4, _⟩ => ⟨S1x1x1x1, .f32⟩
  | .local _ .vmem, ⟨5, _⟩ => ⟨S1x1x1x1, .f32⟩
  | .local _ .vmem, ⟨6, _⟩ => ⟨S1x1x3x2048, .f32⟩
  | .local _ .vmem, ⟨7, _⟩ => ⟨S1x1x3x2048, .f32⟩
  | .local _ .vmem, ⟨8, _⟩ => ⟨S1x3x2048, .f32⟩
  | .local _ .vmem, ⟨9, _⟩ => ⟨S1x3x2048, .f32⟩
  | .local _ .vmem, ⟨10, _⟩ => ⟨S1x1x1x1, .f32⟩
  | .local _ .vmem, ⟨11, _⟩ => ⟨S1x1x1x1, .f32⟩
  | .local _ .vmem, ⟨12, _⟩ => ⟨S2048x3, .f32⟩
  | _, _ => ⟨S4x16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c8_i32 : BitVec 32 := 8#32
  let v72 : BitVec 32 := Scalar.addi c0_i32 c8_i32
  let c1_i32 : BitVec 32 := 1#32
  ⟨c0_i32, v72, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v84 : BitVec 32 := Scalar.muli arg9 c256_i32
  v84
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v84 : BitVec 32 := Scalar.muli arg9 c256_i32
  let v85 : BitVec 32 := v84
  let v86 : Index := Scalar.indexCast v85
  let c0_29 : Index := 0#32
  ![v86.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x3x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S4x16x3_S4x16x1_0_0_0 : S4x16x3.Slices ![0, 0, 0] S4x16x1
  shapeCasts_S4x16x1_S4x16 : S4x16x1.ShapeCasts S4x16
  slices_S4x16x3_S4x16x1_0_0_1 : S4x16x3.Slices ![0, 0, 1] S4x16x1
  slices_S4x16x3_S4x16x1_0_0_2 : S4x16x3.Slices ![0, 0, 2] S4x16x1
  bcast_S_S4x16 : S_.BroadcastsInDim S4x16 (![] : Fin 0 → Fin S4x16.rank)
  bcast_S4x16_S4x16x1_0_1 : S4x16.BroadcastsInDim S4x16x1 (![0, 1] : Fin 2 → Fin S4x16x1.rank)
  concatenates_S4x16x1_S4x16x1_S4x16x1_S4x16x1_S4x16x1_S4x16x1_S4x16x1_S4x16x1_S4x16x1_S4x16x9_d2 : Shape.Concatenates [S4x16x1, S4x16x1, S4x16x1, S4x16x1, S4x16x1, S4x16x1, S4x16x1, S4x16x1, S4x16x1] S4x16x9 2
  shapeCasts_S4x16x9_S4x16x3x3 : S4x16x9.ShapeCasts S4x16x3x3
  transposes_S4x16x2048x3_S4x16x3x2048_0_1_3_2 : S4x16x2048x3.Transposes [0, 1, 3, 2] S4x16x3x2048
  transposes_S16x2048x3_S16x3x2048_0_2_1 : S16x2048x3.Transposes [0, 2, 1] S16x3x2048
  bcast_S4x16x3_S4x16x3x1_0_1_2 : S4x16x3.BroadcastsInDim S4x16x3x1 (![0, 1, 2] : Fin 3 → Fin S4x16x3x1.rank)
  bcast_S4x16_S4x16x1x1_0_1 : S4x16.BroadcastsInDim S4x16x1x1 (![0, 1] : Fin 2 → Fin S4x16x1x1.rank)
  inb_S1x1x3x3_S1x1x3x3_0_0_0_0 : ∀ a, (![0, 0, 0, 0] : Fin 4 → Nat) a + S1x1x3x3.size a ≤ S1x1x3x3.size a
  h_S1x1x3x3 : 0 < S1x1x3x3.numel
  shapeCasts_S1x1x3x3_S3x3 : S1x1x3x3.ShapeCasts S3x3
  inb_S1x1x3x1_S1x1x3x1_0_0_0_0 : ∀ a, (![0, 0, 0, 0] : Fin 4 → Nat) a + S1x1x3x1.size a ≤ S1x1x3x1.size a
  h_S1x1x3x1 : 0 < S1x1x3x1.numel
  shapeCasts_S1x1x3x1_S3x1 : S1x1x3x1.ShapeCasts S3x1
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1 : S1x1x1x1.ShapeCasts S1x1
  inb_S1x1x3x2048_S1x1x3x2048_0_0_0_0 : ∀ a, (![0, 0, 0, 0] : Fin 4 → Nat) a + S1x1x3x2048.size a ≤ S1x1x3x2048.size a
  h_S1x1x3x2048 : 0 < S1x1x3x2048.numel
  shapeCasts_S1x1x3x2048_S3x2048 : S1x1x3x2048.ShapeCasts S3x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S3x3_o0_0_S1x1 : S3x3.Slices ![0, 0] S1x1
  inpos_S1x1_p0_0 : ∀ a, (![0, 0] : Fin 2 → Nat) a < S1x1.size a
  slices_S3x2048_o0_0_S1x2048 : S3x2048.Slices ![0, 0] S1x2048
  slices_S3x3_o0_1_S1x1 : S3x3.Slices ![0, 1] S1x1
  slices_S3x2048_o1_0_S1x2048 : S3x2048.Slices ![1, 0] S1x2048
  slices_S3x3_o0_2_S1x1 : S3x3.Slices ![0, 2] S1x1
  slices_S3x2048_o2_0_S1x2048 : S3x2048.Slices ![2, 0] S1x2048
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  concatenates_S1x2048_S1x2048_S1x2048_S3x2048_d0 : Shape.Concatenates [S1x2048, S1x2048, S1x2048] S3x2048 0
  broadcasts_S3x1_S3x2048 : S3x1.Broadcasts S3x2048
  broadcasts_S1x1_S3x2048 : S1x1.Broadcasts S3x2048
  transposes_S3x2048_p1_0_S2048x3 : S3x2048.Transposes [1, 0] S2048x3
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  h_S256x3 : 0 < S256x3.numel
  slices_S256x3_o0_0_S256x1 : S256x3.Slices ![0, 0] S256x1
  broadcasts_S256x1_S256x2048 : S256x1.Broadcasts S256x2048
  broadcasts_S1x2048_S256x2048 : S1x2048.Broadcasts S256x2048
  slices_S256x3_o0_1_S256x1 : S256x3.Slices ![0, 1] S256x1
  slices_S256x3_o0_2_S256x1 : S256x3.Slices ![0, 2] S256x1
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  reduces_S256x2048_S2048 : S256x2048.Reduces [0] S2048
  shapeCasts_S2048_S1x2048 : S2048.ShapeCasts S1x2048
  reduces_S1x2048_S1 : S1x2048.Reduces [1] S1
  shapeCasts_S1x1_S1x1x1x1 : S1x1.ShapeCasts S1x1x1x1
  shapeCasts_S4x16x1x1_S4x16 : S4x16x1x1.ShapeCasts S4x16
  dot_S4x16x3x3_S4x16x3x3_S4x16x3x3_3_2_2_3_01_01_wf : DotDims.WF S4x16x3x3 S4x16x3x3 S4x16x3x3 [3] [2] [2] [3] [0, 1] [0, 1]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x3.size a ≤ S2048x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3x3.size a ≤ S4x16x3x3.size a
  hwx0_0 : ∀ i : grid0.Coords, EltTy.bits .f32 = 32 ∨ (Rect.block (s := S4x16x3x3) S1x1x3x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3x1.size a ≤ S4x16x3x1.size a
  hwx0_1 : ∀ i : grid0.Coords, EltTy.bits .f32 = 32 ∨ (Rect.block (s := S4x16x3x1) S1x1x3x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S4x16x1x1.size a
  hwx0_2 : ∀ i : grid0.Coords, EltTy.bits .f32 = 32 ∨ (Rect.block (s := S4x16x1x1) S1x1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x3x2048.size a ≤ S4x16x3x2048.size a
  hwx0_3 : ∀ i : grid0.Coords, EltTy.bits .f32 = 32 ∨ (Rect.block (s := S4x16x3x2048) S1x1x3x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x2048.size a ≤ S16x3x2048.size a
  hwx0_4 : ∀ i : grid0.Coords, EltTy.bits .f32 = 32 ∨ (Rect.block (s := S16x3x2048) S1x3x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x1.size a ≤ S4x16x1x1.size a
  hwx0_5 : ∀ i : grid0.Coords, EltTy.bits .f32 = 32 ∨ (Rect.block (s := S4x16x1x1) S1x1x1x1.size (cc0_transform_5 i) (hinb0_5 i)).WholeWords (EltTy.packing .f32)

variable [Facts₀]

def dot_S4x16x3x3_S4x16x3x3_S4x16x3x3_3_2_2_3_01_01 : DotDims S4x16x3x3 S4x16x3x3 S4x16x3x3 where
  lhsContracting := [3]
  rhsContracting := [2]
  lhsNonContracting := [2]
  rhsNonContracting := [3]
  lhsBatch := [0, 1]
  rhsBatch := [0, 1]
  wf := dot_S4x16x3x3_S4x16x3x3_S4x16x3x3_3_2_2_3_01_01_wf

abbrev win0_0 : Pipeline.Window sig grid0 :=
  Pipeline.Window.ofSpec (Memref.whole main_v51) S1x1x3x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S1x1x3x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1x1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S1x1x3x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x3x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S1x1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x3 : Shape := ⟨4, ![4, 16, 2048, 3]⟩
abbrev S16x2048x3 : Shape := ⟨3, ![16, 2048, 3]⟩
abbrev S4x16x3 : Shape := ⟨3, ![4, 16, 3]⟩
abbrev S4x16 : Shape := ⟨2, ![4, 16]⟩
abbrev S4x16x1 : Shape := ⟨3, ![4, 16, 1]⟩
abbrev S_ : Shape := ⟨0, ![]⟩
abbrev S4x16x9 : Shape := ⟨3, ![4, 16, 9]⟩
abbrev S4x16x3x3 : Shape := ⟨4, ![4, 16, 3, 3]⟩
abbrev S4x16x1x1 : Shape := ⟨4, ![4, 16, 1, 1]⟩
abbrev S4x16x1x3 : Shape := ⟨4, ![4, 16, 1, 3]⟩
abbrev S1x16x2048x3 : Shape := ⟨4, ![1, 16, 2048, 3]⟩
abbrev S4x16x2048 : Shape := ⟨3, ![4, 16, 2048]⟩
abbrev S4x16x2048x1 : Shape := ⟨4, ![4, 16, 2048, 1]⟩
abbrev S4x16x1x2048 : Shape := ⟨4, ![4, 16, 1, 2048]⟩
abbrev S4x16x2048x2048 : Shape := ⟨4, ![4, 16, 2048, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4x16x2048x3, .f32⟩
  | .hbm, ⟨1, _⟩ => ⟨S16x2048x3, .f32⟩
  | .hbm, ⟨2, _⟩ => ⟨S4x16x3, .f32⟩
  | .hbm, ⟨3, _⟩ => ⟨S4x16x3, .f32⟩
  | .hbm, ⟨4, _⟩ => ⟨S4x16, .f32⟩
  | .hbm, ⟨5, _⟩ => ⟨S4x16x1, .f32⟩
  | .hbm, ⟨6, _⟩ => ⟨S4x16, .f32⟩
  | .hbm, ⟨7, _⟩ => ⟨S4x16x1, .f32⟩
  | .hbm, ⟨8, _⟩ => ⟨S4x16, .f32⟩
  | .hbm, ⟨9, _⟩ => ⟨S4x16x1, .f32⟩
  | .hbm, ⟨10, _⟩ => ⟨S4x16, .f32⟩
  | .hbm, ⟨11, _⟩ => ⟨S4x16, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S4x16, .f32⟩
  | .hbm, ⟨16, _⟩ => ⟨S4x16, .f32⟩
  | .hbm, ⟨17, _⟩ => ⟨S_, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S4x16x1, .f32⟩
  | .hbm, ⟨23, _⟩ => ⟨S4x16x1, .f32⟩
  | .hbm, ⟨24, _⟩ => ⟨S4x16x1, .f32⟩
  | .hbm, ⟨25, _⟩ => ⟨S4x16x1, .f32⟩
  | .hbm, ⟨26, _⟩ => ⟨S4x16x1, .f32⟩
  | .hbm, ⟨27, _⟩ => ⟨S4x16x1, .f32⟩
  | .hbm, ⟨28, _⟩ => ⟨S4x16x1, .f32⟩
  | .hbm, ⟨29, _⟩ => ⟨S4x16x1, .f32⟩
  | .hbm, ⟨30, _⟩ => ⟨S4x16x1, .f32⟩
  | .hbm, ⟨31, _⟩ => ⟨S4x16x9, .f32⟩
  | .hbm, ⟨32, _⟩ => ⟨S4x16x3x3, .f32⟩
  | .hbm, ⟨33, _⟩ => ⟨S4x16, .f32⟩
  | .hbm, ⟨34, _⟩ => ⟨S4x16x1, .f32⟩
  | .hbm, ⟨35, _⟩ => ⟨S4x16x1, .f32⟩
  | .hbm, ⟨36, _⟩ => ⟨S4x16x1, .f32⟩
  | .hbm, ⟨37, _⟩ => ⟨S4x16x1, .f32⟩
  | .hbm, ⟨38, _⟩ => ⟨S4x16x1, .f32⟩
  | .hbm, ⟨39, _⟩ => ⟨S4x16x1, .f32⟩
  | .hbm, ⟨40, _⟩ => ⟨S4x16x1, .f32⟩
  | .hbm, ⟨41, _⟩ => ⟨S4x16x1, .f32⟩
  | .hbm, ⟨42, _⟩ => ⟨S4x16x1, .f32⟩
  | .hbm, ⟨43, _⟩ => ⟨S4x16x9, .f32⟩
  | .hbm, ⟨44, _⟩ => ⟨S4x16x3x3, .f32⟩
  | .hbm, ⟨45, _⟩ => ⟨S4x16, .f32⟩
  | .hbm, ⟨46, _⟩ => ⟨S4x16x1, .f32⟩
  | .hbm, ⟨47, _⟩ => ⟨S4x16x1, .f32⟩
  | .hbm, ⟨48, _⟩ => ⟨S4x16x1, .f32⟩
  | .hbm, ⟨49, _⟩ => ⟨S4x16x1, .f32⟩
  | .hbm, ⟨50, _⟩ => ⟨S4x16x1, .f32⟩
  | .hbm, ⟨51, _⟩ => ⟨S4x16x1, .f32⟩
  | .hbm, ⟨52, _⟩ => ⟨S4x16x1, .f32⟩
  | .hbm, ⟨53, _⟩ => ⟨S4x16x1, .f32⟩
  | .hbm, ⟨54, _⟩ => ⟨S4x16x1, .f32⟩
  | .hbm, ⟨55, _⟩ => ⟨S4x16x9, .f32⟩
  | .hbm, ⟨56, _⟩ => ⟨S4x16x3x3, .f32⟩
  | .hbm, ⟨57, _⟩ => ⟨S4x16x3x3, .f32⟩
  | .hbm, ⟨58, _⟩ => ⟨S4x16x3x3, .f32⟩
  | .hbm, ⟨59, _⟩ => ⟨S4x16x1x1, .f32⟩
  | .hbm, ⟨60, _⟩ => ⟨S4x16x2048x3, .f32⟩
  | .hbm, ⟨61, _⟩ => ⟨S4x16x1x3, .f32⟩
  | .hbm, ⟨62, _⟩ => ⟨S4x16x2048x3, .f32⟩
  | .hbm, ⟨63, _⟩ => ⟨S4x16x2048x3, .f32⟩
  | .hbm, ⟨64, _⟩ => ⟨S4x16x2048x3, .f32⟩
  | .hbm, ⟨65, _⟩ => ⟨S4x16x2048x3, .f32⟩
  | .hbm, ⟨66, _⟩ => ⟨S1x16x2048x3, .f32⟩
  | .hbm, ⟨67, _⟩ => ⟨S4x16x2048x3, .f32⟩
  | .hbm, ⟨68, _⟩ => ⟨S4x16x2048x3, .f32⟩
  | .hbm, ⟨69, _⟩ => ⟨S_, .f32⟩
  | .hbm, ⟨70, _⟩ => ⟨S4x16x2048, .f32⟩
  | .hbm, ⟨71, _⟩ => ⟨S4x16x2048x3, .f32⟩
  | .hbm, ⟨72, _⟩ => ⟨S_, .f32⟩
  | .hbm, ⟨73, _⟩ => ⟨S4x16x2048, .f32⟩
  | .hbm, ⟨74, _⟩ => ⟨S4x16x2048x1, .f32⟩
  | .hbm, ⟨75, _⟩ => ⟨S4x16x1x2048, .f32⟩
  | .hbm, ⟨76, _⟩ => ⟨S4x16x2048x2048, .f32⟩
  | .hbm, ⟨77, _⟩ => ⟨S4x16x2048x2048, .f32⟩
  | .hbm, ⟨78, _⟩ => ⟨S4x16x2048x2048, .f32⟩
  | .hbm, ⟨79, _⟩ => ⟨S4x16x2048x2048, .f32⟩
  | .hbm, ⟨80, _⟩ => ⟨S_, .f32⟩
  | .hbm, ⟨81, _⟩ => ⟨S4x16x2048x2048, .f32⟩
  | .hbm, ⟨82, _⟩ => ⟨S4x16x2048x2048, .f32⟩
  | .hbm, ⟨83, _⟩ => ⟨S4x16x2048x2048, .f32⟩
  | .hbm, ⟨84, _⟩ => ⟨S_, .f32⟩
  | .hbm, ⟨85, _⟩ => ⟨S4x16x2048, .f32⟩
  | .hbm, ⟨86, _⟩ => ⟨S_, .f32⟩
  | .hbm, ⟨87, _⟩ => ⟨S4x16, .f32⟩
  | .hbm, ⟨88, _⟩ => ⟨S_, .f32⟩
  | .hbm, ⟨89, _⟩ => ⟨S4x16, .f32⟩
  | .hbm, ⟨90, _⟩ => ⟨S4x16, .f32⟩
  | .hbm, ⟨91, _⟩ => ⟨S_, .f32⟩
  | .hbm, ⟨92, _⟩ => ⟨S4x16x2048, .f32⟩
  | .hbm, ⟨93, _⟩ => ⟨S_, .f32⟩
  | .hbm, ⟨94, _⟩ => ⟨S4x16, .f32⟩
  | .hbm, ⟨95, _⟩ => ⟨S_, .f32⟩
  | .hbm, ⟨96, _⟩ => ⟨S4x16, .f32⟩
  | .hbm, ⟨97, _⟩ => ⟨S4x16, .f32⟩
  | .hbm, ⟨98, _⟩ => ⟨S4x16, .f32⟩
  | _, _ => ⟨S4x16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_cst_1 : Ref sig .tc := ⟨.hbm, 69, rfl⟩
abbrev main_v62 : Ref sig .tc := ⟨.hbm, 70, rfl⟩
abbrev main_v63 : Ref sig .tc := ⟨.hbm, 71, rfl⟩
abbrev main_cst_2 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_3 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_4 : Ref sig .tc := ⟨.hbm, 84, rfl⟩
abbrev main_v74 : Ref sig .tc := ⟨.hbm, 85, rfl⟩
abbrev main_cst_5 : Ref sig .tc := ⟨.hbm, 86, rfl⟩
abbrev main_v75 : Ref sig .tc := ⟨.hbm, 87, rfl⟩
abbrev main_cst_6 : Ref sig .tc := ⟨.hbm, 88, rfl⟩
abbrev main_v76 : Ref sig .tc := ⟨.hbm, 89, rfl⟩
abbrev main_v77 : Ref sig .tc := ⟨.hbm, 90, rfl⟩
abbrev main_cst_7 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_cst_9 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]

class Facts₀ : Prop where
  slices_S4x16x3_S4x16x1_0_0_0 : S4x16x3.Slices ![0, 0, 0] S4x16x1
  shapeCasts_S4x16x1_S4x16 : S4x16x1.ShapeCasts S4x16
  slices_S4x16x3_S4x16x1_0_0_1 : S4x16x3.Slices ![0, 0, 1] S4x16x1
  slices_S4x16x3_S4x16x1_0_0_2 : S4x16x3.Slices ![0, 0, 2] S4x16x1
  bcast_S_S4x16 : S_.BroadcastsInDim S4x16 (![] : Fin 0 → Fin S4x16.rank)
  bcast_S4x16_S4x16x1_0_1 : S4x16.BroadcastsInDim S4x16x1 (![0, 1] : Fin 2 → Fin S4x16x1.rank)
  concatenates_S4x16x1_S4x16x1_S4x16x1_S4x16x1_S4x16x1_S4x16x1_S4x16x1_S4x16x1_S4x16x1_S4x16x9_d2 : Shape.Concatenates [S4x16x1, S4x16x1, S4x16x1, S4x16x1, S4x16x1, S4x16x1, S4x16x1, S4x16x1, S4x16x1] S4x16x9 2
  shapeCasts_S4x16x9_S4x16x3x3 : S4x16x9.ShapeCasts S4x16x3x3
  bcast_S4x16_S4x16x1x1_0_1 : S4x16.BroadcastsInDim S4x16x1x1 (![0, 1] : Fin 2 → Fin S4x16x1x1.rank)
  bcast_S4x16x3_S4x16x1x3_0_1_3 : S4x16x3.BroadcastsInDim S4x16x1x3 (![0, 1, 3] : Fin 3 → Fin S4x16x1x3.rank)
  bcast_S4x16x1x3_S4x16x2048x3_0_1_2_3 : S4x16x1x3.BroadcastsInDim S4x16x2048x3 (![0, 1, 2, 3] : Fin 4 → Fin S4x16x2048x3.rank)
  bcast_S4x16x1x1_S4x16x2048x3_0_1_2_3 : S4x16x1x1.BroadcastsInDim S4x16x2048x3 (![0, 1, 2, 3] : Fin 4 → Fin S4x16x2048x3.rank)
  bcast_S16x2048x3_S1x16x2048x3_1_2_3 : S16x2048x3.BroadcastsInDim S1x16x2048x3 (![1, 2, 3] : Fin 3 → Fin S1x16x2048x3.rank)
  bcast_S1x16x2048x3_S4x16x2048x3_0_1_2_3 : S1x16x2048x3.BroadcastsInDim S4x16x2048x3 (![0, 1, 2, 3] : Fin 4 → Fin S4x16x2048x3.rank)
  reducesTo_S4x16x2048x3_S4x16x2048_d3 : S4x16x2048x3.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S4x16x2048_S4x16x1x2048_0_1_3 : S4x16x2048.BroadcastsInDim S4x16x1x2048 (![0, 1, 3] : Fin 3 → Fin S4x16x1x2048.rank)
  bcast_S4x16x2048x1_S4x16x2048x2048_0_1_2_3 : S4x16x2048x1.BroadcastsInDim S4x16x2048x2048 (![0, 1, 2, 3] : Fin 4 → Fin S4x16x2048x2048.rank)
  bcast_S4x16x1x2048_S4x16x2048x2048_0_1_2_3 : S4x16x1x2048.BroadcastsInDim S4x16x2048x2048 (![0, 1, 2, 3] : Fin 4 → Fin S4x16x2048x2048.rank)
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  reducesTo_S4x16x2048_S4x16_d2 : S4x16x2048.ReducesTo [2] S4x16
  reducesTo_S4x16x2048x2048_S4x16x2048_d2 : S4x16x2048x2048.ReducesTo [2] S4x16x2048
  dot_S4x16x3x3_S4x16x3x3_S4x16x3x3_3_2_2_3_01_01_wf : DotDims.WF S4x16x3x3 S4x16x3x3 S4x16x3x3 [3] [2] [2] [3] [0, 1] [0, 1]
  dot_S4x16x2048x3_S4x16x3x3_S4x16x2048x3_3_3_2_2_01_01_wf : DotDims.WF S4x16x2048x3 S4x16x3x3 S4x16x2048x3 [3] [3] [2] [2] [0, 1] [0, 1]
  dot_S4x16x2048x3_S4x16x2048x3_S4x16x2048x2048_3_3_2_2_01_01_wf : DotDims.WF S4x16x2048x3 S4x16x2048x3 S4x16x2048x2048 [3] [3] [2] [2] [0, 1] [0, 1]

variable [Facts₀]

def dot_S4x16x3x3_S4x16x3x3_S4x16x3x3_3_2_2_3_01_01 : DotDims S4x16x3x3 S4x16x3x3 S4x16x3x3 where
  lhsContracting := [3]
  rhsContracting := [2]
  lhsNonContracting := [2]
  rhsNonContracting := [3]
  lhsBatch := [0, 1]
  rhsBatch := [0, 1]
  wf := dot_S4x16x3x3_S4x16x3x3_S4x16x3x3_3_2_2_3_01_01_wf
def dot_S4x16x2048x3_S4x16x3x3_S4x16x2048x3_3_3_2_2_01_01 : DotDims S4x16x2048x3 S4x16x3x3 S4x16x2048x3 where
  lhsContracting := [3]
  rhsContracting := [3]
  lhsNonContracting := [2]
  rhsNonContracting := [2]
  lhsBatch := [0, 1]
  rhsBatch := [0, 1]
  wf := dot_S4x16x2048x3_S4x16x3x3_S4x16x2048x3_3_3_2_2_01_01_wf
def dot_S4x16x2048x3_S4x16x2048x3_S4x16x2048x2048_3_3_2_2_01_01 : DotDims S4x16x2048x3 S4x16x2048x3 S4x16x2048x2048 where
  lhsContracting := [3]
  rhsContracting := [3]
  lhsNonContracting := [2]
  rhsNonContracting := [2]
  lhsBatch := [0, 1]
  rhsBatch := [0, 1]
  wf := dot_S4x16x2048x3_S4x16x2048x3_S4x16x2048x2048_3_3_2_2_01_01_wf

class Facts : Prop extends Facts₀ where

variable [Facts]
-- ==== Proof.KFrameBase.lean ====
/- The frame of `Kernel`'s @main around its one region, host side: the buffers' contents when the region is
   entered (after the operations before it, three of which concatenate nine operands each and write only their own
   result), @main as those operations, the region, and the one operation after it; each argument array is written by
   no operation on either side, so it is found and left as launched; the windows' blocks at a point; and the frame
   claim's post read off a frame run's. Generic in the float instance. -/
import proofs.«118208_j5325759447781_2_alg».proof.Proof.Gen.Kernel.Launch
import proofs.«118208_j5325759447781_2_alg».proof.Proof.Gen.Kernel.Skeleton
import proofs.«118208_j5325759447781_2_alg».proof.Proof.Gen.Kernel.Points
import proofs.«118208_j5325759447781_2_alg».proof.Proof.Gen.Kernel.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the operations before
    the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No operation before the region allocates: a concatenation of nine operands, like a one- or two-operand
    operation, only writes its result. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the operations before it, the region, the operation after it; it reduces to the region
    continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (only its own result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: where the window is not
    fetched its block index has not moved, so the block of the point before is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: where the window is not
    fetched its block index has not moved, so the block of the point before is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: where the window is not
    fetched its block index has not moved, so the block of the point before is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: where the window is not
    fetched its block index has not moved, so the block of the point before is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place: where the window is not
    fetched its block index has not moved, so the block of the point before is this point's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument array is an array of the pipeline, so each is read by the run's post for
    the buffers no window stages, then found unwritten by the operation after the region and by those before it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

end Cert.Kernel.Hand

end
-- ==== Proof.KFrameRun.lean ====
/- The body of `Kernel`'s kernel on whole staging memrefs: what its single covering store leaves in the output
   window's buffer, as an explicit term over the input blocks — the scratch operand is overwritten whole before the
   counted loop reads it, so neither the scratch's nor the output buffer's earlier contents enter —, and the body's
   triple, run through both printed parts and through the loop by its listed invariant. Generic in the float instance. -/
import proofs.«118208_j5325759447781_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole-block rectangles the body loads its five inputs through, stores its result through, and stores the
    scratch through. -/
abbrev rIn0 : Rect S1x1x3x3 := Rect.unit (s := S1x1x3x3) ![0, 0, 0, 0] S1x1x3x3.size inb_S1x1x3x3_S1x1x3x3_0_0_0_0
abbrev rIn1 : Rect S1x1x3x1 := Rect.unit (s := S1x1x3x1) ![0, 0, 0, 0] S1x1x3x1.size inb_S1x1x3x1_S1x1x3x1_0_0_0_0
abbrev rIn2 : Rect S1x1x1x1 := Rect.unit (s := S1x1x1x1) ![0, 0, 0, 0] S1x1x1x1.size inb_S1x1x1x1_S1x1x1x1_0_0_0_0
abbrev rIn3 : Rect S1x1x3x2048 := Rect.unit (s := S1x1x3x2048) ![0, 0, 0, 0] S1x1x3x2048.size inb_S1x1x3x2048_S1x1x3x2048_0_0_0_0
abbrev rIn4 : Rect S1x3x2048 := Rect.unit (s := S1x3x2048) ![0, 0, 0] S1x3x2048.size inb_S1x3x2048_S1x3x2048_0_0_0
abbrev rOut : Rect S1x1x1x1 := Rect.unit (s := S1x1x1x1) ![0, 0, 0, 0] S1x1x1x1.size inb_S1x1x1x1_S1x1x1x1_0_0_0_0
abbrev rScr : Rect S2048x3 := Rect.unit (s := S2048x3) ![0, 0] S2048x3.size inb_S2048x3_S2048x3_0_0

/-! ## What the body leaves -/

/-- The scratch's contents when the loop reads it: the transposed fifth input block, stored through the whole
    rectangle (over the view's placeholder contents, every element of which the store replaces). -/
def scr0 (arg8 : Memref sig .tc .vmem S2048x3 .f32) (x4 : Vec F S1x3x2048 .f32) : BufTy.Contents (Elt F) arg8.view.ty :=
  arg8.view.writes (Elt F) arg8.view.junk [⟨rScr, k0_pay10 (k0_pay6 (View.ld x4 rIn4))⟩]

/-- The pair the loop carries, after its last trip: from the initial pair (zero; +∞ everywhere), one trip per block of
    256 scratch rows, each trip's yield a function of the carried pair and of the rows it loads. -/
def carried0 (c : Dev nD) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec F S1x1x3x3 .f32) (x1 : Vec F S1x1x3x1 .f32) (x2 : Vec F S1x1x1x1 .f32) (x3 : Vec F S1x1x3x2048 .f32) (x4 : Vec F S1x3x2048 .f32) : FVec F S1x1 .f32 × FVec F S1x2048 .f32 :=
  st_k0_t1 (F := F) Variants.none c none i arg2 harg2 arg3 harg3 arg4 harg4 arg5 harg5 arg6 harg6 arg7 harg7 arg8 harg8
    (k0_pay2 (View.ld x0 rIn0)) (k0_pay3 (View.ld x1 rIn1)) (k0_pay4 (View.ld x2 rIn2)) (k0_pay5 (View.ld x3 rIn3)) (k0_pay6 (View.ld x4 rIn4))
    (k0_pay7 (View.ld x0 rIn0) (View.ld x3 rIn3)) (k0_pay8 (View.ld x0 rIn0) (View.ld x3 rIn3)) (k0_pay9 (View.ld x0 rIn0))
    (scr0 arg8 x4) (k0_pay11 (F := F), k0_pay12 (F := F)) k0_t1_loop.trips

/-- The output window's staging buffer after the body: its one store, of the sum of the two means computed from the
    loop's final pair, through the whole block. -/
def out0_5 (c : Dev nD) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec F S1x1x3x3 .f32) (x1 : Vec F S1x1x3x1 .f32) (x2 : Vec F S1x1x1x1 .f32) (x3 : Vec F S1x1x3x2048 .f32) (x4 : Vec F S1x3x2048 .f32) : Vec F S1x1x1x1 .f32 :=
  View.canon [⟨rOut, k0_pay1 (k0_pay16 (carried0 c i arg2 harg2 arg3 harg3 arg4 harg4 arg5 harg5 arg6 harg6 arg7 harg7 arg8 harg8 x0 x1 x2 x3 x4).1 (carried0 c i arg2 harg2 arg3 harg3 arg4 harg4 arg5 harg5 arg6 harg6 arg7 harg7 arg8 harg8 x0 x1 x2 x3 x4).2)⟩]

/-- The store tiles the output block, so it covers it. -/
theorem cover0_5 (p0 : Vec F S1x1x1x1 .f32) (y : S1x1x1x1.Idx) :
    ∃ pc ∈ ([⟨rOut, p0⟩] : List (View.Piece (Elt F) S1x1x1x1 .f32)), y ∈ pc.1.set :=
  View.cover_of_tiled [⟨rOut, p0⟩] S1x1x1x1.size (by rfl) y

/-- The scratch store tiles the scratch, so it covers it. -/
theorem coverScr (p0 : Vec F S2048x3 .f32) (y : S2048x3.Idx) :
    ∃ pc ∈ ([⟨rScr, p0⟩] : List (View.Piece (Elt F) S2048x3 .f32)), y ∈ pc.1.set :=
  View.cover_of_tiled [⟨rScr, p0⟩] S2048x3.size (by rfl) y

/-- What the loop's loads read of the scratch: the stored payload, whatever view the scratch is read through. -/
theorem scr0_read (arg8 : Memref sig .tc .vmem S2048x3 .f32) (x4 : Vec F S1x3x2048 .f32) :
    arg8.view.read (Elt F) (scr0 arg8 x4) = View.canon [⟨rScr, k0_pay10 (k0_pay6 (View.ld x4 rIn4))⟩] :=
  View.read_writes_eq_canon _ _ _ (coverScr _)

/-! ## The class invariant with the scratch as an owned memref -/

/-- The scratch operand: a whole scoped buffer of the kernel's own, passed beside the windows. -/
abbrev scM0_0 : Memref sig .tc .vmem S2048x3 .f32 := Memref.whole cc0_scratch0

/-- The region's invariant: the scratch owned whole at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's triple -/

set_option maxHeartbeats 4000000 in
/-- The kernel body on whole memrefs — the five inputs' at read contents `xW`, the output's and the scratch's at
    anything — runs to the continuation holding the inputs' as they were, the output's at `out0_5` of the inputs',
    and the scratch's at some contents. -/
theorem sound_kernel (c : Dev nD) (E : Set ℕ) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec F S1x1x3x3 .f32) (x1 : Vec F S1x1x3x1 .f32) (x2 : Vec F S1x1x1x1 .f32) (x3 : Vec F S1x1x3x2048 .f32) (x4 : Vec F S1x3x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 c i arg2 harg2 arg3 harg3 arg4 harg4 arg5 harg5 arg6 harg6 arg7 harg7 arg8 harg8 x0 x1 x2 x3 x4)
            ∗ (∃ d, owns (c : Thread nD τ) arg8 fullShare d)) -∗ K ⟨⟩))
      ⊢ wp frame (wpE (defs₀ (F := F)) Variants.none c none) E (cc0__chamfer_kernel i arg2 harg2 arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; iexists _; isplitr
  swap; · iexact H8
  ipureintro; rfl

end Cert.Kernel.Hand

end
-- ==== Proof.KFrame.lean ====
/- The frame of `Kernel`: the pipeline's proof data (each input window's buffer holds its block after the body, the
   output window's what the body's one store leaves, the invariant the scratch and the generator register at
   anything), the body obligation at a generic point, the run of @main to the frame post, and the frame claim's
   statement at any float instance. -/
import proofs.«118208_j5325759447781_2_alg».proof.Proof.KFrameRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with -/

/-- Each window's current staging memref at point `t`, spelled as the pipeline passes it, and its wholeness. -/
abbrev ms0_0 (t : Fin cfg0.N) : Memref sig .tc .vmem S1x1x3x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x1 .f32 := win0_5.stage (cfg0.slots t 5)
abbrev hs0_5 (t : Fin cfg0.N) : (ms0_5 t).IsWhole := hstage0_5 ((cfg0.slots t 5).cast nbuf0_5)

/-- The output window's staging buffer after the body at point `t`: `out0_5` at the point's coordinates and
    memrefs, over the five input windows' blocks there. -/
def out5At (c : Dev nD) (t : Fin cfg0.N) : Vec F S1x1x1x1 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) (iblk m c 0 t) (iblk m c 1 t) (iblk m c 2 t) (iblk m c 3 t) (iblk m c 4 t)

/-! ## The pipeline's proof data -/

/-- The proof data of the one pipeline on core `c`: the arrays as the region finds them; after the body at point `t`
    each input's buffer at its block and the output's at `out5At`; the invariant the scratch and the generator
    register, each at anything (the body overwrites the scratch before reading it, so nothing is carried between
    points); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5At m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5At m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks, so the body's triple applies; the invariant hands
    the body the scratch at anything and takes it back at anything; the generator register and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out5At
  iintro ⟨⟨HS, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, and its five argument arrays end as launched — at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIFrameBase.lean ====
/- The frame of `KernelIdeal`'s @main around its one region, host side: the buffers' contents when the region is
   entered (after the operations before it, three of which concatenate nine operands each and write only their own
   result), @main as those operations, the region, and the one operation after it; each argument array is written by
   no operation on either side, so it is found and left as launched; the windows' blocks at a point; and the frame
   claim's post read off a frame run's. Generic in the float instance. -/
import proofs.«118208_j5325759447781_2_alg».proof.Proof.Gen.KernelIdeal.Launch
import proofs.«118208_j5325759447781_2_alg».proof.Proof.Gen.KernelIdeal.Skeleton
import proofs.«118208_j5325759447781_2_alg».proof.Proof.Gen.KernelIdeal.Points
import proofs.«118208_j5325759447781_2_alg».proof.Proof.Gen.KernelIdeal.Loops
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the operations before
    the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No operation before the region allocates: a concatenation of nine operands, like a one- or two-operand
    operation, only writes its result. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the operations before it, the region, the operation after it; it reduces to the region
    continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (only its own result, which is none of them). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: where the window is not
    fetched its block index has not moved, so the block of the point before is this point's. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: where the window is not
    fetched its block index has not moved, so the block of the point before is this point's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: where the window is not
    fetched its block index has not moved, so the block of the point before is this point's. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: where the window is not
    fetched its block index has not moved, so the block of the point before is this point's. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place: where the window is not
    fetched its block index has not moved, so the block of the point before is this point's. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: no argument array is an array of the pipeline, so each is read by the run's post for
    the buffers no window stages, then found unwritten by the operation after the region and by those before it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

end Cert.KernelIdeal.Hand

end
-- ==== Proof.KIFrameRun.lean ====
/- The body of `KernelIdeal`'s kernel on whole staging memrefs: what its single covering store leaves in the output
   window's buffer, as an explicit term over the input blocks — the scratch operand is overwritten whole before the
   counted loop reads it, so neither the scratch's nor the output buffer's earlier contents enter —, and the body's
   triple, run through both printed parts and through the loop by its listed invariant. Generic in the float instance. -/
import proofs.«118208_j5325759447781_2_alg».proof.Proof.KIFrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole-block rectangles the body loads its five inputs through, stores its result through, and stores the
    scratch through. -/
abbrev rIn0 : Rect S1x1x3x3 := Rect.unit (s := S1x1x3x3) ![0, 0, 0, 0] S1x1x3x3.size inb_S1x1x3x3_S1x1x3x3_0_0_0_0
abbrev rIn1 : Rect S1x1x3x1 := Rect.unit (s := S1x1x3x1) ![0, 0, 0, 0] S1x1x3x1.size inb_S1x1x3x1_S1x1x3x1_0_0_0_0
abbrev rIn2 : Rect S1x1x1x1 := Rect.unit (s := S1x1x1x1) ![0, 0, 0, 0] S1x1x1x1.size inb_S1x1x1x1_S1x1x1x1_0_0_0_0
abbrev rIn3 : Rect S1x1x3x2048 := Rect.unit (s := S1x1x3x2048) ![0, 0, 0, 0] S1x1x3x2048.size inb_S1x1x3x2048_S1x1x3x2048_0_0_0_0
abbrev rIn4 : Rect S1x3x2048 := Rect.unit (s := S1x3x2048) ![0, 0, 0] S1x3x2048.size inb_S1x3x2048_S1x3x2048_0_0_0
abbrev rOut : Rect S1x1x1x1 := Rect.unit (s := S1x1x1x1) ![0, 0, 0, 0] S1x1x1x1.size inb_S1x1x1x1_S1x1x1x1_0_0_0_0
abbrev rScr : Rect S2048x3 := Rect.unit (s := S2048x3) ![0, 0] S2048x3.size inb_S2048x3_S2048x3_0_0

/-! ## What the body leaves -/

/-- The scratch's contents when the loop reads it: the transposed fifth input block, stored through the whole
    rectangle (over the view's placeholder contents, every element of which the store replaces). -/
def scr0 (arg8 : Memref sig .tc .vmem S2048x3 .f32) (x4 : Vec F S1x3x2048 .f32) : BufTy.Contents (Elt F) arg8.view.ty :=
  arg8.view.writes (Elt F) arg8.view.junk [⟨rScr, k0_pay10 (k0_pay6 (View.ld x4 rIn4))⟩]

/-- The pair the loop carries, after its last trip: from the initial pair (zero; +∞ everywhere), one trip per block of
    256 scratch rows, each trip's yield a function of the carried pair and of the rows it loads. -/
def carried0 (c : Dev nD) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec F S1x1x3x3 .f32) (x1 : Vec F S1x1x3x1 .f32) (x2 : Vec F S1x1x1x1 .f32) (x3 : Vec F S1x1x3x2048 .f32) (x4 : Vec F S1x3x2048 .f32) : FVec F S1x1 .f32 × FVec F S1x2048 .f32 :=
  st_k0_t1 (F := F) Variants.none c none i arg2 harg2 arg3 harg3 arg4 harg4 arg5 harg5 arg6 harg6 arg7 harg7 arg8 harg8
    (k0_pay2 (View.ld x0 rIn0)) (k0_pay3 (View.ld x1 rIn1)) (k0_pay4 (View.ld x2 rIn2)) (k0_pay5 (View.ld x3 rIn3)) (k0_pay6 (View.ld x4 rIn4))
    (k0_pay7 (View.ld x0 rIn0) (View.ld x3 rIn3)) (k0_pay8 (View.ld x0 rIn0) (View.ld x3 rIn3)) (k0_pay9 (View.ld x0 rIn0))
    (scr0 arg8 x4) (k0_pay11 (F := F), k0_pay12 (F := F)) k0_t1_loop.trips

/-- The output window's staging buffer after the body: its one store, of the sum of the two means computed from the
    loop's final pair, through the whole block. -/
def out0_5 (c : Dev nD) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec F S1x1x3x3 .f32) (x1 : Vec F S1x1x3x1 .f32) (x2 : Vec F S1x1x1x1 .f32) (x3 : Vec F S1x1x3x2048 .f32) (x4 : Vec F S1x3x2048 .f32) : Vec F S1x1x1x1 .f32 :=
  View.canon [⟨rOut, k0_pay1 (k0_pay16 (carried0 c i arg2 harg2 arg3 harg3 arg4 harg4 arg5 harg5 arg6 harg6 arg7 harg7 arg8 harg8 x0 x1 x2 x3 x4).1 (carried0 c i arg2 harg2 arg3 harg3 arg4 harg4 arg5 harg5 arg6 harg6 arg7 harg7 arg8 harg8 x0 x1 x2 x3 x4).2)⟩]

/-- The store tiles the output block, so it covers it. -/
theorem cover0_5 (p0 : Vec F S1x1x1x1 .f32) (y : S1x1x1x1.Idx) :
    ∃ pc ∈ ([⟨rOut, p0⟩] : List (View.Piece (Elt F) S1x1x1x1 .f32)), y ∈ pc.1.set :=
  View.cover_of_tiled [⟨rOut, p0⟩] S1x1x1x1.size (by rfl) y

/-- The scratch store tiles the scratch, so it covers it. -/
theorem coverScr (p0 : Vec F S2048x3 .f32) (y : S2048x3.Idx) :
    ∃ pc ∈ ([⟨rScr, p0⟩] : List (View.Piece (Elt F) S2048x3 .f32)), y ∈ pc.1.set :=
  View.cover_of_tiled [⟨rScr, p0⟩] S2048x3.size (by rfl) y

/-- What the loop's loads read of the scratch: the stored payload, whatever view the scratch is read through. -/
theorem scr0_read (arg8 : Memref sig .tc .vmem S2048x3 .f32) (x4 : Vec F S1x3x2048 .f32) :
    arg8.view.read (Elt F) (scr0 arg8 x4) = View.canon [⟨rScr, k0_pay10 (k0_pay6 (View.ld x4 rIn4))⟩] :=
  View.read_writes_eq_canon _ _ _ (coverScr _)

/-! ## The class invariant with the scratch as an owned memref -/

/-- The scratch operand: a whole scoped buffer of the kernel's own, passed beside the windows. -/
abbrev scM0_0 : Memref sig .tc .vmem S2048x3 .f32 := Memref.whole cc0_scratch0

/-- The region's invariant: the scratch owned whole at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body's triple -/

set_option maxHeartbeats 4000000 in
/-- The kernel body on whole memrefs — the five inputs' at read contents `xW`, the output's and the scratch's at
    anything — runs to the continuation holding the inputs' as they were, the output's at `out0_5` of the inputs',
    and the scratch's at some contents. -/
theorem sound_kernel (c : Dev nD) (E : Set ℕ) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec F S1x1x3x3 .f32) (x1 : Vec F S1x1x3x1 .f32) (x2 : Vec F S1x1x1x1 .f32) (x3 : Vec F S1x1x3x2048 .f32) (x4 : Vec F S1x3x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 c i arg2 harg2 arg3 harg3 arg4 harg4 arg5 harg5 arg6 harg6 arg7 harg7 arg8 harg8 x0 x1 x2 x3 x4)
            ∗ (∃ d, owns (c : Thread nD τ) arg8 fullShare d)) -∗ K ⟨⟩))
      ⊢ wp frame (wpE (defs₀ (F := F)) Variants.none c none) E (cc0__chamfer_kernel i arg2 harg2 arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; iexists _; isplitr
  swap; · iexact H8
  ipureintro; rfl

end Cert.KernelIdeal.Hand

end
-- ==== Proof.KIFrame.lean ====
/- The frame of `KernelIdeal`: the pipeline's proof data (each input window's buffer holds its block after the body, the
   output window's what the body's one store leaves, the invariant the scratch and the generator register at
   anything), the body obligation at a generic point, the run of @main to the frame post, and the frame claim's
   statement at any float instance. -/
import proofs.«118208_j5325759447781_2_alg».proof.Proof.KIFrameRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the pipeline calls the body with -/

/-- Each window's current staging memref at point `t`, spelled as the pipeline passes it, and its wholeness. -/
abbrev ms0_0 (t : Fin cfg0.N) : Memref sig .tc .vmem S1x1x3x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x3x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1x1 .f32 := win0_5.stage (cfg0.slots t 5)
abbrev hs0_5 (t : Fin cfg0.N) : (ms0_5 t).IsWhole := hstage0_5 ((cfg0.slots t 5).cast nbuf0_5)

/-- The output window's staging buffer after the body at point `t`: `out0_5` at the point's coordinates and
    memrefs, over the five input windows' blocks there. -/
def out5At (c : Dev nD) (t : Fin cfg0.N) : Vec F S1x1x1x1 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) (iblk m c 0 t) (iblk m c 1 t) (iblk m c 2 t) (iblk m c 3 t) (iblk m c 4 t)

/-! ## The pipeline's proof data -/

/-- The proof data of the one pipeline on core `c`: the arrays as the region finds them; after the body at point `t`
    each input's buffer at its block and the output's at `out5At`; the invariant the scratch and the generator
    register, each at anything (the body overwrites the scratch before reading it, so nothing is carried between
    points); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5At m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5At m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point: the inputs' memrefs hold their blocks, so the body's triple applies; the invariant hands
    the body the scratch at anything and takes it back at anything; the generator register and what the core owes
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold out5At
  iintro ⟨⟨HS, Hg⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes from
    the proof data and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, and its five argument arrays end as launched — at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KIBlocks.lean ====
/- Each input window's block read at an entry is the region-entry array read at the entry's place: the printed index
   maps send grid point `t` of the 16 × 4 grid (second axis fastest) to block (t mod 4, t div 4, 0, 0) of the
   four-axis arrays and to block (t div 4, 0, 0) of the three-axis one, decided once over the grid; an entry of a block
   sits in the array, on each axis, at the block index times the block's extent plus its own coordinate. -/
import proofs.«118208_j5325759447781_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A grid point's two coordinates -/

/-- The grid has 64 points. -/
theorem N64 : cfg0.N = 64 := N_0

/-- Point `t`'s coordinate on the grid's first axis (16 values; the slower one). -/
def iOf (t : Fin cfg0.N) : Fin 16 := ⟨t.val / 4, by have h : t.val < 64 := lt_of_lt_of_eq t.isLt N64; omega⟩
/-- Point `t`'s coordinate on the grid's second axis (4 values; the faster one). -/
def rOf (t : Fin cfg0.N) : Fin 4 := ⟨t.val % 4, Nat.mod_lt _ (by decide)⟩

@[simp] theorem iOf_val (t : Fin cfg0.N) : (iOf t).val = t.val / 4 := rfl
@[simp] theorem rOf_val (t : Fin cfg0.N) : (rOf t).val = t.val % 4 := rfl

/-! ## The printed index maps, decided over the grid -/

/-- Window 0's block index at every point: the grid's second coordinate, its first, then zeros. -/
theorem idx0_0 : ∀ t : Fin cfg0.N, win0_0.index t (0 : Fin 4) = t.val % 4 ∧ win0_0.index t (1 : Fin 4) = t.val / 4
    ∧ win0_0.index t (2 : Fin 4) = 0 ∧ win0_0.index t (3 : Fin 4) = 0 :=
  (by decide +kernel : ∀ t : Fin grid0.N, _)

/-- Window 1's block index at every point: the grid's second coordinate, its first, then zeros. -/
theorem idx0_1 : ∀ t : Fin cfg0.N, win0_1.index t (0 : Fin 4) = t.val % 4 ∧ win0_1.index t (1 : Fin 4) = t.val / 4
    ∧ win0_1.index t (2 : Fin 4) = 0 ∧ win0_1.index t (3 : Fin 4) = 0 :=
  (by decide +kernel : ∀ t : Fin grid0.N, _)

/-- Window 2's block index at every point: the grid's second coordinate, its first, then zeros. -/
theorem idx0_2 : ∀ t : Fin cfg0.N, win0_2.index t (0 : Fin 4) = t.val % 4 ∧ win0_2.index t (1 : Fin 4) = t.val / 4
    ∧ win0_2.index t (2 : Fin 4) = 0 ∧ win0_2.index t (3 : Fin 4) = 0 :=
  (by decide +kernel : ∀ t : Fin grid0.N, _)

/-- Window 3's block index at every point: the grid's second coordinate, its first, then zeros. -/
theorem idx0_3 : ∀ t : Fin cfg0.N, win0_3.index t (0 : Fin 4) = t.val % 4 ∧ win0_3.index t (1 : Fin 4) = t.val / 4
    ∧ win0_3.index t (2 : Fin 4) = 0 ∧ win0_3.index t (3 : Fin 4) = 0 :=
  (by decide +kernel : ∀ t : Fin grid0.N, _)

/-- Window 5's block index at every point: the grid's second coordinate, its first, then zeros. -/
theorem idx0_5 : ∀ t : Fin cfg0.N, win0_5.index t (0 : Fin 4) = t.val % 4 ∧ win0_5.index t (1 : Fin 4) = t.val / 4
    ∧ win0_5.index t (2 : Fin 4) = 0 ∧ win0_5.index t (3 : Fin 4) = 0 :=
  (by decide +kernel : ∀ t : Fin grid0.N, _)

/-- Window 4's block index at every point: the grid's first coordinate, then zeros (it does not move with the second). -/
theorem idx0_4 : ∀ t : Fin cfg0.N, win0_4.index t (0 : Fin 3) = t.val / 4 ∧ win0_4.index t (1 : Fin 3) = 0 ∧ win0_4.index t (2 : Fin 3) = 0 :=
  (by decide +kernel : ∀ t : Fin grid0.N, _)

/-! ## The blocks at an entry -/

theorem iblk0_apply (c : Dev nD) (t : Fin cfg0.N) (a b : Fin 3) :
    iblk m c 0 t (ix4 (0 : Fin 1) (0 : Fin 1) a b : S1x1x3x3.Idx) = (V m c main_v51 : S4x16x3x3.Idx → Elt F .f32) (ix4 (rOf t) (iOf t) a b) := by
  obtain ⟨e0, e1, e2, e3⟩ := idx0_0 t
  show (V m c main_v51 : S4x16x3x3.Idx → Elt F .f32) (((cfg0.win 0).blk t).view.emb (ix4 (0 : Fin 1) (0 : Fin 1) a b : S1x1x3x3.Idx)) = _
  refine congrArg (V m c main_v51 : S4x16x3x3.Idx → Elt F .f32) (funext fun ax => Fin.ext ?_)
  match ax with
  | ⟨0, _⟩ => show win0_0.index t (0 : Fin 4) * 1 + 1 * 0 = t.val % 4; omega
  | ⟨1, _⟩ => show win0_0.index t (1 : Fin 4) * 1 + 1 * 0 = t.val / 4; omega
  | ⟨2, _⟩ => show win0_0.index t (2 : Fin 4) * 3 + 1 * (a).val = (a).val; omega
  | ⟨3, _⟩ => show win0_0.index t (3 : Fin 4) * 3 + 1 * (b).val = (b).val; omega

theorem iblk1_apply (c : Dev nD) (t : Fin cfg0.N) (a : Fin 3) :
    iblk m c 1 t (ix4 (0 : Fin 1) (0 : Fin 1) a (0 : Fin 1) : S1x1x3x1.Idx) = (V m c main_v54 : S4x16x3x1.Idx → Elt F .f32) (ix4 (rOf t) (iOf t) a (0 : Fin 1)) := by
  obtain ⟨e0, e1, e2, e3⟩ := idx0_1 t
  show (V m c main_v54 : S4x16x3x1.Idx → Elt F .f32) (((cfg0.win 1).blk t).view.emb (ix4 (0 : Fin 1) (0 : Fin 1) a (0 : Fin 1) : S1x1x3x1.Idx)) = _
  refine congrArg (V m c main_v54 : S4x16x3x1.Idx → Elt F .f32) (funext fun ax => Fin.ext ?_)
  match ax with
  | ⟨0, _⟩ => show win0_1.index t (0 : Fin 4) * 1 + 1 * 0 = t.val % 4; omega
  | ⟨1, _⟩ => show win0_1.index t (1 : Fin 4) * 1 + 1 * 0 = t.val / 4; omega
  | ⟨2, _⟩ => show win0_1.index t (2 : Fin 4) * 3 + 1 * (a).val = (a).val; omega
  | ⟨3, _⟩ => show win0_1.index t (3 : Fin 4) * 1 + 1 * ((0 : Fin 1)).val = ((0 : Fin 1)).val; omega

theorem iblk2_apply (c : Dev nD) (t : Fin cfg0.N)  :
    iblk m c 2 t (ix4 (0 : Fin 1) (0 : Fin 1) (0 : Fin 1) (0 : Fin 1) : S1x1x1x1.Idx) = (V m c main_v55 : S4x16x1x1.Idx → Elt F .f32) (ix4 (rOf t) (iOf t) (0 : Fin 1) (0 : Fin 1)) := by
  obtain ⟨e0, e1, e2, e3⟩ := idx0_2 t
  show (V m c main_v55 : S4x16x1x1.Idx → Elt F .f32) (((cfg0.win 2).blk t).view.emb (ix4 (0 : Fin 1) (0 : Fin 1) (0 : Fin 1) (0 : Fin 1) : S1x1x1x1.Idx)) = _
  refine congrArg (V m c main_v55 : S4x16x1x1.Idx → Elt F .f32) (funext fun ax => Fin.ext ?_)
  match ax with
  | ⟨0, _⟩ => show win0_2.index t (0 : Fin 4) * 1 + 1 * 0 = t.val % 4; omega
  | ⟨1, _⟩ => show win0_2.index t (1 : Fin 4) * 1 + 1 * 0 = t.val / 4; omega
  | ⟨2, _⟩ => show win0_2.index t (2 : Fin 4) * 1 + 1 * ((0 : Fin 1)).val = ((0 : Fin 1)).val; omega
  | ⟨3, _⟩ => show win0_2.index t (3 : Fin 4) * 1 + 1 * ((0 : Fin 1)).val = ((0 : Fin 1)).val; omega

theorem iblk3_apply (c : Dev nD) (t : Fin cfg0.N) (d : Fin 3) (q : Fin 2048) :
    iblk m c 3 t (ix4 (0 : Fin 1) (0 : Fin 1) d q : S1x1x3x2048.Idx) = (V m c main_v52 : S4x16x3x2048.Idx → Elt F .f32) (ix4 (rOf t) (iOf t) d q) := by
  obtain ⟨e0, e1, e2, e3⟩ := idx0_3 t
  show (V m c main_v52 : S4x16x3x2048.Idx → Elt F .f32) (((cfg0.win 3).blk t).view.emb (ix4 (0 : Fin 1) (0 : Fin 1) d q : S1x1x3x2048.Idx)) = _
  refine congrArg (V m c main_v52 : S4x16x3x2048.Idx → Elt F .f32) (funext fun ax => Fin.ext ?_)
  match ax with
  | ⟨0, _⟩ => show win0_3.index t (0 : Fin 4) * 1 + 1 * 0 = t.val % 4; omega
  | ⟨1, _⟩ => show win0_3.index t (1 : Fin 4) * 1 + 1 * 0 = t.val / 4; omega
  | ⟨2, _⟩ => show win0_3.index t (2 : Fin 4) * 3 + 1 * (d).val = (d).val; omega
  | ⟨3, _⟩ => show win0_3.index t (3 : Fin 4) * 2048 + 1 * (q).val = (q).val; omega

theorem iblk4_apply (c : Dev nD) (t : Fin cfg0.N) (d : Fin 3) (q : Fin 2048) :
    iblk m c 4 t (ix3 (0 : Fin 1) d q : S1x3x2048.Idx) = (V m c main_v53 : S16x3x2048.Idx → Elt F .f32) (ix3 (iOf t) d q) := by
  obtain ⟨e0, e1, e2⟩ := idx0_4 t
  show (V m c main_v53 : S16x3x2048.Idx → Elt F .f32) (((cfg0.win 4).blk t).view.emb (ix3 (0 : Fin 1) d q : S1x3x2048.Idx)) = _
  refine congrArg (V m c main_v53 : S16x3x2048.Idx → Elt F .f32) (funext fun ax => Fin.ext ?_)
  match ax with
  | ⟨0, _⟩ => show win0_4.index t (0 : Fin 3) * 1 + 1 * 0 = t.val / 4; omega
  | ⟨1, _⟩ => show win0_4.index t (1 : Fin 3) * 3 + 1 * d.val = d.val; omega
  | ⟨2, _⟩ => show win0_4.index t (2 : Fin 3) * 2048 + 1 * q.val = q.val; omega

end Cert.KernelIdeal.Hand

end
-- ==== Proof.KIFinal.lean ====
/- From the output window's blocks to @main's result: every point of the 16 × 4 grid writes back the single entry
   (t mod 4, t div 4, 0, 0) of the region's result array, and these 64 entries are the whole array, so the array ends
   holding, at entry (r, i, 0, 0), what the body left at point 4 i + r; the one operation after the region reshapes it
   to 4 × 16, entry (r, i) ↦ entry (r, i, 0, 0). The argument arrays are unchanged. -/
import proofs.«118208_j5325759447781_2_alg».proof.Proof.KIBlocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The point that writes an entry -/

/-- The grid point with second coordinate `r` and first coordinate `i`. -/
def ptOf (r : Fin 4) (i : Fin 16) : Fin cfg0.N :=
  ⟨i.val * 4 + r.val, by have hr := r.isLt; have hi := i.isLt; rw [N64]; omega⟩

@[simp] theorem ptOf_val (r : Fin 4) (i : Fin 16) : (ptOf r i).val = i.val * 4 + r.val := rfl

theorem ptOf_rOf_iOf (t : Fin cfg0.N) : ptOf (rOf t) (iOf t) = t :=
  Fin.ext (by show t.val / 4 * 4 + t.val % 4 = t.val; omega)

/-- The region's result array after the run: at entry (r, i, 0, 0), what the body left in the output window's buffer
    at the point (r, i). -/
def outArr (c : Dev nD) : S4x16x1x1.Idx → Elt F .f32 :=
  fun y => out5At m c (ptOf ⟨(y 0).val, (y 0).isLt⟩ ⟨(y 1).val, (y 1).isLt⟩) (ix4 (0 : Fin 1) (0 : Fin 1) (0 : Fin 1) (0 : Fin 1) : S1x1x1x1.Idx)

/-! ## What each point writes back -/

/-- What point `t` writes back is block `t` of `outArr`: the block is one entry, and it sits in the array at
    (t mod 4, t div 4, 0, 0), whose point is `t`. -/
theorem flushed5_eq (c : Dev nD) (t : Fin cfg0.N) :
    (dats m 0 c).flushed 5 t = ((cfg0.win 5).blk t).view.read (Elt F) (outArr m c) := by
  show (cfg0.win 5).cut (grid0.coords t) ((dats m 0 c).after 5 t) = _
  rw [after0_5]
  obtain ⟨e0, e1, e2, e3⟩ := idx0_5 t
  funext j
  show out5At m c t j = outArr m c (((cfg0.win 5).blk t).view.emb j)
  have hj0 : (j 0).val = 0 := by have h : (j 0).val < 1 := (j 0).isLt; omega
  have hj1 : (j 1).val = 0 := by have h : (j 1).val < 1 := (j 1).isLt; omega
  have hj : j = (ix4 (0 : Fin 1) (0 : Fin 1) (0 : Fin 1) (0 : Fin 1) : S1x1x1x1.Idx) := funext fun a => by
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => exact Fin.ext (by have h : (j 2).val < 1 := (j 2).isLt; show (j 2).val = 0; omega)
    | ⟨3, _⟩ => exact Fin.ext (by have h : (j 3).val < 1 := (j 3).isLt; show (j 3).val = 0; omega)
  have hp : ptOf ⟨((((cfg0.win 5).blk t).view.emb j) 0).val, ((((cfg0.win 5).blk t).view.emb j) 0).isLt⟩
      ⟨((((cfg0.win 5).blk t).view.emb j) 1).val, ((((cfg0.win 5).blk t).view.emb j) 1).isLt⟩ = t :=
    Fin.ext (by
      show (win0_5.index t (1 : Fin 4) * 1 + 1 * (j 1).val) * 4 + (win0_5.index t (0 : Fin 4) * 1 + 1 * (j 0).val) = t.val
      omega)
  unfold outArr
  rw [hp, ← hj]

/-! ## The blocks cover the array -/

/-- An index of the array is in point `t`'s block iff each coordinate is in the block's range on its axis. -/
theorem mem_blk5 (t : Fin cfg0.N) (i : S4x16x1x1.Idx) :
    i ∈ ((cfg0.win 5).blk t).view.set ↔ ∀ a : Fin 4, win0_5.index t a * S1x1x1x1.size a ≤ (i a).val ∧ (i a).val < win0_5.index t a * S1x1x1x1.size a + S1x1x1x1.size a := by
  show i ∈ ((View.whole main_v56).slice (win0_5.rect t)).set ↔ _
  rw [View.set_slice_whole, Rect.mem_set_unit]
  exact Iff.rfl

/-- Every entry of the array is written back by the point with its first two coordinates. -/
theorem cover5 (i : S4x16x1x1.Idx) : ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 1 := (i 2).isLt
  have h3 : (i 3).val < 1 := (i 3).isLt
  refine ⟨ptOf ⟨(i 0).val, h0⟩ ⟨(i 1).val, h1⟩, flush0_5 _, ?_⟩
  rw [mem_blk5]
  obtain ⟨e0, e1, e2, e3⟩ := idx0_5 (ptOf ⟨(i 0).val, h0⟩ ⟨(i 1).val, h1⟩)
  have hv : (ptOf ⟨(i 0).val, h0⟩ ⟨(i 1).val, h1⟩).val = (i 1).val * 4 + (i 0).val := rfl
  rw [hv] at e0 e1
  intro a
  match a with
  | ⟨0, _⟩ => show win0_5.index (ptOf ⟨(i 0).val, h0⟩ ⟨(i 1).val, h1⟩) (0 : Fin 4) * 1 ≤ (i 0).val ∧ (i 0).val < win0_5.index (ptOf ⟨(i 0).val, h0⟩ ⟨(i 1).val, h1⟩) (0 : Fin 4) * 1 + 1; omega
  | ⟨1, _⟩ => show win0_5.index (ptOf ⟨(i 0).val, h0⟩ ⟨(i 1).val, h1⟩) (1 : Fin 4) * 1 ≤ (i 1).val ∧ (i 1).val < win0_5.index (ptOf ⟨(i 0).val, h0⟩ ⟨(i 1).val, h1⟩) (1 : Fin 4) * 1 + 1; omega
  | ⟨2, _⟩ => show win0_5.index (ptOf ⟨(i 0).val, h0⟩ ⟨(i 1).val, h1⟩) (2 : Fin 4) * 1 ≤ (i 2).val ∧ (i 2).val < win0_5.index (ptOf ⟨(i 0).val, h0⟩ ⟨(i 1).val, h1⟩) (2 : Fin 4) * 1 + 1; omega
  | ⟨3, _⟩ => show win0_5.index (ptOf ⟨(i 0).val, h0⟩ ⟨(i 1).val, h1⟩) (3 : Fin 4) * 1 ≤ (i 3).val ∧ (i 3).val < win0_5.index (ptOf ⟨(i 0).val, h0⟩ ⟨(i 1).val, h1⟩) (3 : Fin 4) * 1 + 1; omega

/-- So the region's result array ends holding `outArr`. -/
theorem final5 (c : Dev nD) : (dats m 0 c).arrAt 5 cfg0.N = outArr m c :=
  (dats m 0 c).arrAt_eq_of_cover 5 (outArr m c) (fun t _ => flushed5_eq m c t) cover5

/-! ## Through the operation after the region -/

/-- @main's result after the run: the reshape of the region's result array. -/
theorem tail_v57 (c : Dev nD) :
    (Pipeline.afterTail₀ cfgs (dats m) 0 (V0 m) [hostOps1] c main_v57 : S4x16.Idx → Elt F .f32)
      = shapeCast S4x16 (outArr m c) shapeCasts_S4x16x1x1_S4x16 := by
  unfold Pipeline.afterTail₀
  show StableHlo.after hostOps1 _ (Proc.devRef .tc main_v57) = _
  after_results
  rw [(Pipeline.withArrays_arr spec0 launch0.win.arr_inj c _ _ 5).trans (final5 m c)]
  rfl

/-- Read at an entry: (r, i) of the result is what the body left at the point (r, i). -/
theorem tail_v57_apply (c : Dev nD) :
    (Pipeline.afterTail₀ cfgs (dats m) 0 (V0 m) [hostOps1] c main_v57 : S4x16.Idx → Elt F .f32)
      = (fun j : S4x16.Idx => out5At m c (ptOf ⟨(j 0).val, (j 0).isLt⟩ ⟨(j 1).val, (j 1).isLt⟩) (ix4 (0 : Fin 1) (0 : Fin 1) (0 : Fin 1) (0 : Fin 1) : S1x1x1x1.Idx)) := by
  rw [tail_v57]
  funext j
  have h0 : (j 0).val < 4 := (j 0).isLt
  have h1 : (j 1).val < 16 := (j 1).isLt
  refine (shapeCast_apply (outArr m c) shapeCasts_S4x16x1x1_S4x16 j
    (ix4 (⟨(j 0).val, h0⟩ : Fin 4) (⟨(j 1).val, h1⟩ : Fin 16) (0 : Fin 1) (0 : Fin 1) : S4x16x1x1.Idx) ?_).trans rfl
  rw [Shape.rowMajor_val_four, Shape.rowMajor_val_two]
  show (((j 0).val * 16 + (j 1).val) * 1 + 0) * 1 + 0 = (j 0).val * 16 + (j 1).val
  omega

/-! ## The run, read -/

/-- @main runs; its result holds, at (r, i), what the body left in the output window's buffer at the point (r, i); and
    its argument arrays end as launched. -/
theorem run_value : θ_run defs (onTc (τ := τ) (main (F := F))) ⟨m, fun _ => 0, ρ⟩ (fun r => ∀ c : Dev nD,
      r.2.mem ((c.tc : Thread nD τ).loc main_v57) = (fun j : S4x16.Idx => out5At m c (ptOf ⟨(j 0).val, (j 0).isLt⟩ ⟨(j 1).val, (j 1).isLt⟩) (ix4 (0 : Fin 1) (0 : Fin 1) (0 : Fin 1) (0 : Fin 1) : S1x1x1x1.Idx))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v57 (Pipeline.mem_restRefs_of main_v57 (by decide) (by decide))).trans (tail_v57_apply m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Hand

end
-- ==== Proof.Spec.lean ====
/-
  The mathematics both programs compute, for one pair (r, i), on the extended reals.

  Data: 2048 source points p(m, ·) and 2048 target points x(n, ·) in three coordinates, a 3×3 matrix R, a translation
  t and a scale s. The transformed source points are y(m, c) = s · (Σ_k R(c, k) · p(m, k) + t(c)); the squared distance
  between target point n and transformed source point m is D(n, m); the result is the two-sided mean of nearest
  squared distances, (Σ_n min_m D(n, m)) / 2048 + (Σ_m min_n D(n, m)) / 2048, every minimum started from +∞.

  The kernel spells D(n, m) coordinate by coordinate, Σ_c (x(n, c) − y(m, c))², with the rotation's three products
  added left to right; the reference spells it |x|² + |y|² − 2 · x·y with each sum started from zero.
-/
import Idealize.ShloMosaic.PureOps.Ideal

noncomputable section

namespace Cert.Spec

open Idealize.ShloMosaic

/-- The float word of +∞, from which every minimum starts. -/
abbrev topW : EReal := Ideal.ofBits .f32 0x7F800000#32

/-- The float word of 2048, the number of points. -/
abbrev nW : EReal := Ideal.ofBits .f32 0x45000000#32

/-- The float word of 2. -/
abbrev twoW : EReal := Ideal.ofBits .f32 0x40000000#32

variable (src tg : Fin 2048 → Fin 3 → EReal) (R : Fin 3 → Fin 3 → EReal) (tr : Fin 3 → EReal) (s : EReal)

/-- The kernel's transformed source point: the rotation's products added left to right, plus translation, scaled. -/
def ptK (c : Fin 3) (m : Fin 2048) : EReal :=
  s * (((R c 0 * src m 0 + R c 1 * src m 1) + R c 2 * src m 2) + tr c)

/-- The kernel's squared distance: the three squared coordinate differences added to zero, left to right. -/
def d2K (n m : Fin 2048) : EReal :=
  ((0 + (tg n 0 - ptK src R tr s 0 m) * (tg n 0 - ptK src R tr s 0 m))
    + (tg n 1 - ptK src R tr s 1 m) * (tg n 1 - ptK src R tr s 1 m))
    + (tg n 2 - ptK src R tr s 2 m) * (tg n 2 - ptK src R tr s 2 m)

/-- The reference's transformed source point: a sum over the contracted coordinate, plus translation, scaled. -/
def ptR (m : Fin 2048) (c : Fin 3) : EReal :=
  s * ((∑ k : Fin 3, src m k * R c k) + tr c)

/-- The reference's squared distance: |x|² + |y|² − 2 · x·y, each sum started from zero. -/
def d2R (n m : Fin 2048) : EReal :=
  ((0 + ∑ k : Fin 3, tg n k * tg n k) + (0 + ∑ k : Fin 3, ptR src R tr s m k * ptR src R tr s m k))
    - twoW * ∑ k : Fin 3, tg n k * ptR src R tr s m k

/-- The two-sided mean of nearest squared distances for a table D of squared distances. -/
def chamfer (D : Fin 2048 → Fin 2048 → EReal) : EReal :=
  Ideal.div (∑ n : Fin 2048, (Finset.univ : Finset (Fin 2048)).fold min topW (fun m => D n m)) nW
    + Ideal.div (∑ m : Fin 2048, (Finset.univ : Finset (Fin 2048)).fold min topW (fun n => D n m)) nW

end Cert.Spec

end
-- ==== Proof.LibMatrixRead.lean ====
/-
  Matrices read at an entry: general lemmas for rank-two arrays (and the unit-axis recasts around them).

  * layout: a unit-stride window of a matrix (slice2_apply), one row or one column cut out (rowSlice_apply), an entry cut
    out as a 1×1 window and extracted (entry_apply, extractAt_11), a column [a,1], a row [1,b] or a 1×1 matrix broadcast
    over an [a,b] matrix (bcastCol_apply, bcastRow_apply, bcastOne_apply), a cut-out row or column broadcast back
    (rowOf_apply, colOf_apply), three rows stacked (stack3_apply0/1/2), a vector recast as a column
    (shapeCast_a_a1_apply), a [1,1,a,b] block recast as a matrix and a 1×1 matrix as a [1,1,1,1] block;
  * reductions over one axis of a matrix on the extended reals: the index with a coordinate put back (lift0_ix2,
    lift1_ix2), a minimumf multi_reduction along the rows / down the columns as Finset.univ.fold min from the
    accumulator's value (rowMin_apply, colMin_apply), an add multi_reduction as a plain sum (rowSum_apply, colSum_apply).
  Each reduction lemma holds for any evidence of the format and of the accumulator being the operation's neutral element.
-/
import Idealize.ShloMosaic.Lib.ValueIdx
import Idealize.ShloMosaic.Lib.ValueLayout
import Idealize.ShloMosaic.Lib.Pipeline.Value
import Idealize.ShloMosaic.PureOps.Ideal.Laws

noncomputable section

namespace Cert.MatrixRead

open Idealize.ShloMosaic Idealize.ShloMosaic.ValueIdx

variable {α : Type}

/-- A unit-stride window of a matrix, read at an entry: the matrix at the entry shifted by the offsets. -/
theorem slice2_apply {a b a' b' : ℕ} (o0 o1 : ℕ) (x : (⟨2, ![a, b]⟩ : Shape).Idx → α)
    (h : Shape.Slices (⟨2, ![a, b]⟩ : Shape) ![o0, o1] ⟨2, ![a', b']⟩) (p : Fin a') (q : Fin b')
    (hp : o0 + p.val < a) (hq : o1 + q.val < b) :
    extractStridedSlice ⟨2, ![a', b']⟩ ![o0, o1] x h (ix2 p q) = x (ix2 ⟨o0 + p.val, hp⟩ ⟨o1 + q.val, hq⟩) :=
  extractStridedSlice_apply _ x h _ _ (fun d => match d with | ⟨0, _⟩ => rfl | ⟨1, _⟩ => rfl)

/-- The one entry of a 1×1 matrix. -/
theorem extractAt_11 (x : (⟨2, ![1, 1]⟩ : Shape).Idx → α) (h : ∀ a, (![0, 0] : Fin 2 → Nat) a < (⟨2, ![1, 1]⟩ : Shape).size a) :
    extractAt ![0, 0] x h = x (ix2 0 0) := by
  unfold extractAt
  exact congrArg x (funext fun d => match d with | ⟨0, _⟩ => rfl | ⟨1, _⟩ => rfl)

/-- A column [a,1] broadcast along the rows of an [a,b] matrix. -/
theorem bcastCol_apply {a b : ℕ} (ha : a ≠ 1) (x : (⟨2, ![a, 1]⟩ : Shape).Idx → α) (h : Shape.Broadcasts (⟨2, ![a, 1]⟩ : Shape) ⟨2, ![a, b]⟩)
    (p : Fin a) (q : Fin b) : broadcastTo ⟨2, ![a, b]⟩ x h (ix2 p q) = x (ix2 p 0) :=
  broadcastTo_apply x h _ _ (fun d => match d with
    | ⟨0, _⟩ => by show p.val = if a = 1 then 0 else p.val; rw [if_neg ha]
    | ⟨1, _⟩ => by show (0 : ℕ) = if (1 : ℕ) = 1 then 0 else q.val; rw [if_pos rfl])

/-- A row [1,b] broadcast down the columns of an [a,b] matrix. -/
theorem bcastRow_apply {a b : ℕ} (hb : b ≠ 1) (x : (⟨2, ![1, b]⟩ : Shape).Idx → α) (h : Shape.Broadcasts (⟨2, ![1, b]⟩ : Shape) ⟨2, ![a, b]⟩)
    (p : Fin a) (q : Fin b) : broadcastTo ⟨2, ![a, b]⟩ x h (ix2 p q) = x (ix2 0 q) :=
  broadcastTo_apply x h _ _ (fun d => match d with
    | ⟨0, _⟩ => by show (0 : ℕ) = if (1 : ℕ) = 1 then 0 else p.val; rw [if_pos rfl]
    | ⟨1, _⟩ => by show q.val = if b = 1 then 0 else q.val; rw [if_neg hb])

/-- A 1×1 matrix broadcast over an [a,b] matrix. -/
theorem bcastOne_apply {a b : ℕ} (x : (⟨2, ![1, 1]⟩ : Shape).Idx → α) (h : Shape.Broadcasts (⟨2, ![1, 1]⟩ : Shape) ⟨2, ![a, b]⟩)
    (p : Fin a) (q : Fin b) : broadcastTo ⟨2, ![a, b]⟩ x h (ix2 p q) = x (ix2 0 0) :=
  broadcastTo_apply x h _ _ (fun d => match d with
    | ⟨0, _⟩ => by show (0 : ℕ) = if (1 : ℕ) = 1 then 0 else p.val; rw [if_pos rfl]
    | ⟨1, _⟩ => by show (0 : ℕ) = if (1 : ℕ) = 1 then 0 else q.val; rw [if_pos rfl])

/-- Three rows [1,b] stacked into a [3,b] matrix: rows 0, 1, 2 of the result are the operands in order. -/
theorem stack3_apply0 {b : ℕ} (x0 x1 x2 : (⟨2, ![1, b]⟩ : Shape).Idx → α)
    (h : Shape.Concatenates [(⟨2, ![1, b]⟩ : Shape), ⟨2, ![1, b]⟩, ⟨2, ![1, b]⟩] ⟨2, ![3, b]⟩ 0) (h0 : 0 < 3) (q : Fin b) :
    concatenate (⟨2, ![3, b]⟩ : Shape) 0 [(⟨(⟨2, ![1, b]⟩ : Shape), x0⟩ : (s : Shape) × (s.Idx → α)), ⟨(⟨2, ![1, b]⟩ : Shape), x1⟩, ⟨(⟨2, ![1, b]⟩ : Shape), x2⟩] h (ix2 ⟨0, h0⟩ q) = x0 (ix2 0 q) :=
  concatenate_apply_piece (t := ⟨2, ![3, b]⟩) 0 [(⟨(⟨2, ![1, b]⟩ : Shape), x0⟩ : (s : Shape) × (s.Idx → α)), ⟨(⟨2, ![1, b]⟩ : Shape), x1⟩, ⟨(⟨2, ![1, b]⟩ : Shape), x2⟩] h _ 0 (by simp) _ x0 rfl rfl 0 rfl (ix2 0 q)
    (fun d hd => match d with | ⟨0, _⟩ => absurd rfl hd | ⟨1, _⟩ => rfl) rfl
theorem stack3_apply1 {b : ℕ} (x0 x1 x2 : (⟨2, ![1, b]⟩ : Shape).Idx → α)
    (h : Shape.Concatenates [(⟨2, ![1, b]⟩ : Shape), ⟨2, ![1, b]⟩, ⟨2, ![1, b]⟩] ⟨2, ![3, b]⟩ 0) (h1 : 1 < 3) (q : Fin b) :
    concatenate (⟨2, ![3, b]⟩ : Shape) 0 [(⟨(⟨2, ![1, b]⟩ : Shape), x0⟩ : (s : Shape) × (s.Idx → α)), ⟨(⟨2, ![1, b]⟩ : Shape), x1⟩, ⟨(⟨2, ![1, b]⟩ : Shape), x2⟩] h (ix2 ⟨1, h1⟩ q) = x1 (ix2 0 q) :=
  concatenate_apply_piece (t := ⟨2, ![3, b]⟩) 0 [(⟨(⟨2, ![1, b]⟩ : Shape), x0⟩ : (s : Shape) × (s.Idx → α)), ⟨(⟨2, ![1, b]⟩ : Shape), x1⟩, ⟨(⟨2, ![1, b]⟩ : Shape), x2⟩] h _ 1 (by simp) _ x1 rfl rfl 1 rfl (ix2 0 q)
    (fun d hd => match d with | ⟨0, _⟩ => absurd rfl hd | ⟨1, _⟩ => rfl) rfl
theorem stack3_apply2 {b : ℕ} (x0 x1 x2 : (⟨2, ![1, b]⟩ : Shape).Idx → α)
    (h : Shape.Concatenates [(⟨2, ![1, b]⟩ : Shape), ⟨2, ![1, b]⟩, ⟨2, ![1, b]⟩] ⟨2, ![3, b]⟩ 0) (h2 : 2 < 3) (q : Fin b) :
    concatenate (⟨2, ![3, b]⟩ : Shape) 0 [(⟨(⟨2, ![1, b]⟩ : Shape), x0⟩ : (s : Shape) × (s.Idx → α)), ⟨(⟨2, ![1, b]⟩ : Shape), x1⟩, ⟨(⟨2, ![1, b]⟩ : Shape), x2⟩] h (ix2 ⟨2, h2⟩ q) = x2 (ix2 0 q) :=
  concatenate_apply_piece (t := ⟨2, ![3, b]⟩) 0 [(⟨(⟨2, ![1, b]⟩ : Shape), x0⟩ : (s : Shape) × (s.Idx → α)), ⟨(⟨2, ![1, b]⟩ : Shape), x1⟩, ⟨(⟨2, ![1, b]⟩ : Shape), x2⟩] h _ 2 (by simp) _ x2 rfl rfl 2 rfl (ix2 0 q)
    (fun d hd => match d with | ⟨0, _⟩ => absurd rfl hd | ⟨1, _⟩ => rfl) rfl

/-- Row c of a matrix, cut out as a [1,b] row: its entry q. -/
theorem rowSlice_apply {a b : ℕ} (c : ℕ) (hc : c < a) (x : (⟨2, ![a, b]⟩ : Shape).Idx → α)
    (h : Shape.Slices (⟨2, ![a, b]⟩ : Shape) ![c, 0] ⟨2, ![1, b]⟩) (q : Fin b) :
    extractStridedSlice ⟨2, ![1, b]⟩ ![c, 0] x h (ix2 0 q) = x (ix2 ⟨c, hc⟩ q) :=
  extractStridedSlice_apply _ x h _ _ (fun d => match d with
    | ⟨0, _⟩ => by show c = c + 0; omega
    | ⟨1, _⟩ => by show q.val = 0 + q.val; omega)

/-- Row c of a matrix broadcast down the columns of an [n,b] matrix. -/
theorem rowOf_apply {a b n : ℕ} (hb : b ≠ 1) (c : ℕ) (hc : c < a) (x : (⟨2, ![a, b]⟩ : Shape).Idx → α)
    (h1 : Shape.Slices (⟨2, ![a, b]⟩ : Shape) ![c, 0] ⟨2, ![1, b]⟩) (h2 : Shape.Broadcasts (⟨2, ![1, b]⟩ : Shape) ⟨2, ![n, b]⟩)
    (p : Fin n) (q : Fin b) :
    broadcastTo ⟨2, ![n, b]⟩ (extractStridedSlice ⟨2, ![1, b]⟩ ![c, 0] x h1) h2 (ix2 p q) = x (ix2 ⟨c, hc⟩ q) :=
  (bcastRow_apply hb _ h2 p q).trans (rowSlice_apply c hc x h1 q)

/-- Column ch of an [n,k] matrix broadcast along the rows of an [n,b] matrix. -/
theorem colOf_apply {n k b : ℕ} (hn : n ≠ 1) (ch : ℕ) (hch : ch < k) (x : (⟨2, ![n, k]⟩ : Shape).Idx → α)
    (h1 : Shape.Slices (⟨2, ![n, k]⟩ : Shape) ![0, ch] ⟨2, ![n, 1]⟩) (h2 : Shape.Broadcasts (⟨2, ![n, 1]⟩ : Shape) ⟨2, ![n, b]⟩)
    (p : Fin n) (q : Fin b) :
    broadcastTo ⟨2, ![n, b]⟩ (extractStridedSlice ⟨2, ![n, 1]⟩ ![0, ch] x h1) h2 (ix2 p q) = x (ix2 p ⟨ch, hch⟩) :=
  (bcastCol_apply hn _ h2 p q).trans (extractStridedSlice_apply _ x h1 _ _ (fun d => match d with
    | ⟨0, _⟩ => by show p.val = 0 + p.val; omega
    | ⟨1, _⟩ => by show ch = ch + 0; omega))

/-- Entry (a, b) of a matrix, cut out as a 1×1 window and extracted. -/
theorem entry_apply {n k : ℕ} (a b : ℕ) (ha : a < n) (hb : b < k) (x : (⟨2, ![n, k]⟩ : Shape).Idx → α)
    (h : Shape.Slices (⟨2, ![n, k]⟩ : Shape) ![a, b] ⟨2, ![1, 1]⟩)
    (hp : ∀ d, (![0, 0] : Fin 2 → Nat) d < (⟨2, ![1, 1]⟩ : Shape).size d) :
    extractAt ![0, 0] (extractStridedSlice ⟨2, ![1, 1]⟩ ![a, b] x h) hp = x (ix2 ⟨a, ha⟩ ⟨b, hb⟩) :=
  (extractAt_11 _ hp).trans (extractStridedSlice_apply _ x h _ _ (fun d => match d with
    | ⟨0, _⟩ => by show a = a + 0; omega
    | ⟨1, _⟩ => by show b = b + 0; omega))

/-! ## Reductions of a matrix read at an entry -/

/-- A vector [a] recast as a column [a,1]. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Column t of an [m,n] matrix with row k put back is entry (k, t). -/
theorem lift0_ix2 {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext; fin_cases c <;> rfl

/-- Row p of an [m,n] matrix with column k put back is entry (p, k). -/
theorem lift1_ix2 {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext; fin_cases c <;> rfl

/-- The minimum along the rows of a matrix, started from the accumulator's value: at row p, the fold of min over the
    row's entries. -/
theorem rowMin_apply {m n : ℕ} (src : FVec Ideal ⟨2, ![m, n]⟩ .f32) (acc : BitVec 32)
    (h : (⟨2, ![m, n]⟩ : Shape).Reduces [1] (⟨1, ![m]⟩ : Shape)) (hφ : FKind.Formats .f32) (hacc : acc = FKind.minimumf.neutral .f32 hφ)
    (p : Fin m) :
    multiReduction .minimumf [1] ⟨1, ![m]⟩ src acc h hφ hacc (ix1 p)
      = (Finset.univ : Finset (Fin n)).fold min (Ideal.ofBits .f32 acc) (fun q => src (ix2 p q)) := by
  rw [multiReduction_minimumf_eq_fold]
  refine (h.fold_filter_drop_single _ _ src (ix1 p)).trans ?_
  have hf : (src ∘ h.lift (ix1 p)) = fun q : Fin n => src (ix2 p q) := funext fun k => congrArg src (lift1_ix2 h p k)
  rw [hf]; rfl

/-- The minimum down the columns of a matrix: at column q, the fold of min over the column's entries. -/
theorem colMin_apply {m n : ℕ} (src : FVec Ideal ⟨2, ![m, n]⟩ .f32) (acc : BitVec 32)
    (h : (⟨2, ![m, n]⟩ : Shape).Reduces [0] (⟨1, ![n]⟩ : Shape)) (hφ : FKind.Formats .f32) (hacc : acc = FKind.minimumf.neutral .f32 hφ)
    (q : Fin n) :
    multiReduction .minimumf [0] ⟨1, ![n]⟩ src acc h hφ hacc (ix1 q)
      = (Finset.univ : Finset (Fin m)).fold min (Ideal.ofBits .f32 acc) (fun p => src (ix2 p q)) := by
  rw [multiReduction_minimumf_eq_fold]
  refine (h.fold_filter_drop_single _ _ src (ix1 q)).trans ?_
  have hf : (src ∘ h.lift (ix1 q)) = fun p : Fin m => src (ix2 p q) := funext fun k => congrArg src (lift0_ix2 h q k)
  rw [hf]; rfl

/-- The sum down the columns of a matrix: at column q, the plain sum of the column's entries. -/
theorem colSum_apply {m n : ℕ} (src : FVec Ideal ⟨2, ![m, n]⟩ .f32) (acc : BitVec 32)
    (h : (⟨2, ![m, n]⟩ : Shape).Reduces [0] (⟨1, ![n]⟩ : Shape)) (hφ : FKind.Formats .f32) (hacc : acc = FKind.add.neutral .f32 hφ)
    (q : Fin n) :
    multiReduction .add [0] ⟨1, ![n]⟩ src acc h hφ hacc (ix1 q) = ∑ p : Fin m, src (ix2 p q) := by
  rw [Ideal.multiReduction_add_single]
  exact Finset.sum_congr rfl fun k _ => congrArg src (lift0_ix2 h q k)

/-- The sum along the rows of a matrix: at row p, the plain sum of the row's entries. -/
theorem rowSum_apply {m n : ℕ} (src : FVec Ideal ⟨2, ![m, n]⟩ .f32) (acc : BitVec 32)
    (h : (⟨2, ![m, n]⟩ : Shape).Reduces [1] (⟨1, ![m]⟩ : Shape)) (hφ : FKind.Formats .f32) (hacc : acc = FKind.add.neutral .f32 hφ)
    (p : Fin m) :
    multiReduction .add [1] ⟨1, ![m]⟩ src acc h hφ hacc (ix1 p) = ∑ q : Fin n, src (ix2 p q) := by
  rw [Ideal.multiReduction_add_single]
  exact Finset.sum_congr rfl fun k _ => congrArg src (lift1_ix2 h p k)

/-! ## Unit axes around a matrix -/

/-- A [1,1,a,b] block recast as an [a,b] matrix. -/
theorem cast_11ab_apply {a b : ℕ} (x : (⟨4, ![1, 1, a, b]⟩ : Shape).Idx → α) (h : (⟨4, ![1, 1, a, b]⟩ : Shape).ShapeCasts ⟨2, ![a, b]⟩)
    (p : Fin a) (q : Fin b) : shapeCast ⟨2, ![a, b]⟩ x h (ix2 p q) = x (ix4 0 0 p q) :=
  shapeCast_apply x h _ _ (by
    rw [Shape.rowMajor_val_four, Shape.rowMajor_val_two]
    show (((0 * 1 + 0) * a + p.val) * b + q.val) = p.val * b + q.val
    simp only [Nat.zero_mul, Nat.zero_add])

/-- A 1×1 matrix recast as a [1,1,1,1] block. -/
theorem cast_11_1111_apply (x : (⟨2, ![1, 1]⟩ : Shape).Idx → α) (h : (⟨2, ![1, 1]⟩ : Shape).ShapeCasts ⟨4, ![1, 1, 1, 1]⟩) :
    shapeCast ⟨4, ![1, 1, 1, 1]⟩ x h (ix4 0 0 0 0) = x (ix2 0 0) :=
  shapeCast_apply x h _ _ (by
    rw [Shape.rowMajor_val_four, Shape.rowMajor_val_two]
    rfl)

end Cert.MatrixRead

end
-- ==== Proof.KPay.lean ====
/-
  The kernel body's arithmetic read entry by entry on the extended reals.

  One grid point handles one pair (r, i). The body forms the transformed source points
  y(c, m) = s · (Σ_d R(c, d) · p(d, m) + t(c)) from a rotation block R [3,3], a translation column t [3,1], a scale
  s [1,1] and the channel-first source block p [3,2048]; then, for one tile of 256 target points x (a [256,3] array),
  the tile of squared distances D(j, m) = Σ_c (x(j, c) − y(c, m))², its row minima summed into a running total and
  its column minima folded into a running minimum.
-/
import proofs.«118208_j5325759447781_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«118208_j5325759447781_2_alg».proof.Proof.Spec
import proofs.«118208_j5325759447781_2_alg».proof.Proof.LibMatrixRead

noncomputable section

namespace Cert.KernelIdeal.Pay

open Idealize.ShloMosaic Idealize.ShloMosaic.ValueIdx Cert.KernelIdeal Cert.KernelIdeal.Gen
open Cert.Spec (topW nW)
open Cert.MatrixRead

/-! ## The squared-distance tile -/

section Tile

variable [Cert.KernelIdeal.Facts]

/-- Row c of the rotated source block at column m, from the pieces the body keeps: row 0 whole, row 1 without its
    last product, row 2 from scratch. -/
def rotRow (v1 : FVec Ideal S3x3 .f32) (v7 : FVec Ideal S3x2048 .f32) (v26 v37 : FVec Ideal S1x2048 .f32)
    (v38 : FVec Ideal S1x1 .f32) (c : Fin 3) (m : Fin 2048) : EReal :=
  match c with
  | 0 => v26 (ix2 0 m)
  | 1 => v37 (ix2 0 m) + v38 (ix2 0 0) * v7 (ix2 2 m)
  | 2 => (v1 (ix2 2 0) * v7 (ix2 0 m) + v1 (ix2 2 1) * v7 (ix2 1 m)) + v1 (ix2 2 2) * v7 (ix2 2 m)

/-- Coordinate c of the transformed source point m: scale · (rotated + translation). -/
def ptK (v1 : FVec Ideal S3x3 .f32) (v3 : FVec Ideal S3x1 .f32) (v5 : FVec Ideal S1x1 .f32) (v7 : FVec Ideal S3x2048 .f32)
    (v26 v37 : FVec Ideal S1x2048 .f32) (v38 : FVec Ideal S1x1 .f32) (c : Fin 3) (m : Fin 2048) : EReal :=
  v5 (ix2 0 0) * (rotRow v1 v7 v26 v37 v38 c m + v3 (ix2 c 0))

/-- The squared distance between target point j of the tile and transformed source point m, summed coordinate by
    coordinate from zero. -/
def d2K (v1 : FVec Ideal S3x3 .f32) (v3 : FVec Ideal S3x1 .f32) (v5 : FVec Ideal S1x1 .f32) (v7 : FVec Ideal S3x2048 .f32)
    (v26 v37 : FVec Ideal S1x2048 .f32) (v38 : FVec Ideal S1x1 .f32) (v87 : Vec Ideal S256x3 .f32) (j : Fin 256) (m : Fin 2048) : EReal :=
  ((0 + (v87 (ix2 j 0) - ptK v1 v3 v5 v7 v26 v37 v38 0 m) * (v87 (ix2 j 0) - ptK v1 v3 v5 v7 v26 v37 v38 0 m))
    + (v87 (ix2 j 1) - ptK v1 v3 v5 v7 v26 v37 v38 1 m) * (v87 (ix2 j 1) - ptK v1 v3 v5 v7 v26 v37 v38 1 m))
    + (v87 (ix2 j 2) - ptK v1 v3 v5 v7 v26 v37 v38 2 m) * (v87 (ix2 j 2) - ptK v1 v3 v5 v7 v26 v37 v38 2 m)

theorem pay13_apply (v1 : FVec Ideal S3x3 .f32) (v3 : FVec Ideal S3x1 .f32) (v5 : FVec Ideal S1x1 .f32) (v7 : FVec Ideal S3x2048 .f32)
    (v26 v37 : FVec Ideal S1x2048 .f32) (v38 : FVec Ideal S1x1 .f32) (v87 : Vec Ideal S256x3 .f32) (j : Fin 256) (m : Fin 2048) :
    k0_pay13 (F := Ideal) v1 v3 v5 v7 v26 v37 v38 v87 (ix2 j m) = d2K v1 v3 v5 v7 v26 v37 v38 v87 j m := by
  unfold k0_pay13
  simp only [addf_apply, mulf_apply, subf_apply, broadcast_apply,
    colOf_apply (n := 256) (k := 3) (b := 2048) (by decide) 0 (by decide), colOf_apply (n := 256) (k := 3) (b := 2048) (by decide) 1 (by decide),
    colOf_apply (n := 256) (k := 3) (b := 2048) (by decide) 2 (by decide),
    rowOf_apply (a := 3) (b := 2048) (n := 256) (by decide) 0 (by decide), rowOf_apply (a := 3) (b := 2048) (n := 256) (by decide) 1 (by decide),
    rowOf_apply (a := 3) (b := 2048) (n := 256) (by decide) 2 (by decide),
    bcastOne_apply, bcastCol_apply (a := 3) (b := 2048) (by decide), stack3_apply0, stack3_apply1, stack3_apply2,
    rowSlice_apply (a := 3) (b := 2048) 0 (by decide), rowSlice_apply (a := 3) (b := 2048) 1 (by decide), rowSlice_apply (a := 3) (b := 2048) 2 (by decide),
    entry_apply (n := 3) (k := 3) 2 0 (by decide) (by decide), entry_apply (n := 3) (k := 3) 2 1 (by decide) (by decide),
    entry_apply (n := 3) (k := 3) 2 2 (by decide) (by decide), extractAt_11]
  rw [show (FloatOps.ofBits (F := Ideal) FTy.f32 0#32 : EReal) = 0 from Ideal.ofBits_zero_f32]
  rfl

end Tile

/-! ## One trip's contribution and the closing arithmetic -/

section Trip

variable [Cert.KernelIdeal.Facts]

/-- One trip adds to the running total the sum, over the tile's 256 target points, of each one's least squared
    distance to a transformed source point. -/
theorem pay14_apply (v1 : FVec Ideal S3x3 .f32) (v3 : FVec Ideal S3x1 .f32) (v5 : FVec Ideal S1x1 .f32) (v7 : FVec Ideal S3x2048 .f32)
    (v26 v37 : FVec Ideal S1x2048 .f32) (v38 : FVec Ideal S1x1 .f32) (arg10 : FVec Ideal S1x1 .f32) (v87 : Vec Ideal S256x3 .f32) :
    k0_pay14 (F := Ideal) v1 v3 v5 v7 v26 v37 v38 arg10 v87 (ix2 0 0)
      = arg10 (ix2 0 0) + ∑ j : Fin 256, (Finset.univ : Finset (Fin 2048)).fold min topW (fun m => d2K v1 v3 v5 v7 v26 v37 v38 v87 j m) := by
  unfold k0_pay14
  simp only [addf_apply, shapeCast_a_1a_apply]
  refine congrArg (arg10 (ix2 0 0) + ·) ?_
  refine (colSum_apply _ _ _ _ _ (0 : Fin 1)).trans ?_
  refine Finset.sum_congr rfl fun j _ => ?_
  refine (shapeCast_a_a1_apply _ _ j 0).trans ?_
  refine (rowMin_apply _ _ _ _ _ j).trans ?_
  exact congrArg (fun f => Finset.fold min topW f Finset.univ) (funext fun m => pay13_apply v1 v3 v5 v7 v26 v37 v38 v87 j m)

/-- One trip folds into the running minimum of source point m its least squared distance to the tile's 256 target
    points. -/
theorem pay15_apply (v1 : FVec Ideal S3x3 .f32) (v3 : FVec Ideal S3x1 .f32) (v5 : FVec Ideal S1x1 .f32) (v7 : FVec Ideal S3x2048 .f32)
    (v26 v37 : FVec Ideal S1x2048 .f32) (v38 : FVec Ideal S1x1 .f32) (arg11 : FVec Ideal S1x2048 .f32) (v87 : Vec Ideal S256x3 .f32) (m : Fin 2048) :
    k0_pay15 (F := Ideal) v1 v3 v5 v7 v26 v37 v38 arg11 v87 (ix2 0 m)
      = min (arg11 (ix2 0 m)) ((Finset.univ : Finset (Fin 256)).fold min topW (fun j => d2K v1 v3 v5 v7 v26 v37 v38 v87 j m)) := by
  unfold k0_pay15
  simp only [minimumf_apply, shapeCast_a_1a_apply]
  refine congrArg (min (arg11 (ix2 0 m))) ?_
  refine (colMin_apply _ _ _ _ _ m).trans ?_
  exact congrArg (fun f => Finset.fold min topW f Finset.univ) (funext fun j => pay13_apply v1 v3 v5 v7 v26 v37 v38 v87 j m)

/-- After the loop: the running total over 2048, plus the sum of the running minima over 2048. -/
theorem pay16_apply (s0 : FVec Ideal S1x1 .f32) (s1 : FVec Ideal S1x2048 .f32) :
    k0_pay16 (F := Ideal) s0 s1 (ix2 0 0) = Ideal.div (s0 (ix2 0 0)) nW + Ideal.div (∑ m : Fin 2048, s1 (ix2 0 m)) nW := by
  unfold k0_pay16
  simp only [addf_apply, divf_apply, broadcast_apply, shapeCast_a_1a_apply]
  have e := rowSum_apply s1 0x00000000#32 reduces_S1x2048_S1 (.inl rfl) rfl (0 : Fin 1)
  exact congrArg (fun z => Ideal.div (s0 (ix2 0 0)) nW + Ideal.div z nW) e

end Trip

end Cert.KernelIdeal.Pay

end
-- ==== Proof.LibRunningMin.lean ====
/-
  Laws of a running minimum. A minimum over an axis of length N may be taken all at once or tile by
  tile, each tile of width w folded into the minimum of the tiles before it. `minBelow b f bound` is
  the minimum, started from `b`, of `f` over the indices below `bound`; it is characterised by what
  lies below it (`le_minBelow`), and that characterisation gives: below 0 it is `b`; one more tile
  takes it from `w * k` to `w * (k + 1)`; from N on it is the minimum over the whole axis. Only the
  order is used, so the laws hold in any linear order, the extended reals among them.
-/
import Mathlib

namespace Cert.MinLaws

variable {α : Type*} [LinearOrder α]

/-- The minimum, started from `b`, of `f` over the indices below `bound`. -/
def minBelow {N : ℕ} (b : α) (f : Fin N → α) (bound : ℕ) : α :=
  (Finset.univ.filter fun q : Fin N => q.val < bound).fold min b f

/-- What lies below it: what lies below `b` and below every `f q` with `q` under the bound. -/
theorem le_minBelow {N : ℕ} (b : α) (f : Fin N → α) (bound : ℕ) (c : α) :
    c ≤ minBelow b f bound ↔ c ≤ b ∧ ∀ q : Fin N, q.val < bound → c ≤ f q := by
  unfold minBelow
  rw [Finset.le_fold_min]
  simp only [Finset.mem_filter, Finset.mem_univ, true_and]

/-- Over no index at all it is the starting value. -/
theorem minBelow_zero {N : ℕ} (b : α) (f : Fin N → α) : minBelow b f 0 = b := by
  refine eq_of_forall_le_iff fun c => ?_
  rw [le_minBelow]
  exact ⟨fun h => h.1, fun h => ⟨h, fun q hq => absurd hq (Nat.not_lt_zero _)⟩⟩

/-- From the axis's length on it is the minimum over the whole axis. -/
theorem minBelow_all {N : ℕ} (b : α) (f : Fin N → α) (bound : ℕ) (h : N ≤ bound) :
    minBelow b f bound = Finset.univ.fold min b f := by
  unfold minBelow
  rw [Finset.filter_true_of_mem fun q _ => lt_of_lt_of_le q.isLt h]

/-- One more tile: the minimum below `w * k` joined with the minimum, started from the same `b`, over
    tile `k` (whose entry `j` is `f (w * k + j)`) is the minimum below `w * (k + 1)`. -/
theorem minBelow_step {N w : ℕ} (b : α) (f : Fin N → α) (k : ℕ) (g : Fin w → α)
    (hg : ∀ (j : Fin w) (h : w * k + j.val < N), g j = f ⟨w * k + j.val, h⟩) (hk : w * (k + 1) ≤ N) :
    min (minBelow b f (w * k)) (Finset.univ.fold min b g) = minBelow b f (w * (k + 1)) := by
  have hw : w * (k + 1) = w * k + w := Nat.mul_succ w k
  refine eq_of_forall_le_iff fun c => ?_
  rw [le_min_iff, le_minBelow, le_minBelow, Finset.le_fold_min]
  constructor
  · rintro ⟨⟨hb, h1⟩, -, h2⟩
    refine ⟨hb, fun q hq => ?_⟩
    by_cases hlt : q.val < w * k
    · exact h1 q hlt
    · have hj : q.val - w * k < w := by omega
      have hq' : w * k + (q.val - w * k) < N := by have := q.isLt; omega
      have h3 := h2 ⟨q.val - w * k, hj⟩ (Finset.mem_univ _)
      rw [hg ⟨q.val - w * k, hj⟩ hq'] at h3
      have e : (⟨w * k + (q.val - w * k), hq'⟩ : Fin N) = q := Fin.ext (by dsimp only; omega)
      rw [e] at h3
      exact h3
  · rintro ⟨hb, h⟩
    refine ⟨⟨hb, fun q hq => h q (by omega)⟩, hb, fun j _ => ?_⟩
    have hlt : w * k + j.val < N := by have := j.isLt; omega
    rw [hg j hlt]
    exact h ⟨w * k + j.val, hlt⟩ (by have := j.isLt; dsimp only; omega)

end Cert.MinLaws
-- ==== Proof.KLoop.lean ====
/-
  The carried value of the body's eight-trip loop, read entry by entry.

  Trip k loads tile k of the target points (rows 256·k … 256·k + 255 of the [2048,3] scratch), forms the tile's squared
  distances to all 2048 transformed source points, adds the sum of the tile's row minima to a running total and folds
  the tile's column minima into a running minimum. After n trips the total is the sum of the row minima of the first
  256·n target points and the running minimum of column m is the minimum of column m over those points; after all
  eight trips both range over every target point.
-/
import proofs.«118208_j5325759447781_2_alg».proof.Proof.Gen.KernelIdeal.Loops
import proofs.«118208_j5325759447781_2_alg».proof.Proof.KPay
import proofs.«118208_j5325759447781_2_alg».proof.Proof.LibRunningMin

noncomputable section

namespace Cert.KernelIdeal.LoopVal

open Idealize.ShloMosaic Idealize.ShloMosaic.ValueIdx Idealize.SL.Sem Cert.KernelIdeal Cert.KernelIdeal.Gen Cert.KernelIdeal.Pay
open Cert.Spec (topW nW)
open Cert.MinLaws

variable [Cert.KernelIdeal.Facts]

/-- The loop has eight trips. -/
theorem trips_eq : k0_t1_loop.trips = 8 := by decide +kernel

/-- Tile k of the scratch as a trip loads it. -/
def tile (arg8 : Memref sig .tc .vmem S2048x3 .f32) (X_arg8 : BufTy.Contents (Elt Ideal) arg8.view.ty) (k : Fin k0_t1_loop.trips) :
    Vec Ideal S256x3 .f32 :=
  View.readAt (Elt Ideal) arg8.view (Rect.unit (s := S2048x3) (k0_off1 k) S256x3.size (k0_off1_inb k)).toLoadRect X_arg8

section
variable (𝒱 : Variants) (c : Dev nD) (bd : Option 𝒱.V) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole) (v1 : FVec Ideal S3x3 .f32) (v3 : FVec Ideal S3x1 .f32) (v5 : FVec Ideal S1x1 .f32) (v7 : FVec Ideal S3x2048 .f32) (v9 : FVec Ideal S3x2048 .f32) (v26 : FVec Ideal S1x2048 .f32) (v37 : FVec Ideal S1x2048 .f32) (v38 : FVec Ideal S1x1 .f32) (X_arg8 : BufTy.Contents (Elt Ideal) arg8.view.ty)

/-- One trip's yield, as the two payloads of the tile it loads. -/
theorem tripR_eq (k : Fin k0_t1_loop.trips) (acc : FVec Ideal S1x1 .f32 × FVec Ideal S1x2048 .f32) :
    tripR_k0_t1 (F := Ideal) 𝒱 c bd i arg2 harg2 arg3 harg3 arg4 harg4 arg5 harg5 arg6 harg6 arg7 harg7 arg8 harg8 v1 v3 v5 v7 v9 v26 v37 v38 X_arg8 k acc
      = (k0_pay14 v1 v3 v5 v7 v26 v37 v38 acc.1 (tile arg8 X_arg8 k), k0_pay15 v1 v3 v5 v7 v26 v37 v38 acc.2 (tile arg8 X_arg8 k)) := by
  unfold tripR_k0_t1 trip_k0_t1
  rfl

variable (init : FVec Ideal S1x1 .f32 × FVec Ideal S1x2048 .f32)
variable (D : ℕ → Fin 2048 → EReal)
variable (hD : ∀ (k : Fin k0_t1_loop.trips) (j : Fin 256) (m : Fin 2048),
  d2K v1 v3 v5 v7 v26 v37 v38 (tile arg8 X_arg8 k) j m = D (256 * k.val + j.val) m)

include hD

/-- The running minimum of column m after n trips: the minimum, from +∞, of the column over the first 256·n
    target points. -/
theorem st_min (hinit : ∀ m, init.2 (ix2 0 m) = topW) (n : ℕ) (hn : n ≤ k0_t1_loop.trips) (m : Fin 2048) :
    (st_k0_t1 (F := Ideal) 𝒱 c bd i arg2 harg2 arg3 harg3 arg4 harg4 arg5 harg5 arg6 harg6 arg7 harg7 arg8 harg8 v1 v3 v5 v7 v9 v26 v37 v38 X_arg8 init n).2 (ix2 0 m)
      = minBelow topW (fun x : Fin 2048 => D x.val m) (256 * n) := by
  induction n with
  | zero => rw [Nat.mul_zero, minBelow_zero]; exact hinit m
  | succ n ih =>
    have hlt : n < k0_t1_loop.trips := hn
    have h8 : n < 8 := trips_eq ▸ hlt
    rw [st_k0_t1_succ (F := Ideal) 𝒱 c bd i arg2 harg2 arg3 harg3 arg4 harg4 arg5 harg5 arg6 harg6 arg7 harg7 arg8 harg8 v1 v3 v5 v7 v9 v26 v37 v38 X_arg8 init ⟨n, hlt⟩, tripR_eq]
    show k0_pay15 v1 v3 v5 v7 v26 v37 v38 _ (tile arg8 X_arg8 ⟨n, hlt⟩) (ix2 0 m) = _
    rw [pay15_apply, ih (Nat.le_of_lt hlt)]
    refine minBelow_step (w := 256) topW (fun x : Fin 2048 => D x.val m) n _ (fun j h => ?_) (by omega)
    exact hD ⟨n, hlt⟩ j m

/-- The running total after n trips: the starting value plus, trip by trip, the sum of the tile's row minima. -/
theorem st_sum (n : ℕ) (hn : n ≤ k0_t1_loop.trips) :
    (st_k0_t1 (F := Ideal) 𝒱 c bd i arg2 harg2 arg3 harg3 arg4 harg4 arg5 harg5 arg6 harg6 arg7 harg7 arg8 harg8 v1 v3 v5 v7 v9 v26 v37 v38 X_arg8 init n).1 (ix2 0 0)
      = init.1 (ix2 0 0) + ∑ k ∈ Finset.range n, ∑ j : Fin 256,
          (Finset.univ : Finset (Fin 2048)).fold min topW (fun m => D (256 * k + j.val) m) := by
  induction n with
  | zero => rw [Finset.sum_range_zero, add_zero]; rfl
  | succ n ih =>
    have hlt : n < k0_t1_loop.trips := hn
    rw [st_k0_t1_succ (F := Ideal) 𝒱 c bd i arg2 harg2 arg3 harg3 arg4 harg4 arg5 harg5 arg6 harg6 arg7 harg7 arg8 harg8 v1 v3 v5 v7 v9 v26 v37 v38 X_arg8 init ⟨n, hlt⟩, tripR_eq]
    show k0_pay14 v1 v3 v5 v7 v26 v37 v38 _ (tile arg8 X_arg8 ⟨n, hlt⟩) (ix2 0 0) = _
    rw [pay14_apply, ih (Nat.le_of_lt hlt), Finset.sum_range_succ, add_assoc]
    refine congrArg (fun z => init.1 (ix2 0 0) + (_ + z)) ?_
    refine Finset.sum_congr rfl fun j _ => ?_
    exact congrArg (fun f => Finset.fold min topW f Finset.univ) (funext fun m => hD ⟨n, hlt⟩ j m)

end

end Cert.KernelIdeal.LoopVal

end
-- ==== Proof.KPay2.lean ====
/-
  The remaining pieces of the kernel body read entry by entry: the blocks recast to matrices, the partial rows of
  the rotated source block, the transposed target block, the loop's starting pair and the closing store.
-/
import proofs.«118208_j5325759447781_2_alg».proof.Proof.KPay

noncomputable section

namespace Cert.KernelIdeal.Pay

open Idealize.ShloMosaic Idealize.ShloMosaic.ValueIdx Cert.KernelIdeal Cert.KernelIdeal.Gen
open Cert.Spec (topW nW)
open Cert.MatrixRead

variable {α : Type}

section Pieces

variable [Cert.KernelIdeal.Facts]

theorem pay1_apply (v80 : FVec Ideal S1x1 .f32) : k0_pay1 (F := Ideal) v80 (ix4 0 0 0 0) = v80 (ix2 0 0) := by
  unfold k0_pay1; exact cast_11_1111_apply _ _

theorem pay2_apply (v0 : Vec Ideal S1x1x3x3 .f32) (a b : Fin 3) : k0_pay2 (F := Ideal) v0 (ix2 a b) = v0 (ix4 0 0 a b) := by
  unfold k0_pay2; exact cast_11ab_apply _ _ a b

theorem pay3_apply (v2 : Vec Ideal S1x1x3x1 .f32) (a : Fin 3) : k0_pay3 (F := Ideal) v2 (ix2 a 0) = v2 (ix4 0 0 a 0) := by
  unfold k0_pay3; exact cast_11ab_apply _ _ a 0

theorem pay4_apply (v4 : Vec Ideal S1x1x1x1 .f32) : k0_pay4 (F := Ideal) v4 (ix2 0 0) = v4 (ix4 0 0 0 0) := by
  unfold k0_pay4; exact cast_11ab_apply _ _ 0 0

theorem pay5_apply (v6 : Vec Ideal S1x1x3x2048 .f32) (d : Fin 3) (q : Fin 2048) : k0_pay5 (F := Ideal) v6 (ix2 d q) = v6 (ix4 0 0 d q) := by
  unfold k0_pay5; exact cast_11ab_apply _ _ d q

theorem pay6_apply (v8 : Vec Ideal S1x3x2048 .f32) (d : Fin 3) (q : Fin 2048) : k0_pay6 (F := Ideal) v8 (ix2 d q) = v8 (ix3 0 d q) := by
  unfold k0_pay6; exact shapeCast_1ab_ab_apply _ _ d q

/-- Row 0 of the rotated source block: its three products added left to right. -/
theorem pay7_apply (v0 : Vec Ideal S1x1x3x3 .f32) (v6 : Vec Ideal S1x1x3x2048 .f32) (m : Fin 2048) :
    k0_pay7 (F := Ideal) v0 v6 (ix2 0 m)
      = (k0_pay2 v0 (ix2 0 0) * k0_pay5 v6 (ix2 0 m) + k0_pay2 v0 (ix2 0 1) * k0_pay5 v6 (ix2 1 m)) + k0_pay2 v0 (ix2 0 2) * k0_pay5 v6 (ix2 2 m) := by
  unfold k0_pay7
  simp only [addf_apply, mulf_apply, broadcast_apply,
    rowSlice_apply (a := 3) (b := 2048) 0 (by decide), rowSlice_apply (a := 3) (b := 2048) 1 (by decide), rowSlice_apply (a := 3) (b := 2048) 2 (by decide),
    entry_apply (n := 3) (k := 3) 0 0 (by decide) (by decide), entry_apply (n := 3) (k := 3) 0 1 (by decide) (by decide),
    entry_apply (n := 3) (k := 3) 0 2 (by decide) (by decide)]
  rfl

/-- Row 1 of the rotated source block without its last product. -/
theorem pay8_apply (v0 : Vec Ideal S1x1x3x3 .f32) (v6 : Vec Ideal S1x1x3x2048 .f32) (m : Fin 2048) :
    k0_pay8 (F := Ideal) v0 v6 (ix2 0 m)
      = k0_pay2 v0 (ix2 1 0) * k0_pay5 v6 (ix2 0 m) + k0_pay2 v0 (ix2 1 1) * k0_pay5 v6 (ix2 1 m) := by
  unfold k0_pay8
  simp only [addf_apply, mulf_apply, broadcast_apply,
    rowSlice_apply (a := 3) (b := 2048) 0 (by decide), rowSlice_apply (a := 3) (b := 2048) 1 (by decide),
    entry_apply (n := 3) (k := 3) 1 0 (by decide) (by decide), entry_apply (n := 3) (k := 3) 1 1 (by decide) (by decide)]
  rfl

/-- The rotation entry (1, 2), kept as a 1×1 matrix. -/
theorem pay9_apply (v0 : Vec Ideal S1x1x3x3 .f32) : k0_pay9 (F := Ideal) v0 (ix2 0 0) = k0_pay2 v0 (ix2 1 2) := by
  unfold k0_pay9
  exact extractStridedSlice_apply _ _ _ _ _ (fun d => match d with | ⟨0, _⟩ => rfl | ⟨1, _⟩ => rfl)

/-- The target block transposed to points × channels. -/
theorem pay10_apply (v9 : FVec Ideal S3x2048 .f32) (n : Fin 2048) (ch : Fin 3) : k0_pay10 (F := Ideal) v9 (ix2 n ch) = v9 (ix2 ch n) := by
  unfold k0_pay10
  rw [shapeCast_self]
  exact transpose_apply _ v9 _ _ _ (fun b => match b with | ⟨0, _⟩ => rfl | ⟨1, _⟩ => rfl)

/-- The running total starts at zero. -/
theorem pay11_apply : k0_pay11 (F := Ideal) (ix2 0 0) = 0 := by
  unfold k0_pay11; exact Ideal.ofBits_zero_f32

/-- Every running minimum starts at +∞. -/
theorem pay12_apply (m : Fin 2048) : k0_pay12 (F := Ideal) (ix2 0 m) = topW := by
  unfold k0_pay12; rfl

end Pieces

end Cert.KernelIdeal.Pay

end
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.KPoint.lean ====
/-
  One grid point's result as the two-sided mean of nearest squared distances.

  From the entries of the five input blocks — the rotation R, the translation t, the scale s, the channel-first source
  points p and the channel-first target points x — the body's single stored number is
  (Σ_n min_m D(n, m)) / 2048 + (Σ_m min_n D(n, m)) / 2048 for the kernel's spelling D of the squared distance between
  target point n and transformed source point m: the loop's running total regrouped from eight tiles of 256 rows into
  one sum over all 2048 target points, its running minima into one minimum over all of them.
-/
import proofs.«118208_j5325759447781_2_alg».proof.Proof.KIFrameRun
import proofs.«118208_j5325759447781_2_alg».proof.Proof.KLoop
import proofs.«118208_j5325759447781_2_alg».proof.Proof.KPay2
import proofs.«118208_j5325759447781_2_alg».proof.Proof.LibChunkSum

noncomputable section

namespace Cert.KernelIdeal.PointVal

open Idealize.ShloMosaic Idealize.ShloMosaic.ValueIdx Idealize.SL.Sem Cert.KernelIdeal Cert.KernelIdeal.Gen
open Cert.KernelIdeal.Pay Cert.KernelIdeal.Hand Cert.KernelIdeal.LoopVal
open Cert.Spec (topW nW)
open Cert.MinLaws

variable [Cert.KernelIdeal.Facts]

/-- The whole-block offsets are zero on every axis. -/
theorem hz4 : (![0, 0, 0, 0] : Fin 4 → ℕ) = fun _ => 0 := by funext a; fin_cases a <;> rfl
theorem hz3 : (![0, 0, 0] : Fin 3 → ℕ) = fun _ => 0 := by funext a; fin_cases a <;> rfl
theorem hz2 : (![0, 0] : Fin 2 → ℕ) = fun _ => 0 := by funext a; fin_cases a <;> rfl

/-- Entry (j, ch) of tile k lies at row 256·k + j of the scratch. -/
theorem tile_idx (k : Fin k0_t1_loop.trips) (j : Fin 256) (ch : Fin 3) (h : 256 * k.val + j.val < 2048) :
    (Rect.unit (s := S2048x3) (k0_off1 k) S256x3.size (k0_off1_inb k)).toLoadRect.idx (ix2 j ch) = ix2 (⟨256 * k.val + j.val, h⟩ : Fin 2048) ch := by
  funext a
  apply Fin.ext
  have e := k0_off1_eq k
  fin_cases a
  · show (k0_off1 k) 0 + 1 * j.val = 256 * k.val + j.val
    rw [e]; show 256 * k.val + 1 * j.val = _; omega
  · show (k0_off1 k) 1 + 1 * ch.val = ch.val
    rw [e]; show 0 + 1 * ch.val = _; omega

/-- What a trip loads of the scratch the body filled: the target block, transposed, at the tile's rows. -/
theorem tile_apply (arg8 : Memref sig .tc .vmem S2048x3 .f32) (x4 : Vec Ideal S1x3x2048 .f32) (k : Fin k0_t1_loop.trips) (j : Fin 256) (ch : Fin 3)
    (h : 256 * k.val + j.val < 2048) :
    tile arg8 (scr0 arg8 x4) k (ix2 j ch) = x4 (ix3 0 ch (⟨256 * k.val + j.val, h⟩ : Fin 2048)) := by
  unfold tile
  rw [View.readAt_apply, scr0_read, View.canon_unit_zero hz2, View.ld_unit_zero (S := S1x3x2048) hz3, tile_idx k j ch h, pay10_apply, pay6_apply]

section
variable (src tg : Fin 2048 → Fin 3 → EReal) (R : Fin 3 → Fin 3 → EReal) (tr : Fin 3 → EReal) (s : EReal)

/-- The tile's squared distances in the kernel's spelling, from the entries of what the body holds. -/
theorem d2K_spec (v1 : FVec Ideal S3x3 .f32) (v3 : FVec Ideal S3x1 .f32) (v5 : FVec Ideal S1x1 .f32) (v7 : FVec Ideal S3x2048 .f32)
    (v26 v37 : FVec Ideal S1x2048 .f32) (v38 : FVec Ideal S1x1 .f32) (v87 : Vec Ideal S256x3 .f32) (j : Fin 256) (n m : Fin 2048)
    (hv1 : ∀ a b, v1 (ix2 a b) = R a b) (hv3 : ∀ a, v3 (ix2 a 0) = tr a) (hv5 : v5 (ix2 0 0) = s) (hv7 : ∀ d q, v7 (ix2 d q) = src q d)
    (hv26 : ∀ q, v26 (ix2 0 q) = (R 0 0 * src q 0 + R 0 1 * src q 1) + R 0 2 * src q 2)
    (hv37 : ∀ q, v37 (ix2 0 q) = R 1 0 * src q 0 + R 1 1 * src q 1) (hv38 : v38 (ix2 0 0) = R 1 2)
    (hv87 : ∀ ch, v87 (ix2 j ch) = tg n ch) :
    Pay.d2K v1 v3 v5 v7 v26 v37 v38 v87 j m = Cert.Spec.d2K src tg R tr s n m := by
  unfold Pay.d2K Pay.ptK Pay.rotRow Cert.Spec.d2K Cert.Spec.ptK
  simp only [hv1, hv3, hv5, hv7, hv26, hv37, hv38, hv87]

/-- Eight tiles of 256 rows are all 2048 rows: a sum tile by tile is the sum over every row. -/
theorem sum_tiles (g : ℕ → EReal) :
    ∑ k ∈ Finset.range 8, ∑ j : Fin 256, g (256 * k + j.val) = ∑ n : Fin 2048, g n.val := by
  rw [Finset.sum_range (fun k => ∑ j : Fin 256, g (256 * k + j.val))]
  exact (Cert.LibChunkSum.sum_chunks 8 256 (fun n : Fin (8 * 256) => g n.val)
    (fun c j => ⟨256 * c.val + j.val, by have := c.isLt; have := j.isLt; omega⟩) (fun c j => rfl)).symm

/-- THE POINT'S VALUE: the number the body stores, from the entries of its five input blocks. -/
theorem point_value (c : Dev nD) (i : grid0.Coords) (arg2 : Memref sig .tc .vmem S1x1x3x3 .f32) (harg2 : arg2.IsWhole) (arg3 : Memref sig .tc .vmem S1x1x3x1 .f32) (harg3 : arg3.IsWhole) (arg4 : Memref sig .tc .vmem S1x1x1x1 .f32) (harg4 : arg4.IsWhole) (arg5 : Memref sig .tc .vmem S1x1x3x2048 .f32) (harg5 : arg5.IsWhole) (arg6 : Memref sig .tc .vmem S1x3x2048 .f32) (harg6 : arg6.IsWhole) (arg7 : Memref sig .tc .vmem S1x1x1x1 .f32) (harg7 : arg7.IsWhole) (arg8 : Memref sig .tc .vmem S2048x3 .f32) (harg8 : arg8.IsWhole)
    (x0 : Vec Ideal S1x1x3x3 .f32) (x1 : Vec Ideal S1x1x3x1 .f32) (x2 : Vec Ideal S1x1x1x1 .f32) (x3 : Vec Ideal S1x1x3x2048 .f32) (x4 : Vec Ideal S1x3x2048 .f32)
    (h0 : ∀ a b, x0 (ix4 0 0 a b) = R a b) (h1 : ∀ a, x1 (ix4 0 0 a 0) = tr a) (h2 : x2 (ix4 0 0 0 0) = s)
    (h3 : ∀ d q, x3 (ix4 0 0 d q) = src q d) (h4 : ∀ d q, x4 (ix3 0 d q) = tg q d) :
    out0_5 (F := Ideal) c i arg2 harg2 arg3 harg3 arg4 harg4 arg5 harg5 arg6 harg6 arg7 harg7 arg8 harg8 x0 x1 x2 x3 x4 (ix4 0 0 0 0) = Cert.Spec.chamfer (Cert.Spec.d2K src tg R tr s) := by
  -- the table of squared distances, with rows named by natural numbers
  let D : ℕ → Fin 2048 → EReal := fun x m => if h : x < 2048 then Cert.Spec.d2K src tg R tr s ⟨x, h⟩ m else 0
  have hDv : ∀ (n : Fin 2048) (m : Fin 2048), D n.val m = Cert.Spec.d2K src tg R tr s n m := fun n m => by
    show (if h : n.val < 2048 then Cert.Spec.d2K src tg R tr s ⟨n.val, h⟩ m else 0) = _
    rw [dif_pos n.isLt]
  have hD : ∀ (k : Fin k0_t1_loop.trips) (j : Fin 256) (m : Fin 2048),
      Pay.d2K (k0_pay2 x0) (k0_pay3 x1) (k0_pay4 x2) (k0_pay5 x3) (k0_pay7 x0 x3) (k0_pay8 x0 x3) (k0_pay9 x0) (tile arg8 (scr0 arg8 x4) k) j m
        = D (256 * k.val + j.val) m := fun k j m => by
    have hk : k.val < 8 := trips_eq ▸ k.isLt
    have hlt : 256 * k.val + j.val < 2048 := by have := j.isLt; omega
    rw [show D (256 * k.val + j.val) m = Cert.Spec.d2K src tg R tr s ⟨256 * k.val + j.val, hlt⟩ m from hDv ⟨_, hlt⟩ m]
    refine d2K_spec src tg R tr s _ _ _ _ _ _ _ _ j ⟨256 * k.val + j.val, hlt⟩ m
      (fun a b => by rw [pay2_apply, h0]) (fun a => by rw [pay3_apply, h1]) (by rw [pay4_apply, h2]) (fun d q => by rw [pay5_apply, h3])
      (fun q => by rw [pay7_apply]; simp only [pay2_apply, pay5_apply, h0, h3])
      (fun q => by rw [pay8_apply]; simp only [pay2_apply, pay5_apply, h0, h3])
      (by rw [pay9_apply, pay2_apply, h0]) (fun ch => by rw [tile_apply arg8 x4 k j ch hlt, h4])
  unfold out0_5
  rw [View.canon_unit_zero hz4, pay1_apply, pay16_apply]
  unfold carried0
  simp only [View.ld_unit_zero (S := S1x1x3x3) hz4, View.ld_unit_zero (S := S1x1x3x1) hz4, View.ld_unit_zero (S := S1x1x1x1) hz4,
    View.ld_unit_zero (S := S1x1x3x2048) hz4, View.ld_unit_zero (S := S1x3x2048) hz3]
  rw [st_sum Variants.none c none i arg2 harg2 arg3 harg3 arg4 harg4 arg5 harg5 arg6 harg6 arg7 harg7 arg8 harg8 (k0_pay2 x0) (k0_pay3 x1) (k0_pay4 x2) (k0_pay5 x3) (k0_pay6 x4) (k0_pay7 x0 x3) (k0_pay8 x0 x3) (k0_pay9 x0)
      (scr0 arg8 x4) (k0_pay11, k0_pay12) D hD k0_t1_loop.trips (le_refl _)]
  simp only [st_min Variants.none c none i arg2 harg2 arg3 harg3 arg4 harg4 arg5 harg5 arg6 harg6 arg7 harg7 arg8 harg8 (k0_pay2 x0) (k0_pay3 x1) (k0_pay4 x2) (k0_pay5 x3) (k0_pay6 x4) (k0_pay7 x0 x3) (k0_pay8 x0 x3) (k0_pay9 x0)
      (scr0 arg8 x4) (k0_pay11, k0_pay12) D hD (fun m => pay12_apply m) k0_t1_loop.trips (le_refl _)]
  rw [trips_eq, pay11_apply, zero_add, sum_tiles (fun x => (Finset.univ : Finset (Fin 2048)).fold min topW (fun m => D x m))]
  unfold Cert.Spec.chamfer
  refine congrArg₂ (fun a b => Ideal.div a nW + Ideal.div b nW) ?_ ?_
  · exact Finset.sum_congr rfl fun n _ => congrArg (fun f => Finset.fold min topW f Finset.univ) (funext fun m => hDv n m)
  · refine Finset.sum_congr rfl fun m _ => ?_
    rw [minBelow_all topW (fun x : Fin 2048 => D x.val m) (256 * 8) (by decide)]
    exact congrArg (fun f => Finset.fold min topW f Finset.univ) (funext fun n => hDv n m)

end

end Cert.KernelIdeal.PointVal

end
-- ==== Proof.KEntry.lean ====
/-
  The number grid point t stores, from the region-entry arrays at the point's pair (r, i): the two-sided mean of nearest
  squared distances over the entries of the rotation, translation, scale, channel-first source and channel-first
  target arrays at (r, i).
-/
import proofs.«118208_j5325759447781_2_alg».proof.Proof.KIBlocks
import proofs.«118208_j5325759447781_2_alg».proof.Proof.KPoint

noncomputable section

namespace Cert.KernelIdeal.PointVal

open Idealize.ShloMosaic Idealize.ShloMosaic.ValueIdx Idealize.ShloMosaic.TcCoe Idealize.SL.Sem Cert.KernelIdeal Cert.KernelIdeal.Gen
open Cert.KernelIdeal.Hand

variable [Cert.KernelIdeal.Facts]

theorem out5At_value (m : (ℓ : Loc nD τ sig) → Buf (Elt Ideal) ℓ) (c : Dev nD) (t : Fin cfg0.N) :
    out5At (F := Ideal) m c t (ix4 (0 : Fin 1) (0 : Fin 1) (0 : Fin 1) (0 : Fin 1) : S1x1x1x1.Idx)
      = Cert.Spec.chamfer (Cert.Spec.d2K
          (fun q d => (V m c main_v52 : S4x16x3x2048.Idx → Elt Ideal .f32) (ix4 (rOf t) (iOf t) d q))
          (fun q d => (V m c main_v53 : S16x3x2048.Idx → Elt Ideal .f32) (ix3 (iOf t) d q))
          (fun a b => (V m c main_v51 : S4x16x3x3.Idx → Elt Ideal .f32) (ix4 (rOf t) (iOf t) a b))
          (fun a => (V m c main_v54 : S4x16x3x1.Idx → Elt Ideal .f32) (ix4 (rOf t) (iOf t) a (0 : Fin 1)))
          ((V m c main_v55 : S4x16x1x1.Idx → Elt Ideal .f32) (ix4 (rOf t) (iOf t) (0 : Fin 1) (0 : Fin 1)))) := by
  unfold out5At
  exact point_value _ _ _ _ _ c (grid0.coords t) _ _ _ _ _ _ _ _ _ _ _ _ _ _ _ _ _ _ _
    (fun a b => iblk0_apply m c t a b) (fun a => iblk1_apply m c t a) (iblk2_apply m c t)
    (fun d q => iblk3_apply m c t d q) (fun d q => iblk4_apply m c t d q)

end Cert.KernelIdeal.PointVal

end
-- ==== Proof.KIHost.lean ====
/- The arrays the region's windows stage, as the region finds them, in terms of @main's arguments: two are transposes
   of an argument, two are broadcasts of an argument along new unit axes, and the matrix array is the product of the
   three coordinate rotations built from the angle argument — the same operations, in the same order, as the prelude of
   the reference program, whose own reading of that product it therefore equals. -/
import proofs.«118208_j5325759447781_2_alg».proof.Proof.KIFrameBase
import proofs.«118208_j5325759447781_2_alg».proof.Proof.Gen.ReferenceIdeal.Read
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A concatenation of nine operands, with each operand's contents at its own reference -/

/-- The result of a nine-operand operation over a literal family of references: the function applied to the family of
    the operands' contents, each read at its own reference (so that what wrote each operand can be read in turn). -/
theorem nary9_result {x0 x1 x2 x3 x4 x5 x6 x7 x8 y : Ref sig .tc}
    (f : ((k : Fin 9) → ((![x0, x1, x2, x3, x4, x5, x6, x7, x8] : Fin 9 → Ref sig .tc) k).ty.Contents (Elt F)) → y.ty.Contents (Elt F)) (hxs hy)
    (G : Valuation τ sig (Elt F)) :
    (nary (τ := τ) ![x0, x1, x2, x3, x4, x5, x6, x7, x8] y f hxs hy).result G (Proc.devRef .tc y)
      = f (Fin.cons (G (Proc.devRef .tc x0)) (Fin.cons (G (Proc.devRef .tc x1)) (Fin.cons (G (Proc.devRef .tc x2)) (Fin.cons (G (Proc.devRef .tc x3)) (Fin.cons (G (Proc.devRef .tc x4)) (Fin.cons (G (Proc.devRef .tc x5)) (Fin.cons (G (Proc.devRef .tc x6)) (Fin.cons (G (Proc.devRef .tc x7)) (Fin.cons (G (Proc.devRef .tc x8)) (fun i => i.elim0)))))))))) := by
  rw [nary_result]; congr 1; funext k; fin_cases k <;> rfl

theorem nary9_result' {x0 x1 x2 x3 x4 x5 x6 x7 x8 y : Ref sig .tc}
    (f : ((k : Fin 9) → ((![x0, x1, x2, x3, x4, x5, x6, x7, x8] : Fin 9 → Ref sig .tc) k).ty.Contents (Elt F)) → y.ty.Contents (Elt F)) (hxs hy)
    (G : Valuation τ sig (Elt F)) :
    (nary (τ := τ) ![x0, x1, x2, x3, x4, x5, x6, x7, x8] y f hxs hy).result G (no_index (Proc.devRef .tc y))
      = f (Fin.cons (G (Proc.devRef .tc x0)) (Fin.cons (G (Proc.devRef .tc x1)) (Fin.cons (G (Proc.devRef .tc x2)) (Fin.cons (G (Proc.devRef .tc x3)) (Fin.cons (G (Proc.devRef .tc x4)) (Fin.cons (G (Proc.devRef .tc x5)) (Fin.cons (G (Proc.devRef .tc x6)) (Fin.cons (G (Proc.devRef .tc x7)) (Fin.cons (G (Proc.devRef .tc x8)) (fun i => i.elim0)))))))))) :=
  nary9_result f hxs hy G

/-! ## The four arrays that are one operation of an argument -/

/-- The point array the region stages is the first argument with its last two axes exchanged. -/
theorem V_main_v52_eq (c : Dev nD) :
    (V m c main_v52 : S4x16x3x2048.Idx → Elt F .f32)
      = transpose S4x16x3x2048 [0, 1, 3, 2] ((m ((c : Thread nD τ).loc main_arg0)) : S4x16x2048x3.Idx → Elt F .f32) transposes_S4x16x2048x3_S4x16x3x2048_0_1_3_2 := by
  show StableHlo.after hostOps0 (fun b => m (c, b)) (Proc.devRef .tc main_v52) = _
  after_results_simp

theorem V_main_v52_apply (c : Dev nD) (r : Fin 4) (i : Fin 16) (d : Fin 3) (q : Fin 2048) :
    (V m c main_v52 : S4x16x3x2048.Idx → Elt F .f32) (ix4 r i d q) = ((m ((c : Thread nD τ).loc main_arg0)) : S4x16x2048x3.Idx → Elt F .f32) (ix4 r i q d) :=
  (congrFun (V_main_v52_eq m c) (ix4 r i d q)).trans
    (transpose_apply _ _ _ (ix4 r i d q) (ix4 r i q d) (fun b => match b with
      | ⟨0, _⟩ => rfl | ⟨1, _⟩ => rfl | ⟨2, _⟩ => rfl | ⟨3, _⟩ => rfl))

/-- The second point array the region stages is the second argument with its last two axes exchanged. -/
theorem V_main_v53_eq (c : Dev nD) :
    (V m c main_v53 : S16x3x2048.Idx → Elt F .f32)
      = transpose S16x3x2048 [0, 2, 1] ((m ((c : Thread nD τ).loc main_arg1)) : S16x2048x3.Idx → Elt F .f32) transposes_S16x2048x3_S16x3x2048_0_2_1 := by
  show StableHlo.after hostOps0 (fun b => m (c, b)) (Proc.devRef .tc main_v53) = _
  after_results_simp

theorem V_main_v53_apply (c : Dev nD) (i : Fin 16) (d : Fin 3) (q : Fin 2048) :
    (V m c main_v53 : S16x3x2048.Idx → Elt F .f32) (ix3 i d q) = ((m ((c : Thread nD τ).loc main_arg1)) : S16x2048x3.Idx → Elt F .f32) (ix3 i q d) :=
  (congrFun (V_main_v53_eq m c) (ix3 i d q)).trans
    (transpose_apply _ _ _ (ix3 i d q) (ix3 i q d) (fun b => match b with
      | ⟨0, _⟩ => rfl | ⟨1, _⟩ => rfl | ⟨2, _⟩ => rfl))

/-- The translation array the region stages is the fourth argument with a unit axis appended. -/
theorem V_main_v54_eq (c : Dev nD) :
    (V m c main_v54 : S4x16x3x1.Idx → Elt F .f32)
      = broadcastInDim S4x16x3x1 ![0, 1, 2] bcast_S4x16x3_S4x16x3x1_0_1_2 ((m ((c : Thread nD τ).loc main_arg3)) : S4x16x3.Idx → Elt F .f32) := by
  show StableHlo.after hostOps0 (fun b => m (c, b)) (Proc.devRef .tc main_v54) = _
  after_results_simp

theorem V_main_v54_apply (c : Dev nD) (r : Fin 4) (i : Fin 16) (a : Fin 3) :
    (V m c main_v54 : S4x16x3x1.Idx → Elt F .f32) (ix4 r i a (0 : Fin 1)) = ((m ((c : Thread nD τ).loc main_arg3)) : S4x16x3.Idx → Elt F .f32) (ix3 r i a) :=
  (congrFun (V_main_v54_eq m c) (ix4 r i a (0 : Fin 1))).trans
    (broadcastInDim_apply _ bcast_S4x16x3_S4x16x3x1_0_1_2 _ (ix4 r i a (0 : Fin 1)) (ix3 r i a) (fun b => match b with
      | ⟨0, _⟩ => by show r.val = if (4 : Nat) = 1 then 0 else r.val; rw [if_neg (by decide)]
      | ⟨1, _⟩ => by show i.val = if (16 : Nat) = 1 then 0 else i.val; rw [if_neg (by decide)]
      | ⟨2, _⟩ => by show a.val = if (3 : Nat) = 1 then 0 else a.val; rw [if_neg (by decide)]))

/-- The scale array the region stages is the fifth argument with two unit axes appended. -/
theorem V_main_v55_eq (c : Dev nD) :
    (V m c main_v55 : S4x16x1x1.Idx → Elt F .f32)
      = broadcastInDim S4x16x1x1 ![0, 1] bcast_S4x16_S4x16x1x1_0_1 ((m ((c : Thread nD τ).loc main_arg4)) : S4x16.Idx → Elt F .f32) := by
  show StableHlo.after hostOps0 (fun b => m (c, b)) (Proc.devRef .tc main_v55) = _
  after_results_simp

theorem V_main_v55_apply (c : Dev nD) (r : Fin 4) (i : Fin 16) :
    (V m c main_v55 : S4x16x1x1.Idx → Elt F .f32) (ix4 r i (0 : Fin 1) (0 : Fin 1)) = ((m ((c : Thread nD τ).loc main_arg4)) : S4x16.Idx → Elt F .f32) (ix2 r i) :=
  (congrFun (V_main_v55_eq m c) (ix4 r i (0 : Fin 1) (0 : Fin 1))).trans
    (broadcastInDim_apply _ bcast_S4x16_S4x16x1x1_0_1 _ (ix4 r i (0 : Fin 1) (0 : Fin 1)) (ix2 r i) (fun b => match b with
      | ⟨0, _⟩ => by show r.val = if (4 : Nat) = 1 then 0 else r.val; rw [if_neg (by decide)]
      | ⟨1, _⟩ => by show i.val = if (16 : Nat) = 1 then 0 else i.val; rw [if_neg (by decide)]))

/-! ## The matrix array -/

/-- The matrix array the region stages is the reference prelude's product of the three rotations of the angle
    argument: the operations before the region that lead to it are, one for one, the reference's. -/
theorem V_main_v51_eq (c : Dev nD) :
    (V m c main_v51 : S4x16x3x3.Idx → Elt F .f32)
      = Cert.ReferenceIdeal.Read.val_main_v51 (F := F) ((m ((c : Thread nD τ).loc main_arg2)) : S4x16x3.Idx → Elt F .f32) := by
  show StableHlo.after hostOps0 (fun b => m (c, b)) (Proc.devRef .tc main_v51) = _
  simp (disch := decide) only [after_cons, after_nil,
    nullary_result', unary_result', binary_result', reshape_result', nary9_result',
    nullary_result_ne', unary_result_ne', binary_result_ne', reshape_result_ne', nary_result_ne']
  rfl

end Cert.KernelIdeal.Hand

end
-- ==== Proof.RefValuePt.lean ====
/-
  The reference's points, read at an entry. For the pair (r, i): the transformed source point m, coordinate c, is
  s·(Σ_k p(m,k)·R(c,k) + t(c)) with p, R, t, s the pair's source points, rotation, translation and scale; the
  target points, broadcast over r, are the targets of i.

  Each stage of the generated stage-by-stage reading is read at an index built from its coordinates; the index
  functions the reading composes are identified with those coordinates.
-/
import proofs.«118208_j5325759447781_2_alg».proof.Proof.Gen.ReferenceIdeal.Read
import proofs.«118208_j5325759447781_2_alg».proof.Proof.Spec
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

variable (x0 : (⟨S4x16x2048x3, .f32⟩ : BufTy).Contents (Elt Ideal)) (x1 : (⟨S16x2048x3, .f32⟩ : BufTy).Contents (Elt Ideal))
  (x2 x3 : (⟨S4x16x3, .f32⟩ : BufTy).Contents (Elt Ideal)) (x4 : (⟨S4x16, .f32⟩ : BufTy).Contents (Elt Ideal))

/-- The transformed source point m of the pair (r, i), coordinate c. -/
theorem v58_at (r : Fin 4) (i : Fin 16) (m : Fin 2048) (c : Fin 3) :
    val_main_v58 (F := Ideal) x0 x2 x3 x4 (ix4 r i m c)
      = Cert.Spec.ptR (fun m k => x0 (ix4 r i m k)) (fun c k => val_main_v51 (F := Ideal) x2 (ix4 r i c k))
          (fun c => x3 (ix3 r i c)) (x4 (ix2 r i)) m c := by
  have e57 : idx_main_v52 (idx_main_v57 (ix4 r i m c)) = ix2 r i :=
    funext fun a => Fin.ext (by match a with | ⟨0, _⟩ => rfl | ⟨1, _⟩ => rfl)
  have e55 : idx_main_v54 (idx_main_v55 (ix4 r i m c)) = ix3 r i c :=
    funext fun a => Fin.ext (by match a with | ⟨0, _⟩ => rfl | ⟨1, _⟩ => rfl | ⟨2, _⟩ => rfl)
  have el : ∀ k : Fin 3, lidx_main_v53 (ix4 r i m c) k = ix4 r i m k := fun k =>
    funext fun a => Fin.ext (by match a with | ⟨0, _⟩ => rfl | ⟨1, _⟩ => rfl | ⟨2, _⟩ => rfl | ⟨3, _⟩ => rfl)
  have er : ∀ k : Fin 3, ridx_main_v53 (ix4 r i m c) k = ix4 r i c k := fun k =>
    funext fun a => Fin.ext (by match a with | ⟨0, _⟩ => rfl | ⟨1, _⟩ => rfl | ⟨2, _⟩ => rfl | ⟨3, _⟩ => rfl)
  rw [val_main_v58_apply, val_main_v57_apply, val_main_v52_apply, e57, val_main_v56_apply, val_main_v53_apply,
    val_main_v55_apply, val_main_v54_apply, e55]
  simp only [el, er]
  rfl

/-- The target point n of the pair (r, i), coordinate k: the targets do not depend on r. -/
theorem v60_at (r : Fin 4) (i : Fin 16) (n : Fin 2048) (k : Fin 3) :
    val_main_v60 (F := Ideal) x1 (ix4 r i n k) = x1 (ix3 i n k) := by
  have e : idx_main_v59 (idx_main_v60 (ix4 r i n k)) = ix3 i n k :=
    funext fun a => Fin.ext (by match a with | ⟨0, _⟩ => rfl | ⟨1, _⟩ => rfl | ⟨2, _⟩ => rfl)
  rw [val_main_v60_apply, val_main_v59_apply, e]

end Cert.RefValue

end
-- ==== Proof.RefValueD2.lean ====
/-
  The reference's squared distances, read at an entry. For the pair (r, i), target point n and transformed source
  point m: |x|² + |y|² − 2·x·y with x the target point and y the transformed source point, each sum over the three
  coordinates started from zero — the reference's spelling of the squared distance.
-/
import proofs.«118208_j5325759447781_2_alg».proof.Proof.RefValuePt

noncomputable section

namespace Cert.RefValue

open Cert.ReferenceIdeal Cert.ReferenceIdeal.Gen Cert.ReferenceIdeal.Read Idealize.ShloMosaic Idealize.ShloMosaic.ValueIdx

variable (x0 : (⟨S4x16x2048x3, .f32⟩ : BufTy).Contents (Elt Ideal)) (x1 : (⟨S16x2048x3, .f32⟩ : BufTy).Contents (Elt Ideal))
  (x2 x3 : (⟨S4x16x3, .f32⟩ : BufTy).Contents (Elt Ideal)) (x4 : (⟨S4x16, .f32⟩ : BufTy).Contents (Elt Ideal))

/-- |x|² for target point n of the pair (r, i). -/
theorem v62_at (r : Fin 4) (i : Fin 16) (n : Fin 2048) :
    val_main_v62 (F := Ideal) x1 (ix3 r i n) = 0 + ∑ k : Fin 3, x1 (ix3 i n k) * x1 (ix3 i n k) := by
  have e : ∀ k : Fin 3, idx_main_v62 (ix3 r i n) k = ix4 r i n k := fun k =>
    funext fun a => Fin.ext (by match a with | ⟨0, _⟩ => rfl | ⟨1, _⟩ => rfl | ⟨2, _⟩ => rfl | ⟨3, _⟩ => rfl)
  rw [val_main_v62_apply]
  simp only [e, val_main_v61_apply, v60_at]
  show Ideal.ofBits .f32 0x00000000#32 + _ = _
  rw [Ideal.ofBits_zero_f32]
  rfl

/-- |y|² for transformed source point m of the pair (r, i). -/
theorem v64_at (r : Fin 4) (i : Fin 16) (m : Fin 2048) :
    val_main_v64 (F := Ideal) x0 x2 x3 x4 (ix3 r i m)
      = 0 + ∑ k : Fin 3,
          Cert.Spec.ptR (fun m k => x0 (ix4 r i m k)) (fun c k => val_main_v51 (F := Ideal) x2 (ix4 r i c k))
              (fun c => x3 (ix3 r i c)) (x4 (ix2 r i)) m k
            * Cert.Spec.ptR (fun m k => x0 (ix4 r i m k)) (fun c k => val_main_v51 (F := Ideal) x2 (ix4 r i c k))
              (fun c => x3 (ix3 r i c)) (x4 (ix2 r i)) m k := by
  have e : ∀ k : Fin 3, idx_main_v64 (ix3 r i m) k = ix4 r i m k := fun k =>
    funext fun a => Fin.ext (by match a with | ⟨0, _⟩ => rfl | ⟨1, _⟩ => rfl | ⟨2, _⟩ => rfl | ⟨3, _⟩ => rfl)
  rw [val_main_v64_apply]
  simp only [e, val_main_v63_apply, v58_at]
  show Ideal.ofBits .f32 0x00000000#32 + _ = _
  rw [Ideal.ofBits_zero_f32]
  rfl

/-- x·y for target point n and transformed source point m of the pair (r, i). -/
theorem v70_at (r : Fin 4) (i : Fin 16) (n m : Fin 2048) :
    val_main_v70 (F := Ideal) x0 x1 x2 x3 x4 (ix4 r i n m)
      = ∑ k : Fin 3, x1 (ix3 i n k)
          * Cert.Spec.ptR (fun m k => x0 (ix4 r i m k)) (fun c k => val_main_v51 (F := Ideal) x2 (ix4 r i c k))
              (fun c => x3 (ix3 r i c)) (x4 (ix2 r i)) m k := by
  have el : ∀ k : Fin 3, lidx_main_v70 (ix4 r i n m) k = ix4 r i n k := fun k =>
    funext fun a => Fin.ext (by match a with | ⟨0, _⟩ => rfl | ⟨1, _⟩ => rfl | ⟨2, _⟩ => rfl | ⟨3, _⟩ => rfl)
  have er : ∀ k : Fin 3, ridx_main_v70 (ix4 r i n m) k = ix4 r i m k := fun k =>
    funext fun a => Fin.ext (by match a with | ⟨0, _⟩ => rfl | ⟨1, _⟩ => rfl | ⟨2, _⟩ => rfl | ⟨3, _⟩ => rfl)
  rw [val_main_v70_apply]
  simp only [el, er, v60_at, v58_at]

/-- THE SQUARED DISTANCE between target point n and transformed source point m of the pair (r, i), as the reference
    spells it. -/
theorem v73_at (r : Fin 4) (i : Fin 16) (n m : Fin 2048) :
    val_main_v73 (F := Ideal) x0 x1 x2 x3 x4 (ix4 r i n m)
      = Cert.Spec.d2R (fun m k => x0 (ix4 r i m k)) (fun n k => x1 (ix3 i n k))
          (fun c k => val_main_v51 (F := Ideal) x2 (ix4 r i c k)) (fun c => x3 (ix3 r i c)) (x4 (ix2 r i)) n m := by
  have e67 : idx_main_v65 (idx_main_v67 (ix4 r i n m)) = ix3 r i n :=
    funext fun a => Fin.ext (by match a with | ⟨0, _⟩ => rfl | ⟨1, _⟩ => rfl | ⟨2, _⟩ => rfl)
  have e68 : idx_main_v66 (idx_main_v68 (ix4 r i n m)) = ix3 r i m :=
    funext fun a => Fin.ext (by match a with | ⟨0, _⟩ => rfl | ⟨1, _⟩ => rfl | ⟨2, _⟩ => rfl)
  rw [val_main_v73_apply, val_main_v69_apply, val_main_v67_apply, val_main_v65_apply, e67, v62_at,
    val_main_v68_apply, val_main_v66_apply, e68, v64_at, val_main_v72_apply, val_main_v71_apply, v70_at]
  rfl

end Cert.RefValue

end
-- ==== Proof.RefValueMin.lean ====
/-
  The reference's two nearest-distance reductions, read at an entry. A minimum-reduce over one axis of the table of
  squared distances, started from +∞, is at each remaining index the minimum from +∞ over that axis's coordinate:
  over the last axis, for each target point the minimum over the source points; over the axis before it, for each
  source point the minimum over the target points.
-/
import proofs.«118208_j5325759447781_2_alg».proof.Proof.RefValueD2

noncomputable section

namespace Cert.RefValue

open Cert.ReferenceIdeal Cert.ReferenceIdeal.Gen Cert.ReferenceIdeal.Read Idealize.ShloMosaic Idealize.ShloMosaic.ValueIdx

variable (x0 : (⟨S4x16x2048x3, .f32⟩ : BufTy).Contents (Elt Ideal)) (x1 : (⟨S16x2048x3, .f32⟩ : BufTy).Contents (Elt Ideal))
  (x2 x3 : (⟨S4x16x3, .f32⟩ : BufTy).Contents (Elt Ideal)) (x4 : (⟨S4x16, .f32⟩ : BufTy).Contents (Elt Ideal))

/-- The index (r, i, n) with coordinate k put back on the last axis is (r, i, n, k). -/
theorem lift_last (h : S4x16x2048x2048.Reduces [3] S4x16x2048) (r : Fin 4) (i : Fin 16) (n : Fin 2048)
    (k : Fin (S4x16x2048x2048.size 3)) : h.lift (ix3 r i n) k = ix4 r i n (⟨k.val, k.isLt⟩ : Fin 2048) := by
  funext c; apply Fin.ext
  fin_cases c <;> rfl

/-- The index (r, i, m) with coordinate k put back on the axis before the last is (r, i, k, m). -/
theorem lift_mid (h : S4x16x2048x2048.Reduces [2] S4x16x2048) (r : Fin 4) (i : Fin 16) (m : Fin 2048)
    (k : Fin (S4x16x2048x2048.size 2)) : h.lift (ix3 r i m) k = ix4 r i (⟨k.val, k.isLt⟩ : Fin 2048) m := by
  funext c; apply Fin.ext
  fin_cases c <;> rfl

/-- For target point n of the pair (r, i): the minimum from +∞ over the source points m of the squared distance. -/
theorem v74_at (r : Fin 4) (i : Fin 16) (n : Fin 2048) :
    val_main_v74 (F := Ideal) x0 x1 x2 x3 x4 (ix3 r i n)
      = (Finset.univ : Finset (Fin 2048)).fold min Cert.Spec.topW
          (fun m => val_main_v73 (F := Ideal) x0 x1 x2 x3 x4 (ix4 r i n m)) := by
  have h : S4x16x2048x2048.Reduces [3] S4x16x2048 := by decide
  unfold val_main_v74
  rw [Host.reduce_eq_fold_single FloatOps.minimumf _ _ reducesTo_S4x16x2048x2048_S4x16x2048_d3 h h_S_]
  have hf : (val_main_v73 (F := Ideal) x0 x1 x2 x3 x4 ∘ h.lift (ix3 r i n))
      = fun m : Fin 2048 => val_main_v73 (F := Ideal) x0 x1 x2 x3 x4 (ix4 r i n m) :=
    funext fun k => congrArg (val_main_v73 (F := Ideal) x0 x1 x2 x3 x4) (lift_last h r i n k)
  exact congrArg (fun f => Finset.fold min Cert.Spec.topW f (Finset.univ : Finset (Fin 2048))) hf

/-- For source point m of the pair (r, i): the minimum from +∞ over the target points n of the squared distance. -/
theorem v78_at (r : Fin 4) (i : Fin 16) (m : Fin 2048) :
    val_main_v78 (F := Ideal) x0 x1 x2 x3 x4 (ix3 r i m)
      = (Finset.univ : Finset (Fin 2048)).fold min Cert.Spec.topW
          (fun n => val_main_v73 (F := Ideal) x0 x1 x2 x3 x4 (ix4 r i n m)) := by
  have h : S4x16x2048x2048.Reduces [2] S4x16x2048 := by decide
  unfold val_main_v78
  rw [Host.reduce_eq_fold_single FloatOps.minimumf _ _ reducesTo_S4x16x2048x2048_S4x16x2048_d2 h h_S_]
  have hf : (val_main_v73 (F := Ideal) x0 x1 x2 x3 x4 ∘ h.lift (ix3 r i m))
      = fun n : Fin 2048 => val_main_v73 (F := Ideal) x0 x1 x2 x3 x4 (ix4 r i n m) :=
    funext fun k => congrArg (val_main_v73 (F := Ideal) x0 x1 x2 x3 x4) (lift_mid h r i m k)
  exact congrArg (fun f => Finset.fold min Cert.Spec.topW f (Finset.univ : Finset (Fin 2048))) hf

end Cert.RefValue

end
-- ==== Proof.RefValue.lean ====
/-
  The reference's result, read at an entry. For the pair (r, i) the result is the two-sided mean of nearest squared
  distances of the pair's data: the sum over the target points of the nearest transformed source point's squared
  distance, divided by the number of points, plus the same with the roles exchanged — with the squared distance in the
  reference's spelling, every sum started from zero and every minimum from +∞.
-/
import proofs.«118208_j5325759447781_2_alg».proof.Proof.RefValueMin

noncomputable section

namespace Cert.RefValue

open Cert.ReferenceIdeal Cert.ReferenceIdeal.Gen Cert.ReferenceIdeal.Read Idealize.ShloMosaic Idealize.ShloMosaic.ValueIdx

variable (x0 : (⟨S4x16x2048x3, .f32⟩ : BufTy).Contents (Elt Ideal)) (x1 : (⟨S16x2048x3, .f32⟩ : BufTy).Contents (Elt Ideal))
  (x2 x3 : (⟨S4x16x3, .f32⟩ : BufTy).Contents (Elt Ideal)) (x4 : (⟨S4x16, .f32⟩ : BufTy).Contents (Elt Ideal))

/-- THE REFERENCE'S RESULT for the pair (r, i). -/
theorem ref_entry (r : Fin 4) (i : Fin 16) :
    val_main_v82 (F := Ideal) x0 x1 x2 x3 x4 (ix2 r i)
      = Cert.Spec.chamfer (Cert.Spec.d2R (fun m k => x0 (ix4 r i m k)) (fun n k => x1 (ix3 i n k))
          (fun c k => val_main_v51 (F := Ideal) x2 (ix4 r i c k)) (fun c => x3 (ix3 r i c)) (x4 (ix2 r i))) := by
  have e75 : ∀ k : Fin 2048, idx_main_v75 (ix2 r i) k = ix3 r i k := fun k =>
    funext fun a => Fin.ext (by match a with | ⟨0, _⟩ => rfl | ⟨1, _⟩ => rfl | ⟨2, _⟩ => rfl)
  have e79 : ∀ k : Fin 2048, idx_main_v79 (ix2 r i) k = ix3 r i k := fun k =>
    funext fun a => Fin.ext (by match a with | ⟨0, _⟩ => rfl | ⟨1, _⟩ => rfl | ⟨2, _⟩ => rfl)
  rw [val_main_v82_apply, val_main_v77_apply, val_main_v81_apply, val_main_v75_apply, val_main_v79_apply,
    val_main_v76_apply, val_main_v80_apply]
  simp only [e75, e79, v74_at, v78_at, v73_at]
  unfold Cert.Spec.chamfer
  show Ideal.div (Ideal.ofBits .f32 0x00000000#32 + _) _ + Ideal.div (Ideal.ofBits .f32 0x00000000#32 + _) _ = _
  rw [Ideal.ofBits_zero_f32, zero_add, zero_add]
  rfl

end Cert.RefValue

end
-- ==== Proof.LibRealDef.lean ====
/-
  "Every entry is a real number": the predicate on arrays of extended reals that the finiteness argument carries
  from a program's inputs through its host operations (IsReal, AllReal).
-/
import Idealize.ShloMosaic.PureOps.Ideal

noncomputable section

namespace Cert.Real

open Idealize.ShloMosaic

/-- An extended real that is the coercion of a real number (neither infinity). -/
def IsReal (x : EReal) : Prop := ∃ r : ℝ, x = (r : EReal)

/-- Every entry of an array of extended reals is a real number. -/
def AllReal {S : Shape} (v : S.Idx → EReal) : Prop := ∀ i, ∃ r : ℝ, v i = (r : EReal)

theorem allReal_iff {S : Shape} (v : S.Idx → EReal) : AllReal v ↔ ∀ i, IsReal (v i) := Iff.rfl

/-- The real entries of an all-real array, chosen once. -/
theorem AllReal.exists_fun {S : Shape} {v : S.Idx → EReal} (h : AllReal v) :
    ∃ f : S.Idx → ℝ, ∀ i, v i = (f i : EReal) :=
  ⟨fun i => (h i).choose, fun i => (h i).choose_spec⟩

end Cert.Real

end
-- ==== Proof.LibRealClosure.lean ====
/-
  Closure of "every entry is a real number" under host and vector operations, on the extended reals
  (layout operations, constants, cos / sin / negation, pointwise arithmetic, dot_general, float sums).

  Layout operations (a slice, a reshape, a broadcast, a transposition, a concatenation) only move entries: each entry
  of the result is an entry of an operand. A constant whose float word denotes a real is real. Cosine, sine and
  negation of a real are real; sums, differences and products of reals are real, hence so is a finite sum of
  products (a contraction) and a finite sum with a real initial value.
-/
import proofs.«118208_j5325759447781_2_alg».proof.Proof.LibRealDef
import Idealize.ShloMosaic.PureOps.Ideal.Laws

noncomputable section

namespace Cert.Real

open Idealize.ShloMosaic

/-! ### Scalars -/

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.cos {a : EReal} (ha : IsReal a) : IsReal (Ideal.cos a) := by
  obtain ⟨r, rfl⟩ := ha
  exact ⟨Real.cos r, rfl⟩

theorem IsReal.sin {a : EReal} (ha : IsReal a) : IsReal (Ideal.sin a) := by
  obtain ⟨r, rfl⟩ := ha
  exact ⟨Real.sin r, rfl⟩

/-- A finite sum of reals is real. -/
theorem isReal_sum {ι : Type} (s : Finset ι) (f : ι → EReal) (h : ∀ k ∈ s, IsReal (f k)) : IsReal (∑ k ∈ s, f k) :=
  Finset.sum_induction f IsReal (fun _ _ => IsReal.add) isReal_zero h

/-- The float word of 0 denotes the real 0. -/
theorem isReal_zero_word : IsReal (Ideal.ofBits .f32 0x00000000#32) := by
  rw [Ideal.ofBits_zero_f32]; exact isReal_zero

/-- The float word of 1 denotes a real: a normal number is a dyadic rational. -/
theorem isReal_one_word : IsReal (Ideal.ofBits .f32 0x3F800000#32) := by
  have h : Ideal.ofBits .f32 0x3F800000#32 = 1 := by simp [Ideal.ofBits, Ideal.ieee, -EReal.coe_mul]; norm_num
  rw [h]; exact isReal_one

/-! ### Arrays: operations that move entries -/

variable {s t : Shape}

theorem allReal_slice {x : s.Idx → EReal} (hx : AllReal x) (off : Fin s.rank → Nat) (h : s.Slices off t) :
    AllReal (extractStridedSlice t off x h) := fun j => hx _

theorem allReal_shapeCast {x : s.Idx → EReal} (hx : AllReal x) (h : s.ShapeCasts t) :
    AllReal (shapeCast t x h) := fun j => hx _

theorem allReal_broadcastInDim {x : s.Idx → EReal} (hx : AllReal x) (dims : Fin s.rank → Fin t.rank)
    (h : s.BroadcastsInDim t dims) : AllReal (broadcastInDim t dims h x) := fun j => hx _

theorem allReal_broadcastTo {x : s.Idx → EReal} (hx : AllReal x) (h : s.Broadcasts t) :
    AllReal (broadcastTo t x h) := fun j => hx _

theorem allReal_transpose {x : s.Idx → EReal} (hx : AllReal x) (perm : List (Fin s.rank)) (h : s.Transposes perm t) :
    AllReal (transpose t perm x h) := fun j => hx _

/-- A concatenation: each entry of the result is an entry of one operand of the list. -/
theorem allReal_concatenate (a : Fin t.rank) (xs : List ((s : Shape) × (s.Idx → EReal)))
    (h : Shape.Concatenates (xs.map (·.1)) t a) (hall : ∀ p ∈ xs, AllReal p.2) :
    AllReal (concatenate t a xs h) := by
  intro j
  unfold concatenate
  exact hall _ (List.getElem_mem _) _

/-- The same with the operands' hypotheses as one conjunction, in the list's order. -/
theorem allReal_concatenate' (a : Fin t.rank) (xs : List ((s : Shape) × (s.Idx → EReal)))
    (h : Shape.Concatenates (xs.map (·.1)) t a) (hall : List.Forall (fun p => AllReal p.2) xs) :
    AllReal (concatenate t a xs h) :=
  allReal_concatenate a xs h (List.forall_iff_forall_mem.1 hall)

/-! ### Arrays: constants and entrywise arithmetic -/

variable {φ : FTy}

/-- A constant array whose word denotes a real. -/
theorem allReal_constant (b : BitVec φ.bits) (hb : IsReal (Ideal.ofBits φ b)) :
    AllReal (constant (F := Ideal) s φ b) := fun _ => hb

theorem allReal_constant_zero : AllReal (constant (F := Ideal) s .f32 0x00000000#32) :=
  allReal_constant _ isReal_zero_word

theorem allReal_constant_one : AllReal (constant (F := Ideal) s .f32 0x3F800000#32) :=
  allReal_constant _ isReal_one_word

theorem allReal_host_cos {x : FVec Ideal s φ} (hx : AllReal x) : AllReal (Host.cos x) := fun i => IsReal.cos (hx i)

theorem allReal_host_sin {x : FVec Ideal s φ} (hx : AllReal x) : AllReal (Host.sin x) := fun i => IsReal.sin (hx i)

theorem allReal_host_negf {x : FVec Ideal s φ} (hx : AllReal x) : AllReal (Host.negf x) := fun i => IsReal.neg (hx i)

theorem allReal_negf {x : FVec Ideal s φ} (hx : AllReal x) : AllReal (negf x) := fun i => IsReal.neg (hx i)

theorem allReal_addf {x y : FVec Ideal s φ} (hx : AllReal x) (hy : AllReal y) : AllReal (addf x y) :=
  fun i => IsReal.add (hx i) (hy i)

theorem allReal_subf {x y : FVec Ideal s φ} (hx : AllReal x) (hy : AllReal y) : AllReal (subf x y) :=
  fun i => IsReal.sub (hx i) (hy i)

theorem allReal_mulf {x y : FVec Ideal s φ} (hx : AllReal x) (hy : AllReal y) : AllReal (mulf x y) :=
  fun i => IsReal.mul (hx i) (hy i)

/-! ### Arrays: contractions and sums -/

/-- A contraction of two all-real arrays: each entry is a finite sum of products of reals. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral (F := Ideal) d prec lhs rhs) := by
  intro j
  show IsReal (FloatOps.dotGeneral d prec .single lhs rhs j)
  rw [Ideal.dotGeneral_apply]
  exact isReal_sum _ _ fun k _ => IsReal.mul (hl _) (hr _)

/-- A sum over axes of an all-real array from a real initial value. -/
theorem allReal_reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd (F := Ideal) x init h hu) := by
  intro j
  show IsReal (init (Shape.Idx.first hu) + ∑ i ∈ Finset.univ.filter (fun i => h.drop i = j), x i)
  exact IsReal.add (hi _) (isReal_sum _ _ fun k _ => hx k)

end Cert.Real

end
-- ==== Proof.RealAlgebra.lean ====
/-
  The two spellings of the squared distance agree on real data. Coordinate by coordinate, Σ_c (x_c − y_c)², and
  expanded, |x|² + |y|² − 2·x·y, are the same polynomial in the coordinates; so are the two spellings of the
  transformed point y = s·(R·p + t), which differ only in the order of a three-term sum and of each product. On the
  extended reals the identity needs every quantity to be a real number (the expansion distributes a product over a
  sum and cancels, which fails at an infinity); for reals it is the identity of the real polynomial ring, read through
  the coercion.
-/
import proofs.«118208_j5325759447781_2_alg».proof.Proof.Spec
import proofs.«118208_j5325759447781_2_alg».proof.Proof.LibRealClosure

noncomputable section

namespace Cert.Real

open Idealize.ShloMosaic

/-- The float word of 2 is the real number 2. -/
theorem two_word : Cert.Spec.twoW = ((2 : ℝ) : EReal) := by
  show Ideal.ofBits .f32 0x40000000#32 = ((2 : ℝ) : EReal)
  simp [Ideal.ofBits, Ideal.ieee, -EReal.coe_mul]; norm_num

/-- The identity on reals: for one target point q and one source point p, with y = σ·(R·p + t), the coordinate-wise
    squared distance equals the expanded one. -/
theorem d2_real (p q : Fin 3 → ℝ) (R : Fin 3 → Fin 3 → ℝ) (t : Fin 3 → ℝ) (σ : ℝ) :
    ((0 + (q 0 - σ * (((R 0 0 * p 0 + R 0 1 * p 1) + R 0 2 * p 2) + t 0))
            * (q 0 - σ * (((R 0 0 * p 0 + R 0 1 * p 1) + R 0 2 * p 2) + t 0)))
        + (q 1 - σ * (((R 1 0 * p 0 + R 1 1 * p 1) + R 1 2 * p 2) + t 1))
            * (q 1 - σ * (((R 1 0 * p 0 + R 1 1 * p 1) + R 1 2 * p 2) + t 1)))
      + (q 2 - σ * (((R 2 0 * p 0 + R 2 1 * p 1) + R 2 2 * p 2) + t 2))
            * (q 2 - σ * (((R 2 0 * p 0 + R 2 1 * p 1) + R 2 2 * p 2) + t 2))
    = ((0 + ((q 0 * q 0 + q 1 * q 1) + q 2 * q 2))
        + (0 + ((σ * (((p 0 * R 0 0 + p 1 * R 0 1) + p 2 * R 0 2) + t 0) * (σ * (((p 0 * R 0 0 + p 1 * R 0 1) + p 2 * R 0 2) + t 0))
              + σ * (((p 0 * R 1 0 + p 1 * R 1 1) + p 2 * R 1 2) + t 1) * (σ * (((p 0 * R 1 0 + p 1 * R 1 1) + p 2 * R 1 2) + t 1)))
              + σ * (((p 0 * R 2 0 + p 1 * R 2 1) + p 2 * R 2 2) + t 2) * (σ * (((p 0 * R 2 0 + p 1 * R 2 1) + p 2 * R 2 2) + t 2)))))
      - 2 * ((q 0 * (σ * (((p 0 * R 0 0 + p 1 * R 0 1) + p 2 * R 0 2) + t 0))
              + q 1 * (σ * (((p 0 * R 1 0 + p 1 * R 1 1) + p 2 * R 1 2) + t 1)))
              + q 2 * (σ * (((p 0 * R 2 0 + p 1 * R 2 1) + p 2 * R 2 2) + t 2))) := by
  ring

/-- THE TWO SPELLINGS AGREE ON REAL DATA. -/
theorem d2_eq (src tg : Fin 2048 → Fin 3 → EReal) (R : Fin 3 → Fin 3 → EReal) (tr : Fin 3 → EReal) (s : EReal)
    (hsrc : ∀ m k, IsReal (src m k)) (htg : ∀ n k, IsReal (tg n k)) (hR : ∀ c k, IsReal (R c k))
    (htr : ∀ c, IsReal (tr c)) (hs : IsReal s) (n m : Fin 2048) :
    Cert.Spec.d2K src tg R tr s n m = Cert.Spec.d2R src tg R tr s n m := by
  choose p hp using (fun k => hsrc m k : ∀ k, ∃ r : ℝ, src m k = r)
  choose q hq using (fun k => htg n k : ∀ k, ∃ r : ℝ, tg n k = r)
  choose ρ hρ using (fun c k => hR c k : ∀ c k, ∃ r : ℝ, R c k = r)
  choose t ht using (fun c => htr c : ∀ c, ∃ r : ℝ, tr c = r)
  obtain ⟨σ, rfl⟩ := hs
  unfold Cert.Spec.d2K Cert.Spec.d2R Cert.Spec.ptK Cert.Spec.ptR
  simp only [Fin.sum_univ_three, hp, hq, hρ, ht, two_word]
  simp only [← EReal.coe_mul, ← EReal.coe_add, ← EReal.coe_sub, ← EReal.coe_zero]
  exact congrArg _ (d2_real p q ρ t σ)

end Cert.Real

end
-- ==== Proof.RealRot.lean ====
/-
  The rotation matrices are real. Both programs begin by building, from the rotation angles, the three elementary
  rotations about the coordinate axes — matrices whose entries are 1, 0, and the cosines, sines and negated sines of
  the angles — and multiplying them. When every angle is a real number, every entry of every stage of this
  construction is a real number: an angle is read off by a slice and a reshape; its cosine, sine and negated sine are
  real; the constants 1 and 0 are real; each of the nine columns of an elementary rotation is one of these, broadcast;
  the rotation is their concatenation, reshaped; and the product of the three is two contractions.

  The stages are those of the generated stage-by-stage reading of the reference; `rot_real` is the product.
-/
import proofs.«118208_j5325759447781_2_alg».proof.Proof.Gen.ReferenceIdeal.Read
import proofs.«118208_j5325759447781_2_alg».proof.Proof.LibRealClosure

noncomputable section

namespace Cert.Real

open Cert.ReferenceIdeal Cert.ReferenceIdeal.Gen Cert.ReferenceIdeal.Read Idealize.ShloMosaic

/-- What holds of each of nine listed things holds of every member of their list. -/
theorem forall_mem_nine {α : Type} {p : α → Prop} {a1 a2 a3 a4 a5 a6 a7 a8 a9 : α} (h1 : p a1) (h2 : p a2) (h3 : p a3)
    (h4 : p a4) (h5 : p a5) (h6 : p a6) (h7 : p a7) (h8 : p a8) (h9 : p a9) :
    ∀ x ∈ [a1, a2, a3, a4, a5, a6, a7, a8, a9], p x := by
  intro x hx
  simp only [List.mem_cons, List.not_mem_nil, or_false] at hx
  rcases hx with rfl | rfl | rfl | rfl | rfl | rfl | rfl | rfl | rfl <;> assumption

/-- A [4,16] array of reals broadcast to a [4,16,1] column. -/
theorem real_col {x : (⟨S4x16, .f32⟩ : BufTy).Contents (Elt Ideal)} (hx : AllReal x) :
    AllReal (broadcastInDim S4x16x1 ![0, 1] bcast_S4x16_S4x16x1_0_1 x) :=
  allReal_broadcastInDim hx _ _

section
variable (x2 : (⟨S4x16x3, .f32⟩ : BufTy).Contents (Elt Ideal))

/-! ### The three angles: a slice of the angle array, reshaped -/

theorem real_v1 (h : AllReal x2) : AllReal (val_main_v1 (F := Ideal) x2) := by
  unfold val_main_v1 val_main_v0
  exact allReal_shapeCast (allReal_slice h _ _) _

theorem real_v3 (h : AllReal x2) : AllReal (val_main_v3 (F := Ideal) x2) := by
  unfold val_main_v3 val_main_v2
  exact allReal_shapeCast (allReal_slice h _ _) _

theorem real_v5 (h : AllReal x2) : AllReal (val_main_v5 (F := Ideal) x2) := by
  unfold val_main_v5 val_main_v4
  exact allReal_shapeCast (allReal_slice h _ _) _

/-! ### Their cosines, sines and negated sines -/

theorem real_v6 (h : AllReal x2) : AllReal (val_main_v6 (F := Ideal) x2) := by
  unfold val_main_v6
  exact allReal_host_cos (real_v1 x2 h)

theorem real_v7 (h : AllReal x2) : AllReal (val_main_v7 (F := Ideal) x2) := by
  unfold val_main_v7
  exact allReal_host_sin (real_v1 x2 h)

theorem real_v8 (h : AllReal x2) : AllReal (val_main_v8 (F := Ideal) x2) := by
  unfold val_main_v8
  exact allReal_host_cos (real_v3 x2 h)

theorem real_v9 (h : AllReal x2) : AllReal (val_main_v9 (F := Ideal) x2) := by
  unfold val_main_v9
  exact allReal_host_sin (real_v3 x2 h)

theorem real_v10 (h : AllReal x2) : AllReal (val_main_v10 (F := Ideal) x2) := by
  unfold val_main_v10
  exact allReal_host_cos (real_v5 x2 h)

theorem real_v11 (h : AllReal x2) : AllReal (val_main_v11 (F := Ideal) x2) := by
  unfold val_main_v11
  exact allReal_host_sin (real_v5 x2 h)

theorem real_v14 (h : AllReal x2) : AllReal (val_main_v14 (F := Ideal) x2) := by
  unfold val_main_v14
  exact allReal_host_negf (real_v7 x2 h)

theorem real_v26 (h : AllReal x2) : AllReal (val_main_v26 (F := Ideal) x2) := by
  unfold val_main_v26
  exact allReal_host_negf (real_v9 x2 h)

theorem real_v38 (h : AllReal x2) : AllReal (val_main_v38 (F := Ideal) x2) := by
  unfold val_main_v38
  exact allReal_host_negf (real_v11 x2 h)

end

/-! ### The constants 1 and 0, as [4,16] arrays -/

theorem real_v12 : AllReal (val_main_v12 (F := Ideal)) := by
  unfold val_main_v12 val_main_cst
  exact allReal_broadcastInDim allReal_constant_one _ _

theorem real_v13 : AllReal (val_main_v13 (F := Ideal)) := by
  unfold val_main_v13 val_main_cst_0
  exact allReal_broadcastInDim allReal_constant_zero _ _

section
variable (x2 : (⟨S4x16x3, .f32⟩ : BufTy).Contents (Elt Ideal))

/-! ### The three elementary rotations: nine columns concatenated, then reshaped to 3 × 3

The columns are, in order: about the first axis 1, 0, 0, 0, cos, −sin, 0, sin, cos; about the second cos, 0, sin, 0,
1, 0, −sin, 0, cos; about the third cos, −sin, 0, sin, cos, 0, 0, 0, 1. -/

theorem real_v24 (h : AllReal x2) : AllReal (val_main_v24 (F := Ideal) x2) := by
  unfold val_main_v24
  exact allReal_concatenate _ _ _ (forall_mem_nine (real_col real_v12) (real_col real_v13) (real_col real_v13)
    (real_col real_v13) (real_col (real_v6 x2 h)) (real_col (real_v14 x2 h)) (real_col real_v13)
    (real_col (real_v7 x2 h)) (real_col (real_v6 x2 h)))

theorem real_v25 (h : AllReal x2) : AllReal (val_main_v25 (F := Ideal) x2) := by
  unfold val_main_v25
  exact allReal_shapeCast (real_v24 x2 h) _

theorem real_v36 (h : AllReal x2) : AllReal (val_main_v36 (F := Ideal) x2) := by
  unfold val_main_v36
  exact allReal_concatenate _ _ _ (forall_mem_nine (real_col (real_v8 x2 h)) (real_col real_v13)
    (real_col (real_v9 x2 h)) (real_col real_v13) (real_col real_v12) (real_col real_v13)
    (real_col (real_v26 x2 h)) (real_col real_v13) (real_col (real_v8 x2 h)))

theorem real_v37 (h : AllReal x2) : AllReal (val_main_v37 (F := Ideal) x2) := by
  unfold val_main_v37
  exact allReal_shapeCast (real_v36 x2 h) _

theorem real_v48 (h : AllReal x2) : AllReal (val_main_v48 (F := Ideal) x2) := by
  unfold val_main_v48
  exact allReal_concatenate _ _ _ (forall_mem_nine (real_col (real_v10 x2 h)) (real_col (real_v38 x2 h))
    (real_col real_v13) (real_col (real_v11 x2 h)) (real_col (real_v10 x2 h)) (real_col real_v13)
    (real_col real_v13) (real_col real_v13) (real_col real_v12))

theorem real_v49 (h : AllReal x2) : AllReal (val_main_v49 (F := Ideal) x2) := by
  unfold val_main_v49
  exact allReal_shapeCast (real_v48 x2 h) _

/-! ### Their product: two contractions -/

theorem real_v50 (h : AllReal x2) : AllReal (val_main_v50 (F := Ideal) x2) := by
  unfold val_main_v50
  exact allReal_dotGeneral _ _ (real_v25 x2 h) (real_v37 x2 h)

/-- THE ROTATION IS REAL: with real angles, every entry of the product of the three elementary rotations is real. -/
theorem rot_real (h : AllReal x2) : AllReal (val_main_v51 (F := Ideal) x2) := by
  unfold val_main_v51
  exact allReal_dotGeneral _ _ (real_v50 x2 h) (real_v49 x2 h)

end

end Cert.Real

end
-- ==== Proof.LibRealEntries.lean ====
/-
  General lemmas for reading a "finite input" precondition on the extended reals.

  A float input's finiteness test is |x| < +∞ with |x| = max x (−x) and +∞ the float word 0x7F800000. On the extended
  reals the maximum is +∞ exactly at the two infinities, so a passing test says x is a real number.

  * `top_word`: the f32 word 0x7F800000 is the top element.
  * `real_of_abs_lt`: if the comparison max x (−x) < +∞ comes out true, x is the coercion of a real.
-/
import Idealize.ShloMosaic.PureOps.Ideal

noncomputable section

namespace Cert.RealEntries

open Idealize.ShloMosaic

/-- The float word of +∞ is the extended reals' top element. -/
theorem top_word : Ideal.ofBits .f32 0x7F800000#32 = (⊤ : EReal) := by simp [Ideal.ofBits, Ideal.ieee]

/-- An extended real whose absolute value max x (−x) is strictly below +∞ is a real number: at either infinity the
    maximum is +∞ itself. -/
theorem real_of_abs_lt (x : EReal) (h : Ideal.cmp .olt (max x (-x)) (Ideal.ofBits .f32 0x7F800000#32) = 1#1) :
    ∃ r : ℝ, x = (r : EReal) := by
  rw [top_word] at h
  have h' : max x (-x) < ⊤ := by
    by_contra hn
    simp [Ideal.cmp, hn] at h
  induction x using EReal.rec with
  | bot => simp at h'
  | coe r => exact ⟨r, rfl⟩
  | top => simp at h'

end Cert.RealEntries

end
-- ==== Proof.RealPre.lean ====
/-
  The finiteness precondition, read back: when the test "|x| < +∞ at every entry of every input array" comes out
  true on the extended reals, every entry of each of the five input arrays is a real number.

  The test is a conjunction of five all-entries reductions of the comparison |x| < +∞; a conjunction that is 1 has
  both conjuncts 1, a reduction by "and" that is 1 met only 1s, and |x| = max x (−x) is below +∞ only at a real x.
-/
import proofs.«118208_j5325759447781_2_alg».proof.Pre_finite_inputs
import proofs.«118208_j5325759447781_2_alg».proof.Proof.LibRealEntries
import proofs.«118208_j5325759447781_2_alg».proof.Proof.LibRealDef
import Idealize.ShloMosaic.Lib.ReduceAll

noncomputable section

namespace Cert.Real

open Idealize.ShloMosaic Cert.Pre_finite_inputs

variable [Cert.Pre_finite_inputs.Facts]

/-- The rank-0 shape has one index. -/
instance subsingleton_scalar_idx : Subsingleton S_.Idx := ⟨fun a b => funext fun d => d.elim0⟩

/-- One input array: if the reduction by "and" of the entrywise test |x| < +∞ is 1, every entry is real. -/
theorem allReal_of_all {S : Shape} {axes : List (Fin S.rank)} (h : S.ReducesTo axes S_) (hu : 0 < S_.numel)
    (bc : S_.BroadcastsInDim S (![] : Fin 0 → Fin S.rank)) (a : FVec Ideal S .f32) (init : IVec S_ 1) (j : S_.Idx)
    (e : Host.reduce IntOp.andi
          (cmpf .olt (Host.absf a) (broadcastInDim S ![] bc (constant (F := Ideal) S_ .f32 0x7F800000#32))) init h hu j = 1#1) :
    AllReal a := fun i =>
  Cert.RealEntries.real_of_abs_lt (a i) (Host.reduce_andi_all _ init h hu j e i)

/-- THE PRECONDITION READ BACK: all five input arrays have only real entries. -/
theorem pre_real (a0 : FVec Ideal S4x16x2048x3 .f32) (a1 : FVec Ideal S16x2048x3 .f32) (a2 : FVec Ideal S4x16x3 .f32)
    (a3 : FVec Ideal S4x16x3 .f32) (a4 : FVec Ideal S4x16 .f32)
    (h : Cert.Pre_finite_inputs.fn (F := Ideal) a0 a1 a2 a3 a4 = (fun _ => 1#1)) :
    AllReal a0 ∧ AllReal a1 ∧ AllReal a2 ∧ AllReal a3 ∧ AllReal a4 := by
  have e := congrFun h (fun a => a.elim0)
  dsimp only [Cert.Pre_finite_inputs.fn, Cert.Pre_finite_inputs.fn_part1, andi] at e
  simp only [IntOp.andi_eq_one] at e
  obtain ⟨⟨⟨⟨e0, e1⟩, e2⟩, e3⟩, e4⟩ := e
  exact ⟨allReal_of_all _ _ _ a0 _ _ e0, allReal_of_all _ _ _ a1 _ _ e1, allReal_of_all _ _ _ a2 _ _ e2,
    allReal_of_all _ _ _ a3 _ _ e3, allReal_of_all _ _ _ a4 _ _ e4⟩

end Cert.Real

end
-- ==== Proof.KRefEq.lean ====
/-
  The two programs' results agree entry by entry. For the pair (r, i) the kernel's grid point stores the two-sided mean
  of nearest squared distances in the kernel's spelling of the squared distance, the reference computes it in its own;
  the two spellings are one function on real entries, and under the precondition every entry involved is real: the
  inputs by the precondition itself, the rotation matrix because cosines, sines, products and sums of reals are real.
-/
import proofs.«118208_j5325759447781_2_alg».proof.Proof.KEntry
import proofs.«118208_j5325759447781_2_alg».proof.Proof.KIHost
import proofs.«118208_j5325759447781_2_alg».proof.Proof.RefValue
import proofs.«118208_j5325759447781_2_alg».proof.Proof.RealAlgebra
import proofs.«118208_j5325759447781_2_alg».proof.Proof.RealRot
import proofs.«118208_j5325759447781_2_alg».proof.Proof.RealPre

noncomputable section

namespace Cert.Bridge

open Idealize.ShloMosaic Idealize.ShloMosaic.ValueIdx Idealize.ShloMosaic.TcCoe Idealize.SL.Sem Cert.KernelIdeal Cert.KernelIdeal.Gen
open Cert.KernelIdeal.Hand Cert.KernelIdeal.PointVal Cert.Real

variable [Cert.KernelIdeal.Facts] [Cert.ReferenceIdeal.Facts] [Cert.Pre_finite_inputs.Facts]

/-- The kernel's squared distance depends on its five arguments entry by entry. -/
theorem d2K_congr {src src' tg tg' : Fin 2048 → Fin 3 → EReal} {R R' : Fin 3 → Fin 3 → EReal} {tr tr' : Fin 3 → EReal} {s s' : EReal}
    (h1 : ∀ q d, src q d = src' q d) (h2 : ∀ q d, tg q d = tg' q d) (h3 : ∀ a b, R a b = R' a b) (h4 : ∀ a, tr a = tr' a) (h5 : s = s')
    (n mm : Fin 2048) : Cert.Spec.d2K src tg R tr s n mm = Cert.Spec.d2K src' tg' R' tr' s' n mm := by
  obtain rfl : src = src' := funext fun q => funext fun d => h1 q d
  obtain rfl : tg = tg' := funext fun q => funext fun d => h2 q d
  obtain rfl : R = R' := funext fun a => funext fun b => h3 a b
  obtain rfl : tr = tr' := funext fun a => h4 a
  subst h5
  rfl

theorem entry_eq (m : (ℓ : Loc nD τ sig) → Buf (Elt Ideal) ℓ) (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = (fun _ => 1#1))
    (t : Fin cfg0.N) :
    out5At (F := Ideal) m c t (ix4 (0 : Fin 1) (0 : Fin 1) (0 : Fin 1) (0 : Fin 1) : S1x1x1x1.Idx)
      = Cert.ReferenceIdeal.Read.val_main_v82 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 (rOf t) (iOf t)) := by
  obtain ⟨h0, h1, h2, h3, h4⟩ := pre_real _ _ _ _ _ hpre
  rw [out5At_value, Cert.RefValue.ref_entry]
  refine congrArg Cert.Spec.chamfer (funext fun n => funext fun mm => ?_)
  refine (d2K_congr (fun q d => V_main_v52_apply m c _ _ d q) (fun q d => V_main_v53_apply m c _ d q)
    (fun a b => congrFun (V_main_v51_eq m c) _) (fun a => V_main_v54_apply m c _ _ a) (V_main_v55_apply m c _ _) n mm).trans ?_
  exact d2_eq _ _ _ _ _ (fun q d => h0 _) (fun q d => h1 _) (fun a b => rot_real _ h2 _) (fun a => h3 _) (h4 _) n mm

end Cert.Bridge

end
-- ==== Proof.lean ====
/-
  The certificate of the chamfer kernel against its reference: Cert.Claim.

  The mathematics. For each of the 4 × 16 pairs (r, i) both programs compute the two-sided mean of nearest squared
  distances between the 2048 target points of index i and the 2048 source points of (r, i) after the similarity
  y = s · (R p + t), R the product of the three elementary rotations of the pair's Euler angles:
      (Σ_n min_m D(n, m)) / 2048 + (Σ_m min_n D(n, m)) / 2048,   D(n, m) = |x_n − y_m|².
  The kernel handles one pair per grid point: it forms y with the rotation's three products added left to right, walks
  the target points in eight tiles of 256, spells D coordinate by coordinate as Σ_c (x_c − y_c)², adds each tile's row
  minima to a running total and folds its column minima into a running minimum. The reference spells D as
  |x|² + |y|² − 2 x·y over whole arrays and reduces once along each axis.
  Why they agree on the extended reals: regrouping a sum tile by tile and a minimum tile by tile uses only
  commutativity and associativity, so it holds at the infinities too; the two spellings of D are the same polynomial
  identity on real numbers, and it is here that the precondition is used — every input is finite, hence real, and the
  rotation's entries are real because cosines, sines, sums and products of reals are real (at an infinite entry
  x² + y² − 2xy can be ∞ − ∞ where (x − y)² is +∞).
  The frames of the two printed kernels run the body through its two printed parts and the counted loop; the
  reference's frame is its run with the result dropped; the idealization rewrote nothing, so preserves is trivial.
-/
import proofs.«118208_j5325759447781_2_alg».proof.Defs
import proofs.«118208_j5325759447781_2_alg».proof.Proof.Gen.Kernel
import proofs.«118208_j5325759447781_2_alg».proof.Proof.Gen.KernelIdeal
import proofs.«118208_j5325759447781_2_alg».proof.Proof.Gen.ReferenceIdeal
import proofs.«118208_j5325759447781_2_alg».proof.Proof.Gen.Pre_finite_inputs
import proofs.«118208_j5325759447781_2_alg».proof.Proof.KFrame
import proofs.«118208_j5325759447781_2_alg».proof.Proof.KIFinal
import proofs.«118208_j5325759447781_2_alg».proof.Proof.KRefEq
import Idealize.ShloMosaic.Adequacy
import Idealize.ShloMosaic.Init

noncomputable section

namespace Cert.Proof

open Idealize.ShloMosaic Idealize.ShloMosaic.ValueIdx Idealize.SL.Sem

/-- Pair (r, i) is handled at grid point 4·i + r, whose second coordinate is r … -/
theorem rOf_ptOf (r : Fin 4) (i : Fin 16) : Cert.KernelIdeal.Hand.rOf (Cert.KernelIdeal.Hand.ptOf r i) = r :=
  Fin.ext (by show (i.val * 4 + r.val) % 4 = r.val; have := r.isLt; omega)

/-- … and whose first coordinate is i. -/
theorem iOf_ptOf (r : Fin 4) (i : Fin 16) : Cert.KernelIdeal.Hand.iOf (Cert.KernelIdeal.Hand.ptOf r i) = i :=
  Fin.ext (by show (i.val * 4 + r.val) / 4 = i.val; have := r.isLt; omega)

theorem frame_p : Cert.frame_Kernel := fun m ρ _ => Cert.Kernel.Hand.frame m ρ

theorem frame_pi : Cert.frame_KernelIdeal := fun m ρ _ => Cert.KernelIdeal.Hand.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same [4,16] array: the kernel's entry (r, i) is what grid point 4·i + r stored, the
    reference's is its last stage read at (r, i), and the two are one number under the precondition. -/
theorem algebraic : Cert.algebraic_KernelIdeal_ReferenceIdeal := by
  intro m ρ m' ρ' hpre hagree
  refine ⟨fun c => (fun j : Cert.KernelIdeal.S4x16.Idx =>
      Cert.KernelIdeal.Hand.out5At m c (Cert.KernelIdeal.Hand.ptOf ⟨(j 0).val, (j 0).isLt⟩ ⟨(j 1).val, (j 1).isLt⟩)
        (ix4 (0 : Fin 1) (0 : Fin 1) (0 : Fin 1) (0 : Fin 1) : Cert.KernelIdeal.S1x1x1x1.Idx)),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, (hagree c).1, (hagree c).2.1, (hagree c).2.2.1, (hagree c).2.2.2.1, (hagree c).2.2.2.2]
  funext j
  obtain ⟨r, i, rfl⟩ : ∃ (r : Fin 4) (i : Fin 16), j = ix2 r i := ⟨j 0, j 1, eq_ix2 j⟩
  have e := Cert.Bridge.entry_eq m c (hpre c) (Cert.KernelIdeal.Hand.ptOf r i)
  rw [rOf_ptOf, iOf_ptOf] at e
  exact e.symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
